-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S5000x10000 : Shape := ⟨2, ![5000, 10000]⟩
abbrev S200x10000 : Shape := ⟨2, ![200, 10000]⟩
abbrev S400x128 : Shape := ⟨2, ![400, 128]⟩
abbrev S200x128 : Shape := ⟨2, ![200, 128]⟩
abbrev S10400x128 : Shape := ⟨2, ![10400, 128]⟩

abbrev nBuf : Space → Nat
  | .hbm => 19
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S128x128, .bf16⟩
  | .hbm, ⟨12, _⟩ => ⟨S128x128, .bf16⟩
  | .hbm, ⟨13, _⟩ => ⟨S10000x128, .bf16⟩
  | .hbm, ⟨14, _⟩ => ⟨S5000x10000, .bf16⟩
  | .hbm, ⟨15, _⟩ => ⟨S5000x10000, .bf16⟩
  | .hbm, ⟨16, _⟩ => ⟨S128x128, .bf16⟩
  | .hbm, ⟨17, _⟩ => ⟨S10400x128, .f32⟩
  | .hbm, ⟨18, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S400x128, .bf16⟩
  | .local _ .vmem, ⟨9, _⟩ => ⟨S400x128, .bf16⟩
  | .local _ .vmem, ⟨10, _⟩ => ⟨S200x10000, .bf16⟩
  | .local _ .vmem, ⟨11, _⟩ => ⟨S200x10000, .bf16⟩
  | .local _ .vmem, ⟨12, _⟩ => ⟨S200x10000, .bf16⟩
  | .local _ .vmem, ⟨13, _⟩ => ⟨S200x10000, .bf16⟩
  | .local _ .vmem, ⟨14, _⟩ => ⟨S10000x128, .bf16⟩
  | .local _ .vmem, ⟨15, _⟩ => ⟨S200x10000, .bf16⟩
  | .local _ .vmem, ⟨16, _⟩ => ⟨S200x10000, .bf16⟩
  | .local _ .vmem, ⟨17, _⟩ => ⟨S200x10000, .bf16⟩
  | .local _ .vmem, ⟨18, _⟩ => ⟨S200x10000, .bf16⟩
  | .local _ .vmem, ⟨19, _⟩ => ⟨S10000x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S400x128, .f32⟩
  | .local _ .vmem, ⟨24, _⟩ => ⟨S400x128, .f32⟩
  | .local _ .vmem, ⟨25, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x10000 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x10000 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) (c0_i32_11 : BitVec 32) : Fin 2 → Nat :=
  let arg1 : BitVec 32 := BitVec.ofNat 32 (i 1).val
  let c400_i32 : BitVec 32 := 400#32
  let v22 : BitVec 32 := Scalar.muli arg1 c400_i32
  let v23 : BitVec 32 := Scalar.addi v22 c0_i32_11
  let v24 : Index := Scalar.indexCast v23
  let c0_12 : Index := 0#32
  ![v24.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c25_i32 : BitVec 32 := 25#32
  let v1 : BitVec 32 := Scalar.select v0 c25_i32 arg1
  let c0_i32_0 : BitVec 32 := 0#32
  let c0_i32_1 : BitVec 32 := 0#32
  ![v1.toNat, c0_i32_0.toNat]

abbrev stage1_0 : Fin 2 → Memref sig .tc .vmem S200x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S200x10000 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S128_S1x128 : S128.ShapeCasts S1x128
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  packedbf16_S400x128_S200x128_0_0 : (Rect.unit (s := S400x128) ![0, 0] S200x128.size inb_S400x128_S200x128_0_0).PackedRows (EltTy.packing .bf16)
  inb_S400x128_S200x128_200_0 : ∀ a, (![200, 0] : Fin 2 → Nat) a + S200x128.size a ≤ S400x128.size a
  packedbf16_S400x128_S200x128_200_0 : (Rect.unit (s := S400x128) ![200, 0] S200x128.size inb_S400x128_S200x128_200_0).PackedRows (EltTy.packing .bf16)
  shapeCasts_S200x10000_S200x10000 : S200x10000.ShapeCasts S200x10000
  shapeCasts_S200x128_S200x128 : S200x128.ShapeCasts S200x128
  slices_S10400x128_S10000x128_0_0 : S10400x128.Slices ![0, 0] S10000x128
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x10000.size a ≤ S5000x10000.size a
  hwx0_7 : ∀ i : grid0.Coords, EltTy.bits .bf16 = 32 ∨ (Rect.block (s := S5000x10000) S200x10000.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x10000.size a ≤ S5000x10000.size a
  hwx0_8 : ∀ i : grid0.Coords, EltTy.bits .bf16 = 32 ∨ (Rect.block (s := S5000x10000) S200x10000.size (cc0_transform_8 i) (hinb0_8 i)).WholeWords (EltTy.packing .bf16)
  hrank1 : 0 < grid1.rank
  k1_off1_inb : ∀ i : grid1.Coords, ∀ (k1_h1 : k1_cond1 i = 1#1), ∀ (r : Fin 2), ∀ a, (k1_off1 i (BitVec.ofNat 32 (200 * r.val))) a + S200x128.size a ≤ S10000x128.size a
  k1_off1_packedbf16 : ∀ i : grid1.Coords, ∀ (k1_h1 : k1_cond1 i = 1#1), ∀ (r : Fin 2), (Rect.unit (s := S10000x128) (k1_off1 i (BitVec.ofNat 32 (200 * r.val))) S200x128.size (k1_off1_inb i k1_h1 r)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S5000x10000.size a
  hwx1_0 : ∀ i : grid1.Coords, EltTy.bits .bf16 = 32 ∨ (Rect.block (s := S5000x10000) S200x10000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S5000x10000.size a
  hwx1_1 : ∀ i : grid1.Coords, EltTy.bits .bf16 = 32 ∨ (Rect.block (s := S5000x10000) S200x10000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10400x128.size a
  hwx1_6 : ∀ i : grid1.Coords, EltTy.bits .f32 = 32 ∨ (Rect.block (s := S10400x128) S400x128.size (cc1_transform_6 i) (hinb1_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S200x10000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_2) S200x10000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v5_1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_0) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Named.lean ====
/-
  Names for what the two kernels leave in their buffers.

  Both kernels work on a row block of 400 rows as two halves of 200 rows: each half is computed from its own 200 rows
  of the adjacency matrix and stored into rows 0..199 or 200..399 of a [400,128] buffer. `stack2 top bot` is that
  buffer: the first 200 rows are `top`, the last 200 rows are `bot`. The second kernel's first phase stores the two
  halves into a [10000,128] scratch at rows o..o+199 and o+200..o+399 and leaves every other row as it was:
  `splice2 o old top bot`.
-/
import proofs.«175765_g50964081934784_cont_8to1c4_784_17_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- Two [200,128] halves stacked into one [400,128] block: rows 0..199 are `top`, rows 200..399 are `bot`. -/
def stack2 {α : Type} (top bot : S200x128.Idx → α) : S400x128.Idx → α := fun y =>
  if h : (y 0).val < 200 then top (ix2 (⟨(y 0).val, h⟩ : Fin 200) (y 1))
  else bot (ix2 (⟨(y 0).val - 200, by have := idx2_lt0 y; omega⟩ : Fin 200) (y 1))

theorem stack2_top {α : Type} (top bot : S200x128.Idx → α) (r : Fin 200) (j : Fin 128) :
    stack2 top bot (ix2 (⟨r.val, by omega⟩ : Fin 400) j) = top (ix2 r j) := by
  unfold stack2; rw [dif_pos (show ((ix2 (⟨r.val, by omega⟩ : Fin 400) j : S400x128.Idx) 0).val < 200 from r.isLt)]

theorem stack2_bot {α : Type} (top bot : S200x128.Idx → α) (r : Fin 200) (j : Fin 128) :
    stack2 top bot (ix2 (⟨r.val + 200, by omega⟩ : Fin 400) j) = bot (ix2 r j) := by
  unfold stack2
  rw [dif_neg (show ¬ ((ix2 (⟨r.val + 200, by omega⟩ : Fin 400) j : S400x128.Idx) 0).val < 200 from by
    show ¬ r.val + 200 < 200; omega)]
  congr 1

/-- A [10000,128] array with rows o..o+199 replaced by `top`, rows o+200..o+399 by `bot`, the rest as in `old`. -/
def splice2 {α : Type} (o : Nat) (old : S10000x128.Idx → α) (top bot : S200x128.Idx → α) : S10000x128.Idx → α := fun y =>
  if h : o ≤ (y 0).val ∧ (y 0).val < o + 200 then top (ix2 (⟨(y 0).val - o, by omega⟩ : Fin 200) (y 1))
  else if h' : o + 200 ≤ (y 0).val ∧ (y 0).val < o + 400 then bot (ix2 (⟨(y 0).val - o - 200, by omega⟩ : Fin 200) (y 1))
  else old y

/-- What the first kernel leaves in its [400,128] output block at a point: from the two adjacency row blocks `x1`, `x2`,
    the carried product `S`, the bias row `x5` and the next layer's weights `x6`. -/
def O7 (S : Vec F S10000x128 .bf16) (x1 x2 : Vec F S200x10000 .f32) (x5 : Vec F S1x128 .f32) (x6 : Vec F S128x128 .bf16) :
    Vec F S400x128 .bf16 :=
  stack2 (k0_pay4 x1 S x5 x6) (k0_pay1 (k0_pay6 x2 S x5) x6)

/-- What the second kernel's second phase leaves in its [400,128] output block at a point. -/
def O8 (xs : Vec F S10000x128 .bf16) (x2 x3 : Vec F S200x10000 .bf16) (x7 : Vec F S1x128 .f32) : Vec F S400x128 .f32 :=
  stack2 (k1_pay2 x2 xs x7) (k1_pay3 x3 xs x7)

/-- What the second kernel's first phase leaves in its scratch at the point of row block `b`: rows 400·b … 400·b+399
    replaced by the two halves computed there. -/
def S9 (b : Nat) (xs : Vec F S10000x128 .bf16) (x2 x3 : Vec F S200x10000 .bf16) (x4 : Vec F S10000x128 .bf16)
    (x5 : Vec F S1x128 .f32) (x6 : Vec F S128x128 .bf16) : Vec F S10000x128 .bf16 :=
  splice2 (400 * b) xs (k1_pay4 x2 x4 x5 x6) (k1_pay1 (k1_pay5 x3 x4 x5) x6)

end Cert.KernelIdeal.Hand

end
-- ==== Proof.Data0.lean ====
/-
  The first kernel's proof data.

  The first kernel visits 25 row blocks of 400 rows. At each it reads two halves of the adjacency block (the same array
  through two windows), at the first point also x and W1, and writes three outputs: the block of the next layer's
  operand p2 = relu(A·p1 + b1)·W2, and the two halves of the adjacency block in the narrower format. The product
  p1 = x·W1 is computed once, at the first point, into a scratch buffer that every point then reads.

  Here: the arrays as the kernel finds them (after the host operations before it), each window's block at a point,
  the carried product, what the body leaves in every staging buffer at every point, and the invariant between points —
  before the first point the scratch holds anything, afterwards it holds the product.
-/
import proofs.«175765_g50964081934784_cont_8to1c4_784_17_alg».proof.Proof.Named
import proofs.«175765_g50964081934784_cont_8to1c4_784_17_alg».proof.Proof.Gen.KernelIdeal.Launch
import proofs.«175765_g50964081934784_cont_8to1c4_784_17_alg».proof.Proof.Gen.KernelIdeal.Points
import proofs.«175765_g50964081934784_cont_8to1c4_784_17_alg».proof.Proof.Gen.KernelIdeal.Regions
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays at the kernel's entry, and the windows' blocks -/

/-- Core `c`'s buffers when the first kernel is entered: the launch contents after the host operations before it. -/
abbrev Va (c : Dev nD) (b : Ref sig .tc) : Buf (Elt F) ((c : Thread nD τ).loc b) := Gen.V1 m c (Proc.devRef .tc b)

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (Va m c (Pipeline.arrRef spec0 w))

/-- The first grid point. -/
abbrev t00 : Fin cfg0.N := ⟨0, by decide⟩

/-- The carried product x·W1, as the first point computes it from the blocks of x and W1. -/
def S1 (c : Dev nD) : Vec F S10000x128 .bf16 := k0_pay2 (iblk0 m c 2 t00) (iblk0 m c 3 t00)

/-! ## The invariant between points -/

/-- The scratch buffer the kernel carries between points. -/
abbrev scM0 : Memref sig .tc .vmem S10000x128 .bf16 := Memref.whole cc0_scratch0

/-- The core's other scoped buffers that are no staging buffer of this kernel (the second kernel's). -/
abbrev restL0 : List (Ref sig .tc) :=
  [cc1_stg0_0, cc1_stg0_1, cc1_stg1_0, cc1_stg1_1, cc1_stg2_0, cc1_stg3_0, cc1_stg4_0, cc1_stg5_0, cc1_stg6_0, cc1_stg6_1, cc1_scratch0]

/-- Those buffers, each whole at some contents. -/
def rest0 (c : Dev nD) : sProp 𝕄 :=
  bigSepL restL0 fun b => iprop(∃ f : Buf (Elt F) ((c : Thread nD τ).loc b), ((c : Thread nD τ).loc b) ↦{fullShare} f)

/-- The scoped buffers the kernel does not stage: its scratch at some contents, and the rest. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_eq_of_list spec0 c (cc0_scratch0 :: restL0) (by decide) (by decide)]
  unfold rest0; simp only [scM0, owns_whole]; rfl

/-- The invariant before point `n`: before the first the scratch holds anything; afterwards the carried product. -/
def Phi0 (c : Dev nD) : ℕ → sProp 𝕄
  | 0 => Pipeline.scopedRest (Ix := Unit) (Name := ℕ) (U := UR sig nD τ) (Lvl := ℕ) (Val := Elt F) spec0 c
  | _ + 1 => iprop(owns (c : Thread nD τ) scM0 fullShare (S1 m c) ∗ rest0 c)

theorem Phi0_zero (c : Dev nD) : Phi0 m c 0 = iprop((∃ d, owns (c : Thread nD τ) scM0 fullShare d) ∗ rest0 c) :=
  scopedRest0_split c

theorem Phi0_pos (c : Dev nD) (n : ℕ) (hn : n ≠ 0) : Phi0 m c n = iprop(owns (c : Thread nD τ) scM0 fullShare (S1 m c) ∗ rest0 c) := by
  cases n with
  | zero => exact absurd rfl hn
  | succ n => rfl

/-! ## The proof data -/

/-- The first kernel's proof data on core `c`: the arrays as the kernel finds them; after the body each input's buffer
    at its block, the three outputs' at what the point computes; the invariant above; the adjacency array held half by
    each of its two windows. -/
def dat0 (c : Dev nD) : Dat τ (Elt F) Unit ℕ (UR sig nD τ) ℕ cfg0 c where
  A w := Va m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => iblk0 m c 5 t
    | ⟨6, _⟩ => O7 (S1 m c) (iblk0 m c 0 t) (iblk0 m c 1 t) (iblk0 m c 4 t) (iblk0 m c 5 t)
    | ⟨7, _⟩ => k0_pay3 (iblk0 m c 0 t)
    | ⟨8, _⟩ => k0_pay5 (iblk0 m c 1 t)
  Φ t := Phi0 m c t.val
  q w := match w with
    | ⟨0, _⟩ => fullShare.left
    | ⟨1, _⟩ => fullShare.right
    | _ => fullShare
  owed _ := 0

theorem A0_eq (c : Dev nD) (w : Fin cfg0.W) : (dat0 m c).A w = Va m c (Pipeline.arrRef spec0 w) := by
  dsimp only [dat0]

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = iblk0 m c 4 t := by dsimp only [dat0]
theorem after0_5 (c : Dev nD) (t : Fin cfg0.N) : (dat0 m c).after 5 t = iblk0 m c 5 t := by dsimp only [dat0]
theorem after0_6 (c : Dev nD) (t : Fin cfg0.N) :
    (dat0 m c).after 6 t = O7 (S1 m c) (iblk0 m c 0 t) (iblk0 m c 1 t) (iblk0 m c 4 t) (iblk0 m c 5 t) := by dsimp only [dat0]
theorem after0_7 (c : Dev nD) (t : Fin cfg0.N) : (dat0 m c).after 7 t = k0_pay3 (iblk0 m c 0 t) := by dsimp only [dat0]
theorem after0_8 (c : Dev nD) (t : Fin cfg0.N) : (dat0 m c).after 8 t = k0_pay5 (iblk0 m c 1 t) := by dsimp only [dat0]

/-! ## Each input's buffer holds its block at every point, fetched there or not -/

theorem before0_0 (c : Dev nD) (t : Fin cfg0.N) (d) : (dat0 m c).before 0 t d = iblk0 m c 0 t :=
  ((dat0 m c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 m c).before 1 t d = iblk0 m c 1 t :=
  ((dat0 m c).before_in_eq_fetched 1 rfl (fun _ => rfl) (fun _ _ _ => rfl)
      (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 m c).before 2 t d = iblk0 m c 2 t :=
  ((dat0 m c).before_in_eq_fetched 2 rfl (fun _ => rfl) (fun _ _ _ => rfl)
      (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 m c).before 3 t d = iblk0 m c 3 t :=
  ((dat0 m c).before_in_eq_fetched 3 rfl (fun _ => rfl) (fun _ _ _ => rfl)
      (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 m c).before 4 t d = iblk0 m c 4 t :=
  ((dat0 m c).before_in_eq_fetched 4 rfl (fun _ => rfl) (fun _ _ _ => rfl)
      (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 m c).before 5 t d = iblk0 m c 5 t :=
  ((dat0 m c).before_in_eq_fetched 5 rfl (fun _ => rfl) (fun _ _ _ => rfl)
      (fun t => by rw [after0_5]; unfold Dat.blockOf iblk0; rw [A0_eq]; try rfl) t d).trans
    (by unfold Dat.fetched Dat.blockOf iblk0; rw [A0_eq]; try rfl)

end Cert.KernelIdeal.Hand

end
-- ==== Proof.Data1.lean ====
/-
  The second kernel's proof data.

  The second kernel runs two phases over the same 25 row blocks. It reads the two halves of the adjacency block (as the
  first kernel wrote them, narrowed), the whole of p2, the bias rows b2 and b3 and the weights W3. In the first phase it
  computes, per row block, p3 = relu(A·p2 + b2)·W3 for the block's 400 rows and stores them into a scratch buffer at the
  block's rows; the output window is not stored into. In the second phase it reads the whole scratch and writes the
  output block A·p3 + b3.

  The output window keeps one block index (beyond the rows that are kept) through the first phase, so when the index
  changes at the phase boundary the pipeline writes back a buffer the body never stored into. What that write-back
  leaves cannot be named; so the data here RELATE what the body leaves in a buffer to what it found there: an input's
  buffer is left as found; the output's buffer is left as found in the first phase and holds the computed block in the
  second. The invariant tracks the scratch: before point n its rows below 400·min(n,25) are the rows of p3.
-/
import proofs.«175765_g50964081934784_cont_8to1c4_784_17_alg».proof.Proof.Data0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the first kernel left, and the arrays at the second kernel's entry -/

/-- The first kernel's three result arrays after its run: each as its write-backs leave it. -/
def a6 (c : Dev nD) : Buf (Elt F) ((c : Thread nD τ).loc main_v5_0) := (dat0 m c).arrAt 6 cfg0.N
def a7 (c : Dev nD) : Buf (Elt F) ((c : Thread nD τ).loc main_v5_1) := (dat0 m c).arrAt 7 cfg0.N
def a8 (c : Dev nD) : Buf (Elt F) ((c : Thread nD τ).loc main_v5_2) := (dat0 m c).arrAt 8 cfg0.N

/-- The contents the first kernel leaves in the buffers it may change, as a table over all buffers (only the three
    result arrays are ever read from it). -/
def outs0 : Gen.Outs (F := F) := fun _ r c =>
  if h0 : r = main_v5_0 then h0 ▸ a6 m c
  else if h1 : r = main_v5_1 then h1 ▸ a7 m c
  else if h2 : r = main_v5_2 then h2 ▸ a8 m c
  else Gen.V1 m c r

theorem outs0_v5_0 (J : ℕ) (c : Dev nD) : outs0 m J main_v5_0 c = a6 m c := by unfold outs0; rw [dif_pos rfl]
theorem outs0_v5_1 (J : ℕ) (c : Dev nD) : outs0 m J main_v5_1 c = a7 m c := by
  unfold outs0; rw [dif_neg (by decide), dif_pos rfl]
theorem outs0_v5_2 (J : ℕ) (c : Dev nD) : outs0 m J main_v5_2 c = a8 m c := by
  unfold outs0; rw [dif_neg (by decide), dif_neg (by decide), dif_pos rfl]

/-- Core `c`'s buffers when the second kernel is entered. -/
abbrev Vb (c : Dev nD) (b : Ref sig .tc) : Buf (Elt F) ((c : Thread nD τ).loc b) := Gen.V3 m (outs0 m) c (Proc.devRef .tc b)

/-- Window `w`'s block at point `t`, read off its array as the second kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vb m c (Pipeline.arrRef spec1 w))

/-! ## The carried scratch: the rows of p3 -/

/-- The first-phase point of row block `b`. -/
def tb (b : ℕ) (hb : b < 25) : Fin cfg1.N := ⟨b, by have : cfg1.N = 50 := N_1; omega⟩

/-- The 400 rows of p3 the first phase computes at row block `b`. -/
def p3blk (c : Dev nD) (b : ℕ) (hb : b < 25) : S400x128.Idx → F .bf16 :=
  stack2 (k1_pay4 (iblk1 m c 0 (tb b hb)) (iblk1 m c 2 (tb b hb)) (iblk1 m c 3 (tb b hb)) (iblk1 m c 4 (tb b hb)))
    (k1_pay1 (k1_pay5 (iblk1 m c 1 (tb b hb)) (iblk1 m c 2 (tb b hb)) (iblk1 m c 3 (tb b hb))) (iblk1 m c 4 (tb b hb)))

/-- p3 as the first phase leaves it in the scratch: row r is row r mod 400 of the block r / 400. -/
def P3 (c : Dev nD) : Vec F S10000x128 .bf16 := fun y =>
  p3blk m c ((y 0).val / 400) (by have := ValueIdx.idx2_lt0 y; omega)
    (ValueIdx.ix2 (⟨(y 0).val % 400, Nat.mod_lt _ (by norm_num)⟩ : Fin 400) (y 1))

/-! ## The invariant between points -/

/-- The scratch buffer the kernel carries between points. -/
abbrev scM1 : Memref sig .tc .vmem S10000x128 .bf16 := Memref.whole cc1_scratch0

/-- The core's other scoped buffers that are no staging buffer of this kernel (the first kernel's). -/
abbrev restL1 : List (Ref sig .tc) :=
  [cc0_stg0_0, cc0_stg0_1, cc0_stg1_0, cc0_stg1_1, cc0_stg2_0, cc0_stg3_0, cc0_stg4_0, cc0_stg5_0, cc0_stg6_0, cc0_stg6_1,
   cc0_stg7_0, cc0_stg7_1, cc0_stg8_0, cc0_stg8_1, cc0_scratch0]

/-- Those buffers, each whole at some contents. -/
def rest1 (c : Dev nD) : sProp 𝕄 :=
  bigSepL restL1 fun b => iprop(∃ f : Buf (Elt F) ((c : Thread nD τ).loc b), ((c : Thread nD τ).loc b) ↦{fullShare} f)

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 c) := by
  rw [Pipeline.scopedRest_eq_of_list spec1 c (cc1_scratch0 :: restL1) (by decide) (by decide)]
  unfold rest1; simp only [scM1, owns_whole]; rfl

/-- The scratch agrees with p3 on the rows the first phase has stored by point `n`. -/
def Inv1 (c : Dev nD) (n : ℕ) (xs : Vec F S10000x128 .bf16) : Prop :=
  ∀ y : S10000x128.Idx, (y 0).val < 400 * min n 25 → xs y = P3 m c y

/-- The invariant before point `n`: the scratch at contents that agree with p3 on the rows stored so far. -/
def Phi1 (c : Dev nD) (n : ℕ) : sProp 𝕄 :=
  iprop((∃ xs, ⌜Inv1 m c n xs⌝ ∗ owns (c : Thread nD τ) scM1 fullShare xs) ∗ rest1 c)

/-! ## The proof data -/

/-- The second kernel's proof data on core `c`. -/
def rd1 (c : Dev nD) : RDat τ (Elt F) Unit ℕ (UR sig nD τ) ℕ cfg1 c where
  A w := Vb m c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => if 25 ≤ t.val then X = O8 (P3 m c) (iblk1 m c 0 t) (iblk1 m c 1 t) (iblk1 m c 5 t) else X = Y
  Φ t := Phi1 m c t.val
  q _ := fullShare
  owed _ := 0

theorem A1_eq (c : Dev nD) (w : Fin cfg1.W) : (rd1 m c).A w = Vb m c (Pipeline.arrRef spec1 w) := by
  dsimp only [rd1]

theorem after1_0 (c : Dev nD) (t : Fin cfg1.N) (Y X) : (rd1 m c).after 0 t Y X ↔ X = Y := by dsimp only [rd1]; exact Iff.rfl
theorem after1_1 (c : Dev nD) (t : Fin cfg1.N) (Y X) : (rd1 m c).after 1 t Y X ↔ X = Y := by dsimp only [rd1]; exact Iff.rfl
theorem after1_2 (c : Dev nD) (t : Fin cfg1.N) (Y X) : (rd1 m c).after 2 t Y X ↔ X = Y := by dsimp only [rd1]; exact Iff.rfl
theorem after1_3 (c : Dev nD) (t : Fin cfg1.N) (Y X) : (rd1 m c).after 3 t Y X ↔ X = Y := by dsimp only [rd1]; exact Iff.rfl
theorem after1_4 (c : Dev nD) (t : Fin cfg1.N) (Y X) : (rd1 m c).after 4 t Y X ↔ X = Y := by dsimp only [rd1]; exact Iff.rfl
theorem after1_5 (c : Dev nD) (t : Fin cfg1.N) (Y X) : (rd1 m c).after 5 t Y X ↔ X = Y := by dsimp only [rd1]; exact Iff.rfl
theorem after1_6 (c : Dev nD) (t : Fin cfg1.N) (Y X) :
    (rd1 m c).after 6 t Y X ↔ (if 25 ≤ t.val then X = O8 (P3 m c) (iblk1 m c 0 t) (iblk1 m c 1 t) (iblk1 m c 5 t) else X = Y) := by
  dsimp only [rd1]; exact Iff.rfl

/-! ## Each input's buffer holds its block wherever the body is handed it -/

theorem finds1_0 (c : Dev nD) (t : Fin cfg1.N) (Y) (hY : (rd1 m c).Finds 0 t Y) : Y = iblk1 m c 0 t := by
  obtain ⟨d, hd⟩ := (rd1 m c).finds_in_eq_fetched 0 rfl (fun _ _ _ => rfl) (fun t Y X h => (after1_0 m c t Y X).mp h) t Y hY
  rw [hd]; unfold RDat.fetched RDat.blockOf iblk1; rw [A1_eq]; try rfl
theorem finds1_1 (c : Dev nD) (t : Fin cfg1.N) (Y) (hY : (rd1 m c).Finds 1 t Y) : Y = iblk1 m c 1 t := by
  obtain ⟨d, hd⟩ := (rd1 m c).finds_in_eq_fetched 1 rfl (fun _ _ _ => rfl) (fun t Y X h => (after1_1 m c t Y X).mp h) t Y hY
  rw [hd]; unfold RDat.fetched RDat.blockOf iblk1; rw [A1_eq]; try rfl
theorem finds1_2 (c : Dev nD) (t : Fin cfg1.N) (Y) (hY : (rd1 m c).Finds 2 t Y) : Y = iblk1 m c 2 t := by
  obtain ⟨d, hd⟩ := (rd1 m c).finds_in_eq_fetched 2 rfl (fun _ _ _ => rfl) (fun t Y X h => (after1_2 m c t Y X).mp h) t Y hY
  rw [hd]; unfold RDat.fetched RDat.blockOf iblk1; rw [A1_eq]; try rfl
theorem finds1_3 (c : Dev nD) (t : Fin cfg1.N) (Y) (hY : (rd1 m c).Finds 3 t Y) : Y = iblk1 m c 3 t := by
  obtain ⟨d, hd⟩ := (rd1 m c).finds_in_eq_fetched 3 rfl (fun _ _ _ => rfl) (fun t Y X h => (after1_3 m c t Y X).mp h) t Y hY
  rw [hd]; unfold RDat.fetched RDat.blockOf iblk1; rw [A1_eq]; try rfl
theorem finds1_4 (c : Dev nD) (t : Fin cfg1.N) (Y) (hY : (rd1 m c).Finds 4 t Y) : Y = iblk1 m c 4 t := by
  obtain ⟨d, hd⟩ := (rd1 m c).finds_in_eq_fetched 4 rfl (fun _ _ _ => rfl) (fun t Y X h => (after1_4 m c t Y X).mp h) t Y hY
  rw [hd]; unfold RDat.fetched RDat.blockOf iblk1; rw [A1_eq]; try rfl
theorem finds1_5 (c : Dev nD) (t : Fin cfg1.N) (Y) (hY : (rd1 m c).Finds 5 t Y) : Y = iblk1 m c 5 t := by
  obtain ⟨d, hd⟩ := (rd1 m c).finds_in_eq_fetched 5 rfl (fun _ _ _ => rfl) (fun t Y X h => (after1_5 m c t Y X).mp h) t Y hY
  rw [hd]; unfold RDat.fetched RDat.blockOf iblk1; rw [A1_eq]; try rfl

end Cert.KernelIdeal.Hand

end
-- ==== Proof.LibArraysShares.lean ====
/-
  The windowed arrays of a pipeline kernel as points-tos of whole buffers, WINDOW BY WINDOW AT ITS OWN SHARE.

  A pipeline holds each window's array at a share: the full share for an output, the proof data's share for an input —
  less than full when several input windows read one array. When every window's array is a whole buffer, holding the
  arrays is holding, per window, the buffer behind its array at that share [arrays_eq_shares, for exact proof data];
  and for relational proof data, holding the arrays after the write-backs below a point is holding, per window, the
  buffer at SOME contents the relation allows then [arraysAt_eq_shares]. Both hold for every configuration; stating them
  here keeps the index sets of concrete, large arrays out of the argument.
-/
import Idealize.ShloMosaic.Lib.Pipeline.Launch

noncomputable section

namespace Cert.LibArraysShares

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.TcCoe

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD}

local notation "𝕄" => MT nD τ sig Ix Val Name U Lvl

/-- The arrays of exact proof data at contents G: per window the whole buffer behind its array, at the window's share. -/
theorem arrays_eq_shares (dat : Dat τ Val Ix Name U Lvl cfg c) (harr : ∀ w, (cfg.spec w).arr.IsWhole)
    (G : (w : Fin cfg.W) → Buf Val ((cfg.win w).arr.view.loc (c.tc : Thread nD τ))) :
    (dat.arrays G : sProp 𝕄)
      = bigSep Finset.univ fun w => (((c.tc : Thread nD τ).loc (arrRef cfg.spec w)) ↦{dat.share w} G w : sProp 𝕄) := by
  unfold Dat.arrays
  exact bigSep_congr fun w _ => by rw [(harr w).set_eq_univ]

/-- The arrays of relational proof data after the write-backs below point n: per window the whole buffer behind its array,
    at the window's share, at some contents the relation allows then. -/
theorem arraysAt_eq_shares (rd : RDat τ Val Ix Name U Lvl cfg c) (harr : ∀ w, (cfg.spec w).arr.IsWhole) (n : Nat) :
    (rd.arraysAt n : sProp 𝕄)
      = bigSep Finset.univ fun w => (iprop(∃ G, ⌜rd.ArrAt w n G⌝ ∗ ((c.tc : Thread nD τ).loc (arrRef cfg.spec w)) ↦{rd.share w} G) : sProp 𝕄) := by
  unfold RDat.arraysAt
  exact bigSep_congr fun w _ => by rw [(harr w).set_eq_univ]

end Cert.LibArraysShares

end
-- ==== Proof.Seg0.lean ====
/-
  The first kernel as a segment of the program.

  Between the program's items a core holds every unscoped buffer whole, at known contents. The first kernel takes the
  arrays its windows name out of them — the adjacency array, which two windows read, dealt to them half and half — and
  leaves the others untouched; at its exit the two halves are joined again, the three result arrays hold what the
  write-backs left, and the buffers are whole again at the contents the next item starts from.
-/
import proofs.«175765_g50964081934784_cont_8to1c4_784_17_alg».proof.Proof.Data1
import proofs.«175765_g50964081934784_cont_8to1c4_784_17_alg».proof.Proof.LibArraysShares
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The family of proof data, and the launch's parameters -/

/-- The two kernels' proof data as one family of relational data: the first kernel's exact data read relationally. -/
def rdats (p : Fin 2) (c : Dev nD) : RDat τ (Elt F) Unit ℕ (UR sig nD τ) ℕ (cfgs p) c :=
  match p with
  | ⟨0, _⟩ => (dat0 m c).toR
  | ⟨1, _⟩ => rd1 m c

/-- No core owes another anything: no level is assigned. -/
abbrev Lr : GSem nD τ sig → Finset Unit := fun _ => ∅
abbrev lvr : GSem nD τ sig → Unit → ℕ := fun _ _ => 0

/-- What rides beside the buffers between items: the core owes nothing. -/
abbrev Rr (c : Dev nD) : sProp 𝕄 := iprop(∃ W, owes (c : Thread nD τ) (0 : CellTallies nD τ sig Unit) W)

/-! ## The first kernel's arrays, window by window -/

theorem share0_0 (c : Dev nD) : (dat0 m c).share 0 = fullShare.left := rfl
theorem share0_1 (c : Dev nD) : (dat0 m c).share 1 = fullShare.right := rfl
theorem share0_2 (c : Dev nD) : (dat0 m c).share 2 = fullShare := rfl
theorem share0_3 (c : Dev nD) : (dat0 m c).share 3 = fullShare := rfl
theorem share0_4 (c : Dev nD) : (dat0 m c).share 4 = fullShare := rfl
theorem share0_5 (c : Dev nD) : (dat0 m c).share 5 = fullShare := rfl
theorem share0_6 (c : Dev nD) : (dat0 m c).share 6 = fullShare := rfl
theorem share0_7 (c : Dev nD) : (dat0 m c).share 7 = fullShare := rfl
theorem share0_8 (c : Dev nD) : (dat0 m c).share 8 = fullShare := rfl

/-- The first kernel's arrays at contents `G`, as points-tos of whole buffers, window by window (the two windows on the
    adjacency array at half each; the others at their own share, which is the full one). -/
theorem arrays0_eq (c : Dev nD) (G : (w : Fin cfg0.W) → Buf (Elt F) ((cfg0.win w).arr.view.loc (c : Thread nD τ))) :
    ((dat0 m c).arrays G : sProp 𝕄)
      = iprop((((c : Thread nD τ).loc (Pipeline.arrRef spec0 0)) ↦{fullShare.left} G 0) ∗ (((c : Thread nD τ).loc (Pipeline.arrRef spec0 1)) ↦{fullShare.right} G 1)
          ∗ (((c : Thread nD τ).loc (Pipeline.arrRef spec0 2)) ↦{(dat0 m c).share 2} G 2) ∗ (((c : Thread nD τ).loc (Pipeline.arrRef spec0 3)) ↦{(dat0 m c).share 3} G 3)
          ∗ (((c : Thread nD τ).loc (Pipeline.arrRef spec0 4)) ↦{(dat0 m c).share 4} G 4) ∗ (((c : Thread nD τ).loc (Pipeline.arrRef spec0 5)) ↦{(dat0 m c).share 5} G 5)
          ∗ (((c : Thread nD τ).loc (Pipeline.arrRef spec0 6)) ↦{(dat0 m c).share 6} G 6) ∗ (((c : Thread nD τ).loc (Pipeline.arrRef spec0 7)) ↦{(dat0 m c).share 7} G 7)
          ∗ (((c : Thread nD τ).loc (Pipeline.arrRef spec0 8)) ↦{(dat0 m c).share 8} G 8)) := by
  rw [Cert.LibArraysShares.arrays_eq_shares (dat0 m c) arr_whole0 G, bigSep_W0, share0_0, share0_1]

/-- The distinct buffers behind the first kernel's arrays, listed by the windows that name them (windows 0 and 1 name one
    buffer, listed once). -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))
          ∗ (((c : Thread nD τ).loc (Pipeline.arrRef spec0 3)) ↦{fullShare} V (Pipeline.arrRef spec0 3))
          ∗ (((c : Thread nD τ).loc (Pipeline.arrRef spec0 4)) ↦{fullShare} V (Pipeline.arrRef spec0 4))
          ∗ (((c : Thread nD τ).loc (Pipeline.arrRef spec0 5)) ↦{fullShare} V (Pipeline.arrRef spec0 5))
          ∗ (((c : Thread nD τ).loc (Pipeline.arrRef spec0 6)) ↦{fullShare} V (Pipeline.arrRef spec0 6))
          ∗ (((c : Thread nD τ).loc (Pipeline.arrRef spec0 7)) ↦{fullShare} V (Pipeline.arrRef spec0 7))
          ∗ (((c : Thread nD τ).loc (Pipeline.arrRef spec0 8)) ↦{fullShare} V (Pipeline.arrRef spec0 8))) := by
  unfold Pipeline.arrBufs
  exact bigSep_eq_bigSepL_of_eq [Pipeline.arrRef spec0 0, Pipeline.arrRef spec0 2, Pipeline.arrRef spec0 3, Pipeline.arrRef spec0 4,
    Pipeline.arrRef spec0 5, Pipeline.arrRef spec0 6, Pipeline.arrRef spec0 7, Pipeline.arrRef spec0 8] (by decide) (by decide) _

set_option maxHeartbeats 4000000 in
/-- ENTRY: the buffers behind the arrays, whole at the entry contents, dealt to the windows. -/
theorem split0 (c : Dev nD) :
    (Pipeline.arrBufs (Ix := Unit) (Name := ℕ) (U := UR sig nD τ) (Lvl := ℕ) spec0 c (Va m c) : sProp 𝕄) ⊢ (dat0 m c).arrays (dat0 m c).A := by
  rw [arrBufs0_eq, arrays0_eq, A0_eq, A0_eq, A0_eq, A0_eq, A0_eq, A0_eq, A0_eq, A0_eq, A0_eq, share0_2, share0_3, share0_4, share0_5, share0_6, share0_7, share0_8]
  iintro ⟨H1, H0, H3, H0', H4, H50, H51, H52⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H3]; · iexact H3
  isplitl [H0']; · iexact H0'
  isplitl [H4]; · iexact H4
  isplitl [H50]; · iexact H50
  isplitl [H51]; · iexact H51
  iexact H52

/-! ## The buffers after the first kernel -/

theorem V2_v5_0 (c : Dev nD) : Gen.V2 m (outs0 m) c main_v5_0 = a6 m c := by
  simp only [Gen.V2, Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1), Function.update_self]
  exact outs0_v5_0 m 2 c
theorem V2_v5_1 (c : Dev nD) : Gen.V2 m (outs0 m) c main_v5_1 = a7 m c := by
  simp only [Gen.V2, Function.update_of_ne (StableHlo.devRef_ne_of_ne (by decide) : (Proc.devRef .tc main_v5_1 : DevRef τ sig) ≠ Proc.devRef .tc main_v5_2),
    Function.update_self]
  exact outs0_v5_1 m 2 c
theorem V2_v5_2 (c : Dev nD) : Gen.V2 m (outs0 m) c main_v5_2 = a8 m c := by
  simp only [Gen.V2, Function.update_self]
  exact outs0_v5_2 m 2 c

/-- Off the three result arrays the buffers are as the kernel found them. -/
theorem unscopedRest0_V2 (c : Dev nD) :
    (Pipeline.unscopedRest (Ix := Unit) (Name := ℕ) (U := UR sig nD τ) (Lvl := ℕ) spec0 c (fun b => Gen.V2 m (outs0 m) c (Proc.devRef .tc b)) : sProp 𝕄)
      = Pipeline.unscopedRest spec0 c (Va m c) := by
  unfold Pipeline.unscopedRest
  refine bigSep_congr fun b hb => ?_
  have hb' := (Finset.mem_sdiff.mp hb).2
  beta_reduce
  rw [Gen.V2_of m (outs0 m) c b (fun hmem => hb' (by
    simp only [List.mem_cons, List.mem_nil_iff, or_false] at hmem
    rcases hmem with rfl | rfl | rfl <;> decide))]

set_option maxHeartbeats 4000000 in
/-- EXIT: the arrays after the write-backs and the untouched rest are the unscoped buffers, whole, at the contents the
    next item starts from. -/
theorem exit0 (c : Dev nD) :
    iprop((dat0 m c).arrays ((dat0 m c).arrAt · cfg0.N)
        ∗ Pipeline.unscopedRest (Ix := Unit) (Name := ℕ) (U := UR sig nD τ) (Lvl := ℕ) spec0 c (Va m c))
      ⊢ (StableHlo.held (c : Thread nD τ) (Pipeline.ucRefs τ sig) (Gen.V2 m (outs0 m) c) : sProp 𝕄) := by
  rw [← Pipeline.unscopedBufs_held (Ix := Unit) (Name := ℕ) (U := UR sig nD τ) (Lvl := ℕ) c (Gen.V2 m (outs0 m) c),
    Pipeline.unscopedBufs_split₀ cfgs 0 winFacts₀0.arr_unscoped c _]
  change _ ⊢ iprop((Pipeline.arrBufs spec0 c (fun b => Gen.V2 m (outs0 m) c (Proc.devRef .tc b)) : sProp 𝕄)
    ∗ Pipeline.unscopedRest spec0 c (fun b => Gen.V2 m (outs0 m) c (Proc.devRef .tc b)))
  rw [unscopedRest0_V2, arrBufs0_eq, arrays0_eq]
  have f0 : Gen.V2 m (outs0 m) c (Proc.devRef .tc (Pipeline.arrRef spec0 0)) = (dat0 m c).arrAt 0 cfg0.N :=
    (Gen.V2_of m (outs0 m) c main_arg1 (by decide)).trans (((dat0 m c).arrAt_in 0 rfl _).trans (A0_eq m c 0)).symm
  have f1 : (dat0 m c).arrAt 1 cfg0.N = (dat0 m c).arrAt 0 cfg0.N :=
    (((dat0 m c).arrAt_in 1 rfl _).trans (A0_eq m c 1)).trans (((dat0 m c).arrAt_in 0 rfl _).trans (A0_eq m c 0)).symm
  have f2 : Gen.V2 m (outs0 m) c (Proc.devRef .tc (Pipeline.arrRef spec0 2)) = (dat0 m c).arrAt 2 cfg0.N :=
    (Gen.V2_of m (outs0 m) c main_arg0 (by decide)).trans (((dat0 m c).arrAt_in 2 rfl _).trans (A0_eq m c 2)).symm
  have f3 : Gen.V2 m (outs0 m) c (Proc.devRef .tc (Pipeline.arrRef spec0 3)) = (dat0 m c).arrAt 3 cfg0.N :=
    (Gen.V2_of m (outs0 m) c main_v3 (by decide)).trans (((dat0 m c).arrAt_in 3 rfl _).trans (A0_eq m c 3)).symm
  have f4 : Gen.V2 m (outs0 m) c (Proc.devRef .tc (Pipeline.arrRef spec0 4)) = (dat0 m c).arrAt 4 cfg0.N :=
    (Gen.V2_of m (outs0 m) c main_v0 (by decide)).trans (((dat0 m c).arrAt_in 4 rfl _).trans (A0_eq m c 4)).symm
  have f5 : Gen.V2 m (outs0 m) c (Proc.devRef .tc (Pipeline.arrRef spec0 5)) = (dat0 m c).arrAt 5 cfg0.N :=
    (Gen.V2_of m (outs0 m) c main_v4 (by decide)).trans (((dat0 m c).arrAt_in 5 rfl _).trans (A0_eq m c 5)).symm
  have f6 : Gen.V2 m (outs0 m) c (Proc.devRef .tc (Pipeline.arrRef spec0 6)) = (dat0 m c).arrAt 6 cfg0.N := V2_v5_0 m c
  have f7 : Gen.V2 m (outs0 m) c (Proc.devRef .tc (Pipeline.arrRef spec0 7)) = (dat0 m c).arrAt 7 cfg0.N := V2_v5_1 m c
  have f8 : Gen.V2 m (outs0 m) c (Proc.devRef .tc (Pipeline.arrRef spec0 8)) = (dat0 m c).arrAt 8 cfg0.N := V2_v5_2 m c
  rw [f0, f1, f2, f3, f4, f5, f6, f7, f8, share0_2, share0_3, share0_4, share0_5, share0_6, share0_7, share0_8]
  iintro ⟨⟨H1l, H1r, H0, H3, H0', H4, H50, H51, H52⟩, Hur⟩
  isplitr [Hur]; swap; · iexact Hur
  isplitl [H1l H1r]
  · iapply (pointsTo_share (PosShare.mem_left_op_right fullShare)).2
    isplitl [H1l] <;> iassumption
  isplitl [H0]; · iexact H0
  isplitl [H3]; · iexact H3
  isplitl [H0']; · iexact H0'
  isplitl [H4]; · iexact H4
  isplitl [H50]; · iexact H50
  isplitl [H51]; · iexact H51
  iexact H52

/-! ## The segment -/

set_option backward.isDefEq.respectTransparency.types false in
/-- THE FIRST KERNEL as a segment: the layout facts, no semaphore of its own, the body obligation; entered from the
    unscoped buffers after the first host operations, left at the contents the next host operations start from. -/
def reg0 (hb : ∀ c, BodyObligation (dat0 m c) (defs₀ (F := F)) Variants.none () Set.univ) :
    Pipeline.RDat.RegionSeg (pcfgs (F := F)) Gen.adm (rdats m) () defs₀ Variants.none Lr lvr 0 where
  win := winFacts₀0
  block_pos := block_pos0
  stage_whole := stage_whole0
  K := PEmpty
  osem := fun k => k.elim
  ho := Pipeline.OwnSemFacts.none spec0
  hbody c := (hb c).loose.toR
  hwaits := Pipeline.RDat.hwaits_of_owed_zero _ _ _ _ Lr lvr 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs0 m) c) ∗ Rr c)
  X _ := iprop(emp)
  Y _ := iprop(emp)
  Z c := Pipeline.unscopedRest (Ix := Unit) (Name := ℕ) (U := UR sig nD τ) (Lvl := ℕ) spec0 c (Va m c)
  hentry c := by
    rw [show (StableHlo.held (c : Thread nD τ) (Pipeline.ucRefs τ sig) (Gen.V1 m c) : sProp 𝕄) = unscopedBufs c (Va m c) from
      (Pipeline.unscopedBufs_held c (Gen.V1 m c)).symm, Pipeline.unscopedBufs_split₀ cfgs 0 winFacts₀0.arr_unscoped c (Va m c)]
    iintro ⟨⟨⟨Hab, Hur⟩, HO⟩, -, -⟩
    imodintro
    isplitl [Hab]
    · iapply (show ((dat0 m c).arrays (dat0 m c).A : sProp 𝕄) ⊢ (rdats m 0 c).arrays (rdats m 0 c).A from Entails.of_eq rfl)
      iapply (split0 m c); iexact Hab
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hur
  hin c := by
    iintro ⟨-, -, HR⟩
    iapply (show (Pipeline.scopedRest (Ix := Unit) (Name := ℕ) (U := UR sig nD τ) (Lvl := ℕ) (Val := Elt F) spec0 c : sProp 𝕄) ⊢ (rdats m 0 c).Φ 0 from
      Entails.of_eq rfl)
    iexact HR
  hout c := by
    rw [Pipeline.ownSems0_none]
    change (Phi0 m c 25 : sProp 𝕄) ⊢ iprop(emp ∗ emp ∗ Pipeline.scopedRest (Ix := Unit) (Name := ℕ) (U := UR sig nD τ) (Lvl := ℕ) (Val := Elt F) spec0 c)
    rw [Phi0_pos m c 25 (by decide), scopedRest0_split]
    iintro ⟨HS, Hr⟩
    isplitr; · iempintro
    isplitr; · iempintro
    isplitl [HS]; · iexists _; iexact HS
    iexact Hr
  hexit c := by
    change iprop((dat0 m c).toR.arraysAt cfg0.N ∗ (dat0 m c).toR.owesAt () (Fin.last cfg0.N) ∗ emp
        ∗ Pipeline.unscopedRest (Ix := Unit) (Name := ℕ) (U := UR sig nD τ) (Lvl := ℕ) spec0 c (Va m c)) ⊢ _
    rw [(dat0 m c).toR_arraysAt_eq cfg0.N]
    iintro ⟨Ha, HO, -, HZ⟩
    imodintro
    isplitr [HO]
    · iapply (exit0 m c)
      isplitl [Ha] <;> iassumption
    · unfold Pipeline.RDat.owesAt Pipeline.owesWithin
      icases HO with ⟨%W, -, HO⟩; iexists W; iexact HO

end Cert.KernelIdeal.Hand

end
-- ==== Proof.LibHostSegEx.lean ====
/-
  A line of host operations run over buffers that are held at SOME member of a family of valuations
  [hostSegEx, whose program, precondition and postcondition are hostSegEx_prog / hostSegEx_pre / hostSegEx_post
  by definition]: the host segment of a several-region launch whose thread state quantifies existentially over a
  parameter of the valuation — for instance over what an earlier kernel region left in a result array that no proof
  data names.

  The thread state says: there is an index i such that the buffers of `S` hold the valuation `V i c`, beside a rest `R c`
  that rides along.  The line of operations changes a valuation by a function that does not depend on which member it
  is (`StableHlo.after ops`), so it takes that state to: there is an index i — the same one — such that the buffers hold
  `StableHlo.after ops (V i c)`, beside `R c`.  The index is opened before the line runs and closed again after it.
-/
import Idealize.ShloMosaic.Lib.Pipeline.Regions

noncomputable section

namespace Cert.LibHostSegEx

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe
open Idealize.ShloMosaic.Pipeline
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]

variable (pcs : P → PCfg sig Λ₀ Val) (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

variable [Preorder Lvl]

set_option backward.isDefEq.respectTransparency.types false in
/-- a line of host operations over buffers held at one of a family of valuations: it runs to the buffers at
    `after ops` of the same member -/
def hostSegEx {ι : Type} (S : Finset (DevRef τ sig)) (ops : List (HloOp τ sig Val))
    (hS : ∀ op ∈ ops, op.bufs ⊆ S) (hf : ∀ op ∈ ops, op.fresh = ∅)
    (V : ι → Dev nD → Valuation τ sig Val) (R : Dev nD → sProp 𝕄) :
    Pipeline.HostSeg (Name := Name) (U := U) pcs defs₀ 𝒱₀ L lv where
  prog := StableHlo.seq ops
  pre c := iprop(∃ i, StableHlo.held (c.tc : Thread nD τ) S (V i c) ∗ R c)
  post c := iprop(∃ i, StableHlo.held (c.tc : Thread nD τ) S (StableHlo.after ops (V i c)) ∗ R c)
  run c {β} k K := by
    iintro ⟨Hk, Hbd, ⟨%i, Hh, HR⟩, -⟩
    -- at the member i the line runs as over one valuation
    have hseq := StableHlo.wp_seq (defs := 𝔻) 𝕍 none Set.univ c S k (K := K) ops hS hf (V i c)
    iapply hseq $$ [Hbd Hh]
    · isplitl [Hbd] <;> iassumption
    iintro ⟨Hbd, Hh⟩
    iapply Hk
    isplitl [Hbd]; · iexact Hbd
    -- the same member witnesses the state after the line
    iexists i
    isplitl [Hh] <;> iassumption

@[simp] theorem hostSegEx_prog {ι : Type} (S : Finset (DevRef τ sig)) (ops : List (HloOp τ sig Val))
    (hS : ∀ op ∈ ops, op.bufs ⊆ S) (hf : ∀ op ∈ ops, op.fresh = ∅)
    (V : ι → Dev nD → Valuation τ sig Val) (R : Dev nD → sProp 𝕄) :
    (hostSegEx (Name := Name) (U := U) pcs defs₀ 𝒱₀ L lv S ops hS hf V R).prog = StableHlo.seq ops := rfl

@[simp] theorem hostSegEx_pre {ι : Type} (S : Finset (DevRef τ sig)) (ops : List (HloOp τ sig Val))
    (hS : ∀ op ∈ ops, op.bufs ⊆ S) (hf : ∀ op ∈ ops, op.fresh = ∅)
    (V : ι → Dev nD → Valuation τ sig Val) (R : Dev nD → sProp 𝕄) (c : Dev nD) :
    (hostSegEx (Name := Name) (U := U) pcs defs₀ 𝒱₀ L lv S ops hS hf V R).pre c
      = iprop(∃ i, StableHlo.held (c.tc : Thread nD τ) S (V i c) ∗ R c) := rfl

@[simp] theorem hostSegEx_post {ι : Type} (S : Finset (DevRef τ sig)) (ops : List (HloOp τ sig Val))
    (hS : ∀ op ∈ ops, op.bufs ⊆ S) (hf : ∀ op ∈ ops, op.fresh = ∅)
    (V : ι → Dev nD → Valuation τ sig Val) (R : Dev nD → sProp 𝕄) (c : Dev nD) :
    (hostSegEx (Name := Name) (U := U) pcs defs₀ 𝒱₀ L lv S ops hS hf V R).post c
      = iprop(∃ i, StableHlo.held (c.tc : Thread nD τ) S (StableHlo.after ops (V i c)) ∗ R c) := rfl

end Cert.LibHostSegEx

end
-- ==== Proof.Seg1.lean ====
/-
  The second kernel as a segment of the program, and the host operations after it.

  The second kernel's windows name seven distinct arrays, all read but the result array. At its exit the inputs are as it
  found them, and the result array holds SOME contents the proof data's relation allows after the write-backs; the
  program's last host operation (the slice that keeps the first 10000 rows) then runs over the buffers at whichever
  contents those are.
-/
import proofs.«175765_g50964081934784_cont_8to1c4_784_17_alg».proof.Proof.Seg0
import proofs.«175765_g50964081934784_cont_8to1c4_784_17_alg».proof.Proof.LibHostSegEx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the second kernel may leave in its result array -/

/-- The contents of the result array's buffer. -/
abbrev B7 (c : Dev nD) : Type := Buf (Elt F) ((c : Thread nD τ).loc main_v7)

/-- Contents the result array may hold after the second kernel's write-backs. -/
def Good7 (c : Dev nD) (F7 : B7 (F := F) c) : Prop := (rd1 m c).ArrAt 6 cfg1.N F7

/-- One such contents per core. -/
abbrev Outs7 : Type := {o : (c : Dev nD) → B7 (F := F) c // ∀ c, Good7 m c (o c)}

/-- Core `c`'s buffers after the second kernel, the result array at `o`. -/
def V4 (o : Outs7 m) (c : Dev nD) : Valuation τ sig (Elt F) := Function.update (Gen.V3 m (outs0 m) c) main_v7 (o.1 c)

theorem V4_v7 (o : Outs7 m) (c : Dev nD) : V4 m o c main_v7 = o.1 c := by
  unfold V4; rw [Function.update_self]

theorem V4_of (o : Outs7 m) (c : Dev nD) (r : Ref sig .tc) (h : r ≠ main_v7) : V4 m o c r = Gen.V3 m (outs0 m) c r := by
  unfold V4
  rw [Function.update_of_ne (StableHlo.devRef_ne_of_ne h : (Proc.devRef .tc r : DevRef τ sig) ≠ Proc.devRef .tc main_v7)]

/-- With one device, contents for one core are contents for every core. -/
def outs7_of (c : Dev nD) (F7 : B7 (F := F) c) (h : Good7 m c F7) : Outs7 m :=
  ⟨fun c' => (Subsingleton.elim c c') ▸ F7, fun c' => by cases Subsingleton.elim c c'; exact h⟩

theorem outs7_of_self (c : Dev nD) (F7 : B7 (F := F) c) (h : Good7 m c F7) : (outs7_of m c F7 h).1 c = F7 := rfl

/-! ## The second kernel's arrays -/

theorem share1 (c : Dev nD) (w : Fin cfg1.W) : (rd1 m c).share w = fullShare := by
  unfold RDat.share; split <;> rfl

/-- Off the result array the buffers are as the kernel found them. -/
theorem unscopedRest1_V4 (o : Outs7 m) (c : Dev nD) :
    (Pipeline.unscopedRest (Ix := Unit) (Name := ℕ) (U := UR sig nD τ) (Lvl := ℕ) spec1 c (fun b => V4 m o c (Proc.devRef .tc b)) : sProp 𝕄)
      = Pipeline.unscopedRest spec1 c (Vb m c) := by
  unfold Pipeline.unscopedRest
  refine bigSep_congr fun b hb => ?_
  have hb' := (Finset.mem_sdiff.mp hb).2
  beta_reduce
  rw [V4_of m o c b (fun e => hb' (by rw [e]; decide))]

set_option maxHeartbeats 4000000 in
/-- The seven arrays — the inputs as the kernel found them, the result array at `o` — and the untouched rest are the
    unscoped buffers, whole, at the contents `V4 o`. -/
theorem held1_of (o : Outs7 m) (c : Dev nD) :
    iprop(((((c : Thread nD τ).loc (Pipeline.arrRef spec1 0)) ↦{fullShare} (rd1 m c).A 0)
          ∗ (((c : Thread nD τ).loc (Pipeline.arrRef spec1 1)) ↦{fullShare} (rd1 m c).A 1)
          ∗ (((c : Thread nD τ).loc (Pipeline.arrRef spec1 2)) ↦{fullShare} (rd1 m c).A 2)
          ∗ (((c : Thread nD τ).loc (Pipeline.arrRef spec1 3)) ↦{fullShare} (rd1 m c).A 3)
          ∗ (((c : Thread nD τ).loc (Pipeline.arrRef spec1 4)) ↦{fullShare} (rd1 m c).A 4)
          ∗ (((c : Thread nD τ).loc (Pipeline.arrRef spec1 5)) ↦{fullShare} (rd1 m c).A 5)
          ∗ (((c : Thread nD τ).loc (Pipeline.arrRef spec1 6)) ↦{fullShare} o.1 c))
        ∗ Pipeline.unscopedRest (Ix := Unit) (Name := ℕ) (U := UR sig nD τ) (Lvl := ℕ) spec1 c (Vb m c))
      ⊢ (StableHlo.held (c : Thread nD τ) (Pipeline.ucRefs τ sig) (V4 m o c) : sProp 𝕄) := by
  rw [← Pipeline.unscopedBufs_held (Ix := Unit) (Name := ℕ) (U := UR sig nD τ) (Lvl := ℕ) c (V4 m o c),
    Pipeline.unscopedBufs_split cfgs 1 winFacts1.arr_unscoped winFacts1.arr_inj c _]
  change _ ⊢ iprop((bigSep Finset.univ fun w : Fin cfg1.W => (((c : Thread nD τ).loc (Pipeline.arrRef spec1 w))
      ↦{fullShare} V4 m o c (Proc.devRef .tc (Pipeline.arrRef spec1 w)) : sProp 𝕄))
    ∗ Pipeline.unscopedRest spec1 c (fun b => V4 m o c (Proc.devRef .tc b)))
  rw [unscopedRest1_V4, bigSep_W1]
  have e0 : V4 m o c (Proc.devRef .tc (Pipeline.arrRef spec1 0)) = (rd1 m c).A 0 := (V4_of m o c _ (by decide)).trans (A1_eq m c 0).symm
  have e1 : V4 m o c (Proc.devRef .tc (Pipeline.arrRef spec1 1)) = (rd1 m c).A 1 := (V4_of m o c _ (by decide)).trans (A1_eq m c 1).symm
  have e2 : V4 m o c (Proc.devRef .tc (Pipeline.arrRef spec1 2)) = (rd1 m c).A 2 := (V4_of m o c _ (by decide)).trans (A1_eq m c 2).symm
  have e3 : V4 m o c (Proc.devRef .tc (Pipeline.arrRef spec1 3)) = (rd1 m c).A 3 := (V4_of m o c _ (by decide)).trans (A1_eq m c 3).symm
  have e4 : V4 m o c (Proc.devRef .tc (Pipeline.arrRef spec1 4)) = (rd1 m c).A 4 := (V4_of m o c _ (by decide)).trans (A1_eq m c 4).symm
  have e5 : V4 m o c (Proc.devRef .tc (Pipeline.arrRef spec1 5)) = (rd1 m c).A 5 := (V4_of m o c _ (by decide)).trans (A1_eq m c 5).symm
  have e6 : V4 m o c (Proc.devRef .tc (Pipeline.arrRef spec1 6)) = o.1 c := V4_v7 m o c
  rw [e0, e1, e2, e3, e4, e5, e6]

set_option maxHeartbeats 4000000 in
/-- EXIT: the arrays after the write-backs — the inputs as found, the result array at allowed contents — and the
    untouched rest are the unscoped buffers, whole, at contents the last host operation starts from. -/
theorem exit1 (c : Dev nD) :
    iprop((rd1 m c).arraysAt cfg1.N
        ∗ Pipeline.unscopedRest (Ix := Unit) (Name := ℕ) (U := UR sig nD τ) (Lvl := ℕ) spec1 c (Vb m c))
      ⊢ (iprop(∃ o : Outs7 m, StableHlo.held (c : Thread nD τ) (Pipeline.ucRefs τ sig) (V4 m o c)) : sProp 𝕄) := by
  rw [Cert.LibArraysShares.arraysAt_eq_shares (rd1 m c) arr_whole1 cfg1.N, bigSep_W1,
    share1 m c 0, share1 m c 1, share1 m c 2, share1 m c 3, share1 m c 4, share1 m c 5, share1 m c 6]
  iintro ⟨⟨⟨%G0, %h0, H0⟩, ⟨%G1, %h1, H1⟩, ⟨%G2, %h2, H2⟩, ⟨%G3, %h3, H3⟩, ⟨%G4, %h4, H4⟩, ⟨%G5, %h5, H5⟩, ⟨%G6, %h6, H6⟩⟩, Hur⟩
  rw [(rd1 m c).ArrAt_in 0 rfl] at h0
  rw [(rd1 m c).ArrAt_in 1 rfl] at h1
  rw [(rd1 m c).ArrAt_in 2 rfl] at h2
  rw [(rd1 m c).ArrAt_in 3 rfl] at h3
  rw [(rd1 m c).ArrAt_in 4 rfl] at h4
  rw [(rd1 m c).ArrAt_in 5 rfl] at h5
  subst h0 h1 h2 h3 h4 h5
  iexists (outs7_of m c G6 h6)
  iapply (held1_of m (outs7_of m c G6 h6) c)
  isplitr [Hur]; swap; · iexact Hur
  isplitl [H0]; · iexact H0
  isplitl [H1]; · iexact H1
  isplitl [H2]; · iexact H2
  isplitl [H3]; · iexact H3
  isplitl [H4]; · iexact H4
  isplitl [H5]; · iexact H5
  iexact H6

/-! ## The segments -/

set_option backward.isDefEq.respectTransparency.types false in
/-- THE SECOND KERNEL as a segment. -/
def reg1 (hb : ∀ c, (rd1 m c).BodyObligation (defs₀ (F := F)) Variants.none () Set.univ) :
    Pipeline.RDat.RegionSeg (pcfgs (F := F)) Gen.adm (rdats m) () defs₀ Variants.none Lr lvr 1 where
  win := winFacts1.to₀
  block_pos := block_pos1
  stage_whole := stage_whole1
  K := PEmpty
  osem := fun k => k.elim
  ho := Pipeline.OwnSemFacts.none spec1
  hbody c := hb c
  hwaits := Pipeline.RDat.hwaits_of_owed_zero _ _ _ _ Lr lvr 1 fun _ _ => rfl
  pre c := iprop(StableHlo.held (c : Thread nD τ) (Pipeline.ucRefs τ sig) (Gen.V3 m (outs0 m) c) ∗ Rr c)
  post c := iprop(∃ o : Outs7 m, StableHlo.held (c : Thread nD τ) (Pipeline.ucRefs τ sig) (V4 m o c) ∗ Rr c)
  X _ := iprop(emp)
  Y _ := iprop(emp)
  Z c := Pipeline.unscopedRest (Ix := Unit) (Name := ℕ) (U := UR sig nD τ) (Lvl := ℕ) spec1 c (Vb m c)
  hentry c := by
    rw [show (StableHlo.held (c : Thread nD τ) (Pipeline.ucRefs τ sig) (Gen.V3 m (outs0 m) c) : sProp 𝕄) = unscopedBufs c (Vb m c) from
      (Pipeline.unscopedBufs_held c (Gen.V3 m (outs0 m) c)).symm]
    have hsplit := Pipeline.RDat.arrays_of_unscopedBufs (pcfgs (F := F)) Gen.adm (rdats m) (p := 1) winFacts1 arr_whole1 c
      (share1 m c) (Vb m c) (A1_eq m c)
    iintro ⟨⟨Hub, HO⟩, -, -⟩
    ihave H := hsplit $$ Hub
    icases H with ⟨Ha, Hur⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hur
  hin c := by
    change iprop(emp ∗ _ ∗ Pipeline.scopedRest (Ix := Unit) (Name := ℕ) (U := UR sig nD τ) (Lvl := ℕ) (Val := Elt F) spec1 c) ⊢ (Phi1 m c 0 : sProp 𝕄)
    rw [scopedRest1_split]; unfold Phi1
    iintro ⟨-, -, ⟨%d, HS⟩, Hr⟩
    isplitr [Hr]; swap; · iexact Hr
    iexists d; isplitr; · ipureintro; intro y hy; exact absurd hy (by simp)
    iexact HS
  hout c := by
    rw [Pipeline.ownSems0_none]
    change (Phi1 m c 50 : sProp 𝕄) ⊢ iprop(emp ∗ emp ∗ Pipeline.scopedRest (Ix := Unit) (Name := ℕ) (U := UR sig nD τ) (Lvl := ℕ) (Val := Elt F) spec1 c)
    rw [scopedRest1_split]; unfold Phi1
    iintro ⟨⟨%xs, -, HS⟩, Hr⟩
    isplitr; · iempintro
    isplitr; · iempintro
    isplitl [HS]; · iexists _; iexact HS
    iexact Hr
  hexit c := by
    change iprop((rd1 m c).arraysAt cfg1.N ∗ (rd1 m c).owesAt () (Fin.last cfg1.N) ∗ emp
        ∗ Pipeline.unscopedRest (Ix := Unit) (Name := ℕ) (U := UR sig nD τ) (Lvl := ℕ) spec1 c (Vb m c)) ⊢ _
    iintro ⟨Ha, HO, -, HZ⟩
    imodintro
    ihave H := (exit1 m c) $$ [Ha HZ]
    · isplitl [Ha] <;> iassumption
    icases H with ⟨%o, Hh⟩
    iexists o
    isplitl [Hh]; · iexact Hh
    unfold Pipeline.RDat.owesAt Pipeline.owesWithin
    icases HO with ⟨%W, -, HO⟩; iexists W; iexact HO

/-- THE LAST HOST OPERATION, over the buffers at whichever contents the second kernel left. -/
def seg4 : Pipeline.HostSeg (Name := ℕ) (U := UR sig nD τ) (pcfgs (F := F)) defs₀ Variants.none Lr lvr :=
  Cert.LibHostSegEx.hostSegEx (pcfgs (F := F)) defs₀ Variants.none Lr lvr (Pipeline.ucRefs τ sig) hostOps2
    (fun op h => Pipeline.sub_ucRefs op ((List.forall_iff_forall_mem.mp hostOps2_sub) op h))
    (fun op h => (List.forall_iff_forall_mem.mp Gen.hostOps2_fresh) op h) (V4 m) Rr

end Cert.KernelIdeal.Hand

end
-- ==== Proof.Run.lean ====
/-
  The run of the whole program.

  @main is: host operations, the first kernel, a host operation, the second kernel, a host operation. Each item is entered
  from what the item before it left. The launch makes the first state on every core; the last state, read against a final
  memory, says: the result buffer holds the slice of SOME contents the second kernel may have left in its result array,
  and every argument array holds what it held at launch.
-/
import proofs.«175765_g50964081934784_cont_8to1c4_784_17_alg».proof.Proof.Seg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The program's items as segments, in order. -/
abbrev segsR (hb0 : ∀ c, BodyObligation (dat0 m c) (defs₀ (F := F)) Variants.none () Set.univ)
    (hb1 : ∀ c, (rd1 m c).BodyObligation (defs₀ (F := F)) Variants.none () Set.univ) :
    List (Pipeline.RDat.Seg (pcfgs (F := F)) Gen.adm (rdats m) () defs₀ Variants.none Lr lvr) :=
  [.host (Gen.seg0 m Variants.none Lr lvr (fun _ => Rr)), .region (reg0 m hb0),
   .host (Gen.seg2 m (outs0 m) Variants.none Lr lvr (fun _ => Rr)), .region (reg1 m hb1), .host (seg4 m)]

/-- An argument array reaches the end as launched: no host operation writes it and no kernel may change it. -/
theorem final_arg (o : Outs7 m) (c : Dev nD) (r : Ref sig .tc) (h8 : r ∉ hostOps2_W) (h7 : r ≠ main_v7) (h6 : r ∉ hostOps1_W)
    (h5 : r ∉ ([main_v5_0, main_v5_1, main_v5_2] : List (Ref sig .tc))) (h0 : r ∉ hostOps0_W) :
    StableHlo.after hostOps2 (V4 m o c) r = m ((c : Thread nD τ).loc r) :=
  (StableHlo.after_of_writes_sub hostOps2 _ Gen.hostOps2_writes h8).trans <| (V4_of m o c r h7).trans <|
    (Gen.V3_of m (outs0 m) c r h6).trans <| (Gen.V2_of m (outs0 m) c r h5).trans <| (Gen.V1_of m c r h0).trans rfl

/-- The result buffer and the argument arrays are unscoped buffers of the core. -/
theorem uc_v8 : (Proc.devRef .tc main_v8 : DevRef τ sig) ∈ Pipeline.ucRefs τ sig := by decide
theorem uc_arg0 : (Proc.devRef .tc main_arg0 : DevRef τ sig) ∈ Pipeline.ucRefs τ sig := by decide
theorem uc_arg1 : (Proc.devRef .tc main_arg1 : DevRef τ sig) ∈ Pipeline.ucRefs τ sig := by decide
theorem uc_arg2 : (Proc.devRef .tc main_arg2 : DevRef τ sig) ∈ Pipeline.ucRefs τ sig := by decide
theorem uc_arg3 : (Proc.devRef .tc main_arg3 : DevRef τ sig) ∈ Pipeline.ucRefs τ sig := by decide
theorem uc_arg4 : (Proc.devRef .tc main_arg4 : DevRef τ sig) ∈ Pipeline.ucRefs τ sig := by decide
theorem uc_arg5 : (Proc.devRef .tc main_arg5 : DevRef τ sig) ∈ Pipeline.ucRefs τ sig := by decide
theorem uc_arg6 : (Proc.devRef .tc main_arg6 : DevRef τ sig) ∈ Pipeline.ucRefs τ sig := by decide
theorem uc_arg7 : (Proc.devRef .tc main_arg7 : DevRef τ sig) ∈ Pipeline.ucRefs τ sig := by decide

/-- What a final memory satisfies on core `c`. -/
def QYc (c : Dev nD) (s : MemSt nD τ sig (Elt F)) : Prop :=
  (∃ o : Outs7 m, s.mem ((c : Thread nD τ).loc main_v8) = StableHlo.after hostOps2 (V4 m o c) main_v8)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

set_option backward.isDefEq.respectTransparency.types false in
/-- THE RUN: from any memory with zero counters, every weakly fair execution of @main terminates, nothing faulting, and
    the final memory has the result buffer at the slice of contents the second kernel may have left and every argument
    array as launched. -/
theorem run_main (hb0 : ∀ c, BodyObligation (dat0 m c) (defs₀ (F := F)) Variants.none () Set.univ)
    (hb1 : ∀ c, (rd1 m c).BodyObligation (defs₀ (F := F)) Variants.none () Set.univ) :
    θ_run defs (onTc (τ := τ) (main (F := F))) ⟨m, fun _ => 0, ρ⟩ (fun r => ∀ c : Dev nD, QYc m c r.2) :=
  Pipeline.RDat.θ_run_regions_kit (pcfgs (F := F)) Gen.adm (rdats m) () cellOf_inj emb₁ defs₀ Variants.none Lr lvr m ρ main (segsR m hb0 hb1)
    (fun c Q => by rw [main_chain c]; exact Entails.of_eq rfl)
    (by simp only [Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) Gen.adm) cellOf_inj) (Pipeline.launchToks (Pipeline.pin (pcfgs (F := F)) Gen.adm) cellOf_inj))
    (hu₀ := by
      iintro Hu
      imodintro
      isplitl [Hu]
      · iapply (show (ownU _ : sProp 𝕄) ⊢ BI.own (emb₁ (initOf (Pipeline.cells (Pipeline.pin (pcfgs (F := F)) Gen.adm) cellOf_inj)
          (Pipeline.launchToks (Pipeline.pin (pcfgs (F := F)) Gen.adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(∃ o : Outs7 m, StableHlo.held (c : Thread nD τ) (Pipeline.ucRefs τ sig) (StableHlo.after hostOps2 (V4 m o c))))
    (hch := ⟨fun _ => .rfl, fun _ => .rfl, fun _ => .rfl, fun _ => .rfl, fun _ => .rfl, fun c => by
      show (iprop(∃ o : Outs7 m, StableHlo.held (c : Thread nD τ) (Pipeline.ucRefs τ sig) (StableHlo.after hostOps2 (V4 m o c)) ∗ Rr c) : sProp 𝕄) ⊢ _
      iintro ⟨%o, Hh, HR⟩
      isplitl [Hh]; · iexists o; iexact Hh
      iexact HR⟩)
    (hinit := by
      refine Pipeline.initEach Lr lvr fun c => ?_
      rw [show (unscopedBufs c (fun b => m ((c : Thread nD τ).loc b)) : sProp 𝕄) = StableHlo.held (c : Thread nD τ) (Pipeline.ucRefs τ sig) (Gen.V0 m c) from
        Pipeline.unscopedBufs_held c (Gen.V0 m c)]
      iintro ⟨⟨Hh, -, HO, -, -, -⟩, -⟩
      imodintro
      isplitl [Hh]; · iexact Hh
      iexists ∅; iexact HO)
    (QY := QYc m)
    (hfin := fun c s' => by
      iintro ⟨⟨%o, Hh⟩, HSI⟩
      unfold StableHlo.held
      ihave Hr := (pointsTo_read_all (Pipeline.ucRefs τ sig) (fun b => (((c : Thread nD τ).1, b) : Loc nD τ sig))
        (fun b => StableHlo.after hostOps2 (V4 m o c) b) s') $$ [Hh HSI]
      · isplitl [Hh] <;> iassumption
      icases Hr with ⟨%hall, HSI⟩
      imodintro
      isplitr; swap; · iexact HSI
      ipureintro
      refine ⟨⟨o, hall _ uc_v8⟩, ?_, ?_, ?_, ?_, ?_, ?_, ?_, ?_⟩
      · exact (hall _ uc_arg0).trans (final_arg m o c main_arg0 (by decide) (by decide) (by decide) (by decide) (by decide))
      · exact (hall _ uc_arg1).trans (final_arg m o c main_arg1 (by decide) (by decide) (by decide) (by decide) (by decide))
      · exact (hall _ uc_arg2).trans (final_arg m o c main_arg2 (by decide) (by decide) (by decide) (by decide) (by decide))
      · exact (hall _ uc_arg3).trans (final_arg m o c main_arg3 (by decide) (by decide) (by decide) (by decide) (by decide))
      · exact (hall _ uc_arg4).trans (final_arg m o c main_arg4 (by decide) (by decide) (by decide) (by decide) (by decide))
      · exact (hall _ uc_arg5).trans (final_arg m o c main_arg5 (by decide) (by decide) (by decide) (by decide) (by decide))
      · exact (hall _ uc_arg6).trans (final_arg m o c main_arg6 (by decide) (by decide) (by decide) (by decide) (by decide))
      · exact (hall _ uc_arg7).trans (final_arg m o c main_arg7 (by decide) (by decide) (by decide) (by decide) (by decide)))
    (hQ := fun _ h => h)

end Cert.KernelIdeal.Hand

end
-- ==== Proof.Runs0.lean ====
/- The body of the first kernel (the layer-1 aggregation, one grid coordinate, 25 points) run symbolically
   in its two control cases: at the first grid point the scratch operand is first filled with the
   projected features, at every other point it is found as the previous point left it; in both cases
   the two adjacency blocks are rounded to bf16 and copied out, and each is multiplied into the scratch,
   biased, clamped at zero, rounded and multiplied by the next layer's weights into one half of the
   [400,128] output block. -/
import proofs.«175765_g50964081934784_cont_8to1c4_784_17_alg».proof.Proof.Gen.KernelIdeal.Skeleton
import proofs.«175765_g50964081934784_cont_8to1c4_784_17_alg».proof.Proof.Gen.KernelIdeal.Launch
import proofs.«175765_g50964081934784_cont_8to1c4_784_17_alg».proof.Proof.Named
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {U : Type} [URA U]

local notation "𝕄" => MT nD τ sig Unit (Elt F) ℕ U ℕ

/-- The condition of the body's one conditional: the grid coordinate is zero. -/
abbrev cond0 (i : grid0.Coords) : Prop :=
  (Scalar.cmpi .ne (Scalar.extui (Scalar.cmpi .eq (BitVec.ofNat 32 (i 0).val) 0#32)) 0#32) = 1#1

/-! ## Rectangles and what stores through them leave -/

/-- Two zero offsets, however spelt. -/
theorem hz2 : (![0, 0] : Fin 2 → ℕ) = fun _ => 0 := by
  funext a; match a with | ⟨0, _⟩ => rfl | ⟨1, _⟩ => rfl

/-- Rows 0..199 of the [400,128] output block. -/
abbrev rTop : Rect S400x128 := Rect.unit (s := S400x128) ![0, 0] S200x128.size inb_S400x128_S200x128_0_0
/-- Rows 200..399 of the [400,128] output block. -/
abbrev rBot : Rect S400x128 := Rect.unit (s := S400x128) ![200, 0] S200x128.size inb_S400x128_S200x128_200_0

/-- Entry (r, j) of the upper half sits at row r of the block. -/
theorem rTop_emb (r : Fin 200) (j : Fin 128) :
    rTop.emb (ix2 r j) = ix2 (⟨r.val, by omega⟩ : Fin 400) j := by
  funext a; apply Fin.ext
  match a with
  | ⟨0, _⟩ => show 0 + 1 * r.val = r.val; omega
  | ⟨1, _⟩ => show 0 + 1 * j.val = j.val; omega

/-- Entry (r, j) of the lower half sits at row r + 200 of the block. -/
theorem rBot_emb (r : Fin 200) (j : Fin 128) :
    rBot.emb (ix2 r j) = ix2 (⟨r.val + 200, by omega⟩ : Fin 400) j := by
  funext a; apply Fin.ext
  match a with
  | ⟨0, _⟩ => show 200 + 1 * r.val = r.val + 200; omega
  | ⟨1, _⟩ => show 0 + 1 * j.val = j.val; omega

/-- The two half-block stores, the lower one last, leave the two halves stacked, whatever the block held. -/
theorem read_writes_stack2 {κ : Kind} {sp : Space} {e : EltTy} (v : View sig κ sp S400x128 e) (f : v.ty.Contents (Elt F))
    (top bot : S200x128.Idx → Elt F e) :
    v.read (Elt F) (v.writes (Elt F) f [⟨rBot, bot⟩, ⟨rTop, top⟩]) = Hand.stack2 top bot := by
  funext y
  refine View.read_writes_apply_of_pieces v f (Hand.stack2 top bot) _ ?_ y ?_
  · intro p hp x
    simp only [List.mem_cons, List.mem_nil_iff, or_false] at hp
    rcases hp with rfl | rfl
    · obtain ⟨r, j, rfl⟩ : ∃ (r : Fin 200) (j : Fin 128), x = ix2 r j := ⟨x 0, x 1, eq_ix2 x⟩
      exact ((congrArg (Hand.stack2 top bot) (rBot_emb r j)).trans (Hand.stack2_bot top bot r j)).symm
    · obtain ⟨r, j, rfl⟩ : ∃ (r : Fin 200) (j : Fin 128), x = ix2 r j := ⟨x 0, x 1, eq_ix2 x⟩
      exact ((congrArg (Hand.stack2 top bot) (rTop_emb r j)).trans (Hand.stack2_top top bot r j)).symm
  · by_cases h : (y 0).val < 200
    · refine ⟨⟨rTop, top⟩, by simp, (Rect.mem_set_unit (inb := inb_S400x128_S200x128_0_0)).mpr fun a => ?_⟩
      match a with
      | ⟨0, _⟩ => exact ⟨Nat.zero_le _, by show (y 0).val < 0 + 200; omega⟩
      | ⟨1, _⟩ => exact ⟨Nat.zero_le _, by show (y 1).val < 0 + 128; have := idx2_lt1 y; omega⟩
    · refine ⟨⟨rBot, bot⟩, by simp, (Rect.mem_set_unit (inb := inb_S400x128_S200x128_200_0)).mpr fun a => ?_⟩
      match a with
      | ⟨0, _⟩ => exact ⟨by show 200 ≤ (y 0).val; omega, by show (y 0).val < 200 + 200; have := idx2_lt0 y; omega⟩
      | ⟨1, _⟩ => exact ⟨Nat.zero_le _, by show (y 1).val < 0 + 128; have := idx2_lt1 y; omega⟩

/-- A buffer whose last store went through its whole shape is owned at that store's payload. -/
theorem owns_of_writes_unit_zero (c : Dev nD) {S : Shape} {e : EltTy} (m : Memref sig .tc .vmem S e)
    {off : Fin S.rank → ℕ} (h : off = fun _ => 0) (inb : ∀ a, off a + S.size a ≤ S.size a) (w : S.Idx → Elt F e)
    (L : List (View.Piece (Elt F) S e)) :
    (iprop(∃ f, m.view.loc (c : Thread nD τ) ↦[m.view.set]{fullShare} m.view.writes (Elt F) f ((⟨Rect.unit off S.size inb, w⟩ : View.Piece (Elt F) S e) :: L)) : sProp 𝕄)
      ⊢ owns (c : Thread nD τ) m fullShare w := by
  iintro ⟨%f, H⟩
  unfold owns
  iexists m.view.writes (Elt F) f ((⟨Rect.unit off S.size inb, w⟩ : View.Piece (Elt F) S e) :: L)
  isplitr
  · ipureintro
    exact (View.read_writes_eq_canon _ _ _ (fun y => ⟨_, List.mem_cons_self, View.mem_set_unit_zero h inb y⟩)).trans
      (View.canon_cons_unit_zero h inb w L)
  · iexact H

/-- The output block after the two half-block stores is owned at the two halves stacked. -/
theorem owns_of_writes_stack2 (c : Dev nD) {e : EltTy} (m : Memref sig .tc .vmem S400x128 e) (top bot : S200x128.Idx → Elt F e) :
    (iprop(∃ f, m.view.loc (c : Thread nD τ) ↦[m.view.set]{fullShare} m.view.writes (Elt F) f [⟨rBot, bot⟩, ⟨rTop, top⟩]) : sProp 𝕄)
      ⊢ owns (c : Thread nD τ) m fullShare (Hand.stack2 top bot) := by
  iintro ⟨%f, H⟩
  unfold owns
  iexists m.view.writes (Elt F) f [⟨rBot, bot⟩, ⟨rTop, top⟩]
  isplitr
  · ipureintro; exact read_writes_stack2 m.view f top bot
  · iexact H

set_option maxHeartbeats 1000000 in
/-- CASE A (the first grid point). The pieces the body's stores leave in the output block (`L7`), in the two
    bf16 copies of the adjacency blocks (`L8`, `L9`) and in the scratch (`L10`), last store first, with the
    proof that from the six inputs owned at their contents and the three outputs and the scratch owned at
    anything the body runs to a continuation holding the inputs as they were and each written buffer with
    its pieces written. -/
noncomputable def run0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i)
    (x1 x2 : Vec F S200x10000 .f32) (x3 : Vec F S10000x128 .f32) (x4 : Vec F S128x128 .bf16) (x5 : Vec F S1x128 .f32) (x6 : Vec F S128x128 .bf16) :
    Σ' (L7 : List (View.Piece (Elt F) S400x128 .bf16)) (L8 : List (View.Piece (Elt F) S200x10000 .bf16)) (L9 : List (View.Piece (Elt F) S200x10000 .bf16)), { L10 : List (View.Piece (Elt F) S10000x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__layer1_kernel_eq_skeleton]; unfold cc0__layer1_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; iexact H10

/-! ## Case A: the pieces found, over the payloads -/

/-- Case A leaves in the output block the lower half's product, stored last, over the upper half's. -/
theorem run0_A_L7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).1
      = [⟨rBot, k0_pay1 (k0_pay6 x2 (k0_pay2 x3 x4) x5) x6⟩, ⟨rTop, k0_pay4 x1 (k0_pay2 x3 x4) x5 x6⟩] := by
  unfold run0_A; dsimp only; sl_unfold_words
  simp only [View.readAt_eq_ld, harg1.read_unread, harg2.read_unread, harg3.read_unread, harg4.read_unread, harg5.read_unread, harg6.read_unread,
    View.readCov_unit_zero (S := S10000x128) arg10.view hz2, View.ld_unit_zero (S := S200x10000) hz2, View.ld_unit_zero (S := S10000x128) hz2,
    View.ld_unit_zero (S := S128x128) hz2, View.ld_unit_zero (S := S1x128) hz2] <;> rfl

/-- Case A leaves in the first bf16 copy the first adjacency block rounded. -/
theorem run0_A_L8 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).2.1
      = [⟨Rect.unit (s := S200x10000) ![0, 0] S200x10000.size inb_S200x10000_S200x10000_0_0, k0_pay3 x1⟩] := by
  unfold run0_A; dsimp only; sl_unfold_words
  simp only [View.readAt_eq_ld, harg1.read_unread, View.ld_unit_zero (S := S200x10000) hz2] <;> rfl

/-- Case A leaves in the second bf16 copy the second adjacency block rounded. -/
theorem run0_A_L9 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).2.2.1
      = [⟨Rect.unit (s := S200x10000) ![0, 0] S200x10000.size inb_S200x10000_S200x10000_0_0, k0_pay5 x2⟩] := by
  unfold run0_A; dsimp only; sl_unfold_words
  simp only [View.readAt_eq_ld, harg2.read_unread, View.ld_unit_zero (S := S200x10000) hz2] <;> rfl

/-- Case A leaves in the scratch the projected features. -/
theorem run0_A_L10 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).2.2.2.1
      = [⟨Rect.unit (s := S10000x128) ![0, 0] S10000x128.size inb_S10000x128_S10000x128_0_0, k0_pay2 x3 x4⟩] := by
  unfold run0_A; dsimp only; sl_unfold_words
  simp only [View.readAt_eq_ld, harg3.read_unread, harg4.read_unread, View.ld_unit_zero (S := S10000x128) hz2, View.ld_unit_zero (S := S128x128) hz2] <;> rfl

/-- Case A's run over the payloads: the pieces found, substituted by what they are. -/
theorem run0_A_spec (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i)
    (x1 x2 : Vec F S200x10000 .f32) (x3 : Vec F S10000x128 .f32) (x4 : Vec F S128x128 .bf16) (x5 : Vec F S1x128 .f32) (x6 : Vec F S128x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ f, arg7.view.loc (c : Thread nD τ) ↦[arg7.view.set]{fullShare} arg7.view.writes (Elt F) f [⟨rBot, k0_pay1 (k0_pay6 x2 (k0_pay2 x3 x4) x5) x6⟩, ⟨rTop, k0_pay4 x1 (k0_pay2 x3 x4) x5 x6⟩])
            ∗ (∃ f, arg8.view.loc (c : Thread nD τ) ↦[arg8.view.set]{fullShare} arg8.view.writes (Elt F) f [⟨Rect.unit (s := S200x10000) ![0, 0] S200x10000.size inb_S200x10000_S200x10000_0_0, k0_pay3 x1⟩])
            ∗ (∃ f, arg9.view.loc (c : Thread nD τ) ↦[arg9.view.set]{fullShare} arg9.view.writes (Elt F) f [⟨Rect.unit (s := S200x10000) ![0, 0] S200x10000.size inb_S200x10000_S200x10000_0_0, k0_pay5 x2⟩])
            ∗ (∃ f, arg10.view.loc (c : Thread nD τ) ↦[arg10.view.set]{fullShare} arg10.view.writes (Elt F) f [⟨Rect.unit (s := S10000x128) ![0, 0] S10000x128.size inb_S10000x128_S10000x128_0_0, k0_pay2 x3 x4⟩])) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have e7 := run0_A_L7 (U := U) c i arg1 harg1 arg2 harg2 arg3 harg3 arg4 harg4 arg5 harg5 arg6 harg6 arg7 harg7 arg8 harg8 arg9 harg9 arg10 harg10 hc x1 x2 x3 x4 x5 x6
  have e8 := run0_A_L8 (U := U) c i arg1 harg1 arg2 harg2 arg3 harg3 arg4 harg4 arg5 harg5 arg6 harg6 arg7 harg7 arg8 harg8 arg9 harg9 arg10 harg10 hc x1 x2 x3 x4 x5 x6
  have e9 := run0_A_L9 (U := U) c i arg1 harg1 arg2 harg2 arg3 harg3 arg4 harg4 arg5 harg5 arg6 harg6 arg7 harg7 arg8 harg8 arg9 harg9 arg10 harg10 hc x1 x2 x3 x4 x5 x6
  have e10 := run0_A_L10 (U := U) c i arg1 harg1 arg2 harg2 arg3 harg3 arg4 harg4 arg5 harg5 arg6 harg6 arg7 harg7 arg8 harg8 arg9 harg9 arg10 harg10 hc x1 x2 x3 x4 x5 x6
  generalize run0_A (U := U) c i arg1 harg1 arg2 harg2 arg3 harg3 arg4 harg4 arg5 harg5 arg6 harg6 arg7 harg7 arg8 harg8 arg9 harg9 arg10 harg10 hc x1 x2 x3 x4 x5 x6 = R at e7 e8 e9 e10
  obtain ⟨L7, L8, L9, L10, hrun⟩ := R
  dsimp only at e7 e8 e9 e10
  subst e7 e8 e9 e10
  exact hrun E K

/-! ## Case A at exact contents -/

/-- CASE A (the first grid point): from the six inputs owned at their contents and the three outputs and the
    scratch owned at anything, the body runs to a continuation holding the inputs as they were, the scratch at
    the projected features `S`, the two bf16 copies at the adjacency blocks rounded, and the output block at
    the two halves computed from `S`. -/
theorem body0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i)
    (x1 x2 : Vec F S200x10000 .f32) (x3 : Vec F S10000x128 .f32) (x4 : Vec F S128x128 .bf16) (x5 : Vec F S1x128 .f32) (x6 : Vec F S128x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Hand.O7 (k0_pay2 x3 x4) x1 x2 x5 x6) ∗ owns (c : Thread nD τ) arg8 fullShare (k0_pay3 x1) ∗ owns (c : Thread nD τ) arg9 fullShare (k0_pay5 x2) ∗ owns (c : Thread nD τ) arg10 fullShare (k0_pay2 x3 x4)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have hrun := run0_A_spec c i arg1 harg1 arg2 harg2 arg3 harg3 arg4 harg4 arg5 harg5 arg6 harg6 arg7 harg7 arg8 harg8 arg9 harg9 arg10 harg10 hc x1 x2 x3 x4 x5 x6 E K
  refine BIBase.Entails.trans ?_ hrun
  iintro ⟨H1, H2, H3, H4, H5, H6, H7, H8, H9, H10, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G1, G2, G3, G4, G5, G6, G7, G8, G9, G10⟩
  iapply Hk
  isplitl [G1]; · iexact G1
  isplitl [G2]; · iexact G2
  isplitl [G3]; · iexact G3
  isplitl [G4]; · iexact G4
  isplitl [G5]; · iexact G5
  isplitl [G6]; · iexact G6
  isplitl [G7]
  · unfold Hand.O7; iapply owns_of_writes_stack2; iexact G7
  isplitl [G8]
  · iapply owns_of_writes_unit_zero c arg8 hz2 inb_S200x10000_S200x10000_0_0 (k0_pay3 x1) []; iexact G8
  isplitl [G9]
  · iapply owns_of_writes_unit_zero c arg9 hz2 inb_S200x10000_S200x10000_0_0 (k0_pay5 x2) []; iexact G9
  iapply owns_of_writes_unit_zero c arg10 hz2 inb_S10000x128_S10000x128_0_0 (k0_pay2 x3 x4) []; iexact G10

/-! ## Case B: every later grid point -/

set_option maxHeartbeats 1000000 in
/-- CASE B (every grid point but the first). The pieces the body's stores leave in the output block (`L7`) and in
    the two bf16 copies of the adjacency blocks (`L8`, `L9`), last store first, with the proof that from the six
    inputs owned at their contents, the scratch owned at the contents `xs` the point before left, and the three
    outputs owned at anything, the body runs to a continuation holding the inputs and the scratch as they were
    and each output with its pieces written: the conditional is skipped, the features and first weights unread. -/
noncomputable def run0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i)
    (x1 x2 : Vec F S200x10000 .f32) (x3 : Vec F S10000x128 .f32) (x4 : Vec F S128x128 .bf16) (x5 : Vec F S1x128 .f32) (x6 : Vec F S128x128 .bf16) (xs : Vec F S10000x128 .bf16) :
    Σ' (L7 : List (View.Piece (Elt F) S400x128 .bf16)) (L8 : List (View.Piece (Elt F) S200x10000 .bf16)), { L9 : List (View.Piece (Elt F) S200x10000 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ owns (c : Thread nD τ) arg10 fullShare xs) -∗ K ⟨⟩))
          ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__layer1_kernel_eq_skeleton]; unfold cc0__layer1_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; isplitr; · ipureintro; exact harg10.read_unread _
    iexact H10

/-- Case B leaves in the output block the lower half's product, stored last, over the upper half's, both
    computed from the scratch as found. -/
theorem run0_B_L7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i) (x1 x2 : Vec F S200x10000 .f32) (x3 : Vec F S10000x128 .f32) (x4 : Vec F S128x128 .bf16) (x5 : Vec F S1x128 .f32) (x6 : Vec F S128x128 .bf16) (xs : Vec F S10000x128 .bf16) :
    (run0_B (U := U) c i arg1 harg1 arg2 harg2 arg3 harg3 arg4 harg4 arg5 harg5 arg6 harg6 arg7 harg7 arg8 harg8 arg9 harg9 arg10 harg10 hc x1 x2 x3 x4 x5 x6 xs).1
      = [⟨rBot, k0_pay1 (k0_pay6 x2 xs x5) x6⟩, ⟨rTop, k0_pay4 x1 xs x5 x6⟩] := by
  unfold run0_B; dsimp only; sl_unfold_words
  simp only [View.readAt_eq_ld, harg1.read_unread, harg2.read_unread, harg5.read_unread, harg6.read_unread, harg10.read_unread,
    View.ld_unit_zero (S := S200x10000) hz2, View.ld_unit_zero (S := S10000x128) hz2,
    View.ld_unit_zero (S := S128x128) hz2, View.ld_unit_zero (S := S1x128) hz2] <;> rfl

/-- Case B leaves in the first bf16 copy the first adjacency block rounded. -/
theorem run0_B_L8 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i) (x1 x2 : Vec F S200x10000 .f32) (x3 : Vec F S10000x128 .f32) (x4 : Vec F S128x128 .bf16) (x5 : Vec F S1x128 .f32) (x6 : Vec F S128x128 .bf16) (xs : Vec F S10000x128 .bf16) :
    (run0_B (U := U) c i arg1 harg1 arg2 harg2 arg3 harg3 arg4 harg4 arg5 harg5 arg6 harg6 arg7 harg7 arg8 harg8 arg9 harg9 arg10 harg10 hc x1 x2 x3 x4 x5 x6 xs).2.1
      = [⟨Rect.unit (s := S200x10000) ![0, 0] S200x10000.size inb_S200x10000_S200x10000_0_0, k0_pay3 x1⟩] := by
  unfold run0_B; dsimp only; sl_unfold_words
  simp only [View.readAt_eq_ld, harg1.read_unread, View.ld_unit_zero (S := S200x10000) hz2] <;> rfl

/-- Case B leaves in the second bf16 copy the second adjacency block rounded. -/
theorem run0_B_L9 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i) (x1 x2 : Vec F S200x10000 .f32) (x3 : Vec F S10000x128 .f32) (x4 : Vec F S128x128 .bf16) (x5 : Vec F S1x128 .f32) (x6 : Vec F S128x128 .bf16) (xs : Vec F S10000x128 .bf16) :
    (run0_B (U := U) c i arg1 harg1 arg2 harg2 arg3 harg3 arg4 harg4 arg5 harg5 arg6 harg6 arg7 harg7 arg8 harg8 arg9 harg9 arg10 harg10 hc x1 x2 x3 x4 x5 x6 xs).2.2.1
      = [⟨Rect.unit (s := S200x10000) ![0, 0] S200x10000.size inb_S200x10000_S200x10000_0_0, k0_pay5 x2⟩] := by
  unfold run0_B; dsimp only; sl_unfold_words
  simp only [View.readAt_eq_ld, harg2.read_unread, View.ld_unit_zero (S := S200x10000) hz2] <;> rfl

/-- Case B's run over the payloads: the pieces found, substituted by what they are. -/
theorem run0_B_spec (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i)
    (x1 x2 : Vec F S200x10000 .f32) (x3 : Vec F S10000x128 .f32) (x4 : Vec F S128x128 .bf16) (x5 : Vec F S1x128 .f32) (x6 : Vec F S128x128 .bf16) (xs : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ f, arg7.view.loc (c : Thread nD τ) ↦[arg7.view.set]{fullShare} arg7.view.writes (Elt F) f [⟨rBot, k0_pay1 (k0_pay6 x2 xs x5) x6⟩, ⟨rTop, k0_pay4 x1 xs x5 x6⟩])
            ∗ (∃ f, arg8.view.loc (c : Thread nD τ) ↦[arg8.view.set]{fullShare} arg8.view.writes (Elt F) f [⟨Rect.unit (s := S200x10000) ![0, 0] S200x10000.size inb_S200x10000_S200x10000_0_0, k0_pay3 x1⟩])
            ∗ (∃ f, arg9.view.loc (c : Thread nD τ) ↦[arg9.view.set]{fullShare} arg9.view.writes (Elt F) f [⟨Rect.unit (s := S200x10000) ![0, 0] S200x10000.size inb_S200x10000_S200x10000_0_0, k0_pay5 x2⟩])
            ∗ owns (c : Thread nD τ) arg10 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have e7 := run0_B_L7 (U := U) c i arg1 harg1 arg2 harg2 arg3 harg3 arg4 harg4 arg5 harg5 arg6 harg6 arg7 harg7 arg8 harg8 arg9 harg9 arg10 harg10 hc x1 x2 x3 x4 x5 x6 xs
  have e8 := run0_B_L8 (U := U) c i arg1 harg1 arg2 harg2 arg3 harg3 arg4 harg4 arg5 harg5 arg6 harg6 arg7 harg7 arg8 harg8 arg9 harg9 arg10 harg10 hc x1 x2 x3 x4 x5 x6 xs
  have e9 := run0_B_L9 (U := U) c i arg1 harg1 arg2 harg2 arg3 harg3 arg4 harg4 arg5 harg5 arg6 harg6 arg7 harg7 arg8 harg8 arg9 harg9 arg10 harg10 hc x1 x2 x3 x4 x5 x6 xs
  generalize run0_B (U := U) c i arg1 harg1 arg2 harg2 arg3 harg3 arg4 harg4 arg5 harg5 arg6 harg6 arg7 harg7 arg8 harg8 arg9 harg9 arg10 harg10 hc x1 x2 x3 x4 x5 x6 xs = R at e7 e8 e9
  obtain ⟨L7, L8, L9, hrun⟩ := R
  dsimp only at e7 e8 e9
  subst e7 e8 e9
  exact hrun E K

/-! ## Case B at exact contents -/

/-- CASE B (every later grid point): from the six inputs owned at their contents, the scratch owned at the contents
    `xs` the point before left and the three outputs owned at anything, the body runs to a continuation holding
    the inputs and the scratch as they were, the two bf16 copies at the adjacency blocks rounded, and the output
    block at the two halves computed from `xs`. -/
theorem body0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i)
    (x1 x2 : Vec F S200x10000 .f32) (x3 : Vec F S10000x128 .f32) (x4 : Vec F S128x128 .bf16) (x5 : Vec F S1x128 .f32) (x6 : Vec F S128x128 .bf16) (xs : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Hand.O7 xs x1 x2 x5 x6) ∗ owns (c : Thread nD τ) arg8 fullShare (k0_pay3 x1) ∗ owns (c : Thread nD τ) arg9 fullShare (k0_pay5 x2) ∗ owns (c : Thread nD τ) arg10 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have hrun := run0_B_spec c i arg1 harg1 arg2 harg2 arg3 harg3 arg4 harg4 arg5 harg5 arg6 harg6 arg7 harg7 arg8 harg8 arg9 harg9 arg10 harg10 hc x1 x2 x3 x4 x5 x6 xs E K
  refine BIBase.Entails.trans ?_ hrun
  iintro ⟨H1, H2, H3, H4, H5, H6, H7, H8, H9, H10, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G1, G2, G3, G4, G5, G6, G7, G8, G9, G10⟩
  iapply Hk
  isplitl [G1]; · iexact G1
  isplitl [G2]; · iexact G2
  isplitl [G3]; · iexact G3
  isplitl [G4]; · iexact G4
  isplitl [G5]; · iexact G5
  isplitl [G6]; · iexact G6
  isplitl [G7]
  · unfold Hand.O7; iapply owns_of_writes_stack2; iexact G7
  isplitl [G8]
  · iapply owns_of_writes_unit_zero c arg8 hz2 inb_S200x10000_S200x10000_0_0 (k0_pay3 x1) []; iexact G8
  isplitl [G9]
  · iapply owns_of_writes_unit_zero c arg9 hz2 inb_S200x10000_S200x10000_0_0 (k0_pay5 x2) []; iexact G9
  iexact G10

/-! ## The output block entry by entry -/

/-- Row r < 200 of the output block is row r of the upper half: the first adjacency block's product. -/
theorem O7_top (S : Vec F S10000x128 .bf16) (x1 x2 : Vec F S200x10000 .f32) (x5 : Vec F S1x128 .f32) (x6 : Vec F S128x128 .bf16)
    (r : Fin 200) (j : Fin 128) :
    Hand.O7 S x1 x2 x5 x6 (ix2 (⟨r.val, by omega⟩ : Fin 400) j) = k0_pay4 x1 S x5 x6 (ix2 r j) :=
  Hand.stack2_top _ _ r j

/-- Row r + 200 of the output block is row r of the lower half: the second adjacency block's product. -/
theorem O7_bot (S : Vec F S10000x128 .bf16) (x1 x2 : Vec F S200x10000 .f32) (x5 : Vec F S1x128 .f32) (x6 : Vec F S128x128 .bf16)
    (r : Fin 200) (j : Fin 128) :
    Hand.O7 S x1 x2 x5 x6 (ix2 (⟨r.val + 200, by omega⟩ : Fin 400) j) = k0_pay1 (k0_pay6 x2 S x5) x6 (ix2 r j) :=
  Hand.stack2_bot _ _ r j

end Cert.KernelIdeal.Hand0

end
-- ==== Proof.Obl0.lean ====
/- The first kernel's body obligation over its proof data: at every one of the 25 grid points, from the
   invariant before the point and every window's staging buffer at what it then holds, the body runs to the
   invariant after the point and every buffer at what the proof data says the body leaves. At the first
   point the scratch is found at anything and left at the projected features; at every later point it is
   found and left at the projected features. -/
import proofs.«175765_g50964081934784_cont_8to1c4_784_17_alg».proof.Proof.Data0
import proofs.«175765_g50964081934784_cont_8to1c4_784_17_alg».proof.Proof.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen Cert.KernelIdeal.Hand0

variable {F : FTy → Type} [FloatOps F]

local notation "𝕄" => MT nD τ sig Unit (Elt F) ℕ (UR sig nD τ) ℕ

variable (m : (ℓ : Loc nD τ sig) → Buf (Elt F) ℓ)

/-- The body's conditional is taken at the first grid point and at no other: it holds at point 0 and fails at
    each of the other 24. -/
theorem hcond0 : ∀ t : Fin cfg0.N, cond0 (grid0.coords t) ↔ t.val = 0 :=
  (by decide +kernel : ∀ t : Fin grid0.N, cond0 (grid0.coords t) ↔ t.val = 0)

/-- Each window's current staging memref at point `t`, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x10000 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x10000 .bf16 := win0_8.stage (cfg0.slots t 8)
abbrev hs0_8 (t : Fin cfg0.N) : (ms0_8 t).IsWhole := hstage0_8 ((cfg0.slots t 8).cast nbuf0_8)

/-- What the body is called with at point `t`: the invariant, what the core owes, and the nine windows' buffers. -/
def bodyPre0 (c : Dev nD) (t : Fin cfg0.N) : sProp 𝕄 :=
  iprop((dat0 m c).Φ t.castSucc ∗ (dat0 m c).owesAt () t.castSucc
    ∗ (∃ d, owns (c : Thread nD τ) (ms0_0 t) fullShare ((dat0 m c).before 0 t d))
    ∗ (∃ d, owns (c : Thread nD τ) (ms0_1 t) fullShare ((dat0 m c).before 1 t d))
    ∗ (∃ d, owns (c : Thread nD τ) (ms0_2 t) fullShare ((dat0 m c).before 2 t d))
    ∗ (∃ d, owns (c : Thread nD τ) (ms0_3 t) fullShare ((dat0 m c).before 3 t d))
    ∗ (∃ d, owns (c : Thread nD τ) (ms0_4 t) fullShare ((dat0 m c).before 4 t d))
    ∗ (∃ d, owns (c : Thread nD τ) (ms0_5 t) fullShare ((dat0 m c).before 5 t d))
    ∗ (∃ d, owns (c : Thread nD τ) (ms0_6 t) fullShare ((dat0 m c).before 6 t d))
    ∗ (∃ d, owns (c : Thread nD τ) (ms0_7 t) fullShare ((dat0 m c).before 7 t d))
    ∗ (∃ d, owns (c : Thread nD τ) (ms0_8 t) fullShare ((dat0 m c).before 8 t d)))

/-- What it returns. -/
def bodyPost0 (c : Dev nD) (t : Fin cfg0.N) : sProp 𝕄 :=
  iprop((dat0 m c).Φ t.succ ∗ (dat0 m c).owesAt () t.succ
    ∗ (dat0 m c).leavesExact 0 t
    ∗ (dat0 m c).leavesExact 1 t
    ∗ (dat0 m c).leavesExact 2 t
    ∗ (dat0 m c).leavesExact 3 t
    ∗ (dat0 m c).leavesExact 4 t
    ∗ (dat0 m c).leavesExact 5 t
    ∗ (dat0 m c).leavesExact 6 t
    ∗ (dat0 m c).leavesExact 7 t
    ∗ (dat0 m c).leavesExact 8 t)

set_option maxHeartbeats 4800000 in
/-- The body at any point. The six inputs' buffers hold their blocks; the three outputs' hold anything. At the
    first point the conditional is taken: the scratch, found at anything, is left at the projected features of
    that point's blocks of the features and first weights, which are the carried product since the point is the
    first. At a later point the conditional is skipped and the scratch is found and left at the carried product. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3, before0_4, before0_5]
  rw [show (dat0 m c).owesAt () t.succ = (dat0 m c).owesAt () t.castSucc from rfl]
  rw [show (dat0 m c).Φ t.succ = Phi0 m c (t.val + 1) from rfl, show (dat0 m c).Φ t.castSucc = Phi0 m c t.val from rfl]
  rw [Phi0_pos m c (t.val + 1) (Nat.succ_ne_zero _)]
  rw [show (dat0 m c).leavesExact 0 t = owns (c : Thread nD τ) (ms0_0 t) fullShare ((dat0 m c).after 0 t) from rfl, after0_0]
  rw [show (dat0 m c).leavesExact 1 t = owns (c : Thread nD τ) (ms0_1 t) fullShare ((dat0 m c).after 1 t) from rfl, after0_1]
  rw [show (dat0 m c).leavesExact 2 t = owns (c : Thread nD τ) (ms0_2 t) fullShare ((dat0 m c).after 2 t) from rfl, after0_2]
  rw [show (dat0 m c).leavesExact 3 t = owns (c : Thread nD τ) (ms0_3 t) fullShare ((dat0 m c).after 3 t) from rfl, after0_3]
  rw [show (dat0 m c).leavesExact 4 t = owns (c : Thread nD τ) (ms0_4 t) fullShare ((dat0 m c).after 4 t) from rfl, after0_4]
  rw [show (dat0 m c).leavesExact 5 t = owns (c : Thread nD τ) (ms0_5 t) fullShare ((dat0 m c).after 5 t) from rfl, after0_5]
  rw [show (dat0 m c).leavesExact 6 t = owns (c : Thread nD τ) (ms0_6 t) fullShare ((dat0 m c).after 6 t) from rfl, after0_6]
  rw [show (dat0 m c).leavesExact 7 t = owns (c : Thread nD τ) (ms0_7 t) fullShare ((dat0 m c).after 7 t) from rfl, after0_7]
  rw [show (dat0 m c).leavesExact 8 t = owns (c : Thread nD τ) (ms0_8 t) fullShare ((dat0 m c).after 8 t) from rfl, after0_8]
  by_cases hz : t.val = 0
  · have e : S1 m c = k0_pay2 (iblk0 m c 2 t) (iblk0 m c 3 t) := by
      have ht : t = t00 := Fin.ext hz
      subst ht; rfl
    rw [e, hz, Phi0_zero]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_A (U := UR sig nD τ) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) ((hcond0 t).mpr hz) (iblk0 m c 0 t) (iblk0 m c 1 t) (iblk0 m c 2 t) (iblk0 m c 3 t) (iblk0 m c 4 t) (iblk0 m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨G0, G1, G2, G3, G4, G5, G6, G7, G8, GS⟩
    isplitl [GS Hr]
    · isplitl [GS]; · iexact GS
      iexact Hr
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  · rw [Phi0_pos m c t.val hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_B (U := UR sig nD τ) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (fun h => hz ((hcond0 t).mp h)) (iblk0 m c 0 t) (iblk0 m c 1 t) (iblk0 m c 2 t) (iblk0 m c 3 t) (iblk0 m c 4 t) (iblk0 m c 5 t) (S1 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨G0, G1, G2, G3, G4, G5, G6, G7, G8, GS⟩
    isplitl [GS Hr]
    · isplitl [GS]; · iexact GS
      iexact Hr
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8

/-- The body obligation for the first kernel, at every point. -/
theorem body_obligation0 (c : Dev nD) : BodyObligation (dat0 (F := F) m c) (defs₀ (F := F)) Variants.none () Set.univ := fun t => by
  rw [bigSep_W0, bigSep_W0]
  exact sound_body0 m c t

end Cert.KernelIdeal.Hand

end
-- ==== Proof.Runs1.lean ====
/-
  The body of the second kernel run symbolically in its two control cases.

  The body is two conditionals on the grid coordinates. In the first phase it reads the two adjacency row blocks, the
  carried product, the bias row and the weights, and stores two [200,128] halves into rows 400·b … 400·b+199 and
  400·b+200 … 400·b+399 of the [10000,128] scratch, b the row block; every other row of the scratch keeps what it held.
  In the second phase it reads the whole scratch and stores two [200,128] halves into rows 0 … 199 and 200 … 399 of the
  [400,128] output block, which they cover.

  A list of stores is read newest first: an index under the newest rectangle reads that store's payload at the index
  minus the rectangle's offsets, any other index reads what the rest of the list left. With the two rectangles of a
  phase disjoint in their rows, the scratch after the first phase is the old contents with the two halves spliced in,
  and the output block after the second phase is the two halves stacked.
-/
import proofs.«175765_g50964081934784_cont_8to1c4_784_17_alg».proof.Proof.Gen.KernelIdeal.Skeleton
import proofs.«175765_g50964081934784_cont_8to1c4_784_17_alg».proof.Proof.Gen.KernelIdeal.Launch
import proofs.«175765_g50964081934784_cont_8to1c4_784_17_alg».proof.Proof.Named
import Idealize.ShloMosaic.Lib.Pipeline.FrameBody
import Idealize.ShloMosaic.Lib.WholeRead
import Idealize.ShloMosaic.Lib.WritesUnit
import Idealize.ShloMosaic.Lib.Tactic

set_option maxRecDepth 16384

noncomputable section

namespace Cert.KernelIdeal.Hand1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## A load of a whole buffer reads its contents -/

theorem zero2 : (![0, 0] : Fin 2 → ℕ) = fun _ => 0 := by
  funext a; fin_cases a <;> rfl

/-- A load through the whole-shape rectangle at zero offsets of a whole rank-2 memref held at the contents that read
    `X` reads `X`. -/
theorem readAt_whole2 {Val : EltTy → Type} {κ : Kind} {sp : Space} {d : Fin 2 → ℕ} {e : EltTy}
    {m : Memref sig κ sp (⟨2, d⟩ : Shape) e} (h : m.IsWhole) (X : (⟨2, d⟩ : Shape).Idx → Val e)
    (inb : ∀ a, (![0, 0] : Fin 2 → ℕ) a + (⟨2, d⟩ : Shape).size a ≤ (⟨2, d⟩ : Shape).size a) :
    m.view.readAt Val (Rect.unit (s := (⟨2, d⟩ : Shape)) ![0, 0] (⟨2, d⟩ : Shape).size inb).toLoadRect (h.unread X) = X :=
  (View.readAt_eq_ld m.view (h.unread X) _).trans (by rw [h.read_unread, View.ld_unit_zero (S := (⟨2, d⟩ : Shape)) zero2])

/-! ## The first phase's two stores into the scratch -/

/-- The two stores of the first phase, newest first: `bot` into rows 400·b+200 …, `top` into rows 400·b …, b the row
    block of the point. -/
def pieces9 (i : grid1.Coords) (h1 : k1_cond1 i = 1#1) (top bot : Vec F S200x128 .bf16) :
    List (View.Piece (Elt F) S10000x128 .bf16) :=
  [⟨Rect.unit (s := S10000x128) (k1_off1 i 200#32) S200x128.size (k1_off1_inb i h1 1), bot⟩,
   ⟨Rect.unit (s := S10000x128) (k1_off1 i 0#32) S200x128.size (k1_off1_inb i h1 0), top⟩]

/-- Read back over any earlier contents, the two stores splice the two halves into the rows of the point's block. -/
theorem read_pieces9 {κ : Kind} {sp : Space} (v : View sig κ sp S10000x128 .bf16) (f : v.ty.Contents (Elt F))
    (i : grid1.Coords) (h1 : k1_cond1 i = 1#1) (top bot : Vec F S200x128 .bf16) :
    v.read (Elt F) (v.writes (Elt F) f (pieces9 i h1 top bot))
      = splice2 (400 * (i 1).val) (v.read (Elt F) f) top bot := by
  have e0 : k1_off1 i 0#32 = ![400 * (i 1).val, 0] := k1_off1_eq i 0
  have e1 : k1_off1 i 200#32 = ![400 * (i 1).val + 200, 0] := k1_off1_eq i 1
  funext y
  unfold splice2 pieces9
  by_cases hA : 400 * (i 1).val ≤ (y 0).val ∧ (y 0).val < 400 * (i 1).val + 200
  · rw [dif_pos hA]
    refine (View.read_writes_cons_unit_of_not_mem v f (k1_off1_inb i h1 1) bot _ y e1 0
      (by show (y 0).val < 400 * (i 1).val + 200 ∨ 400 * (i 1).val + 200 + 200 ≤ (y 0).val; omega)).trans ?_
    exact View.read_writes_cons_unit_of_mem v f (k1_off1_inb i h1 0) top _ y
      (ix2 (⟨(y 0).val - 400 * (i 1).val, by omega⟩ : Fin 200) (y 1)) e0
      (Fin.forall_fin_two.mpr ⟨by show (y 0).val = 400 * (i 1).val + ((y 0).val - 400 * (i 1).val); omega,
        (Nat.zero_add _).symm⟩)
  · rw [dif_neg hA]
    by_cases hB : 400 * (i 1).val + 200 ≤ (y 0).val ∧ (y 0).val < 400 * (i 1).val + 400
    · rw [dif_pos hB]
      exact View.read_writes_cons_unit_of_mem v f (k1_off1_inb i h1 1) bot _ y
        (ix2 (⟨(y 0).val - 400 * (i 1).val - 200, by omega⟩ : Fin 200) (y 1)) e1
        (Fin.forall_fin_two.mpr ⟨by show (y 0).val = 400 * (i 1).val + 200 + ((y 0).val - 400 * (i 1).val - 200); omega,
          (Nat.zero_add _).symm⟩)
    · rw [dif_neg hB]
      refine (View.read_writes_cons_unit_of_not_mem v f (k1_off1_inb i h1 1) bot _ y e1 0
        (by show (y 0).val < 400 * (i 1).val + 200 ∨ 400 * (i 1).val + 200 + 200 ≤ (y 0).val; omega)).trans ?_
      exact View.read_writes_cons_unit_of_not_mem v f (k1_off1_inb i h1 0) top _ y e0 0
        (by show (y 0).val < 400 * (i 1).val ∨ 400 * (i 1).val + 200 ≤ (y 0).val; omega)

/-! ## The second phase's two stores into the output block -/

/-- The two stores of the second phase, newest first: `bot` into rows 200 … 399, `top` into rows 0 … 199. -/
def pieces8 (top bot : Vec F S200x128 .f32) : List (View.Piece (Elt F) S400x128 .f32) :=
  [⟨Rect.unit (s := S400x128) ![200, 0] S200x128.size inb_S400x128_S200x128_200_0, bot⟩,
   ⟨Rect.unit (s := S400x128) ![0, 0] S200x128.size inb_S400x128_S200x128_0_0, top⟩]

/-- Read back over any earlier contents, the two stores are the two halves stacked: they cover the block. -/
theorem read_pieces8 {κ : Kind} {sp : Space} (v : View sig κ sp S400x128 .f32) (f : v.ty.Contents (Elt F))
    (top bot : Vec F S200x128 .f32) :
    v.read (Elt F) (v.writes (Elt F) f (pieces8 top bot)) = stack2 top bot := by
  funext y
  unfold stack2 pieces8
  by_cases hA : (y 0).val < 200
  · rw [dif_pos hA]
    rw [View.read_writes_cons_unit_of_not_mem v f inb_S400x128_S200x128_200_0 bot _ y rfl 0
      (by show (y 0).val < 200 ∨ 200 + 200 ≤ (y 0).val; omega)]
    exact View.read_writes_cons_unit_of_mem v f inb_S400x128_S200x128_0_0 top _ y
      (ix2 (⟨(y 0).val, hA⟩ : Fin 200) (y 1)) rfl
      (Fin.forall_fin_two.mpr ⟨(Nat.zero_add _).symm, (Nat.zero_add _).symm⟩)
  · rw [dif_neg hA]
    exact View.read_writes_cons_unit_of_mem v f inb_S400x128_S200x128_200_0 bot _ y
      (ix2 (⟨(y 0).val - 200, by have := idx2_lt0 y; omega⟩ : Fin 200) (y 1)) rfl
      (Fin.forall_fin_two.mpr ⟨by show (y 0).val = 200 + ((y 0).val - 200); omega, (Nat.zero_add _).symm⟩)

/-! ## The spliced array at an index -/

/-- Row `o + r` of the spliced array, `r` below 200, is row `r` of the first half. -/
theorem splice2_top {α : Type} (o : Nat) (old : S10000x128.Idx → α) (top bot : S200x128.Idx → α) (ho : o + 400 ≤ 10000)
    (r : Fin 200) (j : Fin 128) :
    splice2 o old top bot (ix2 (⟨o + r.val, by omega⟩ : Fin 10000) j) = top (ix2 r j) := by
  unfold splice2
  rw [dif_pos (show o ≤ ((ix2 (⟨o + r.val, by omega⟩ : Fin 10000) j : S10000x128.Idx) 0).val
      ∧ ((ix2 (⟨o + r.val, by omega⟩ : Fin 10000) j : S10000x128.Idx) 0).val < o + 200 from
    ⟨Nat.le_add_right _ _, by show o + r.val < o + 200; omega⟩)]
  exact congrArg top (congrArg (fun a : Fin 200 => (ix2 a j : S200x128.Idx))
    (Fin.ext (show o + r.val - o = r.val by omega)))

/-- Row `o + 200 + r` of the spliced array, `r` below 200, is row `r` of the second half. -/
theorem splice2_bot {α : Type} (o : Nat) (old : S10000x128.Idx → α) (top bot : S200x128.Idx → α) (ho : o + 400 ≤ 10000)
    (r : Fin 200) (j : Fin 128) :
    splice2 o old top bot (ix2 (⟨o + 200 + r.val, by omega⟩ : Fin 10000) j) = bot (ix2 r j) := by
  unfold splice2
  rw [dif_neg (show ¬ (o ≤ ((ix2 (⟨o + 200 + r.val, by omega⟩ : Fin 10000) j : S10000x128.Idx) 0).val
      ∧ ((ix2 (⟨o + 200 + r.val, by omega⟩ : Fin 10000) j : S10000x128.Idx) 0).val < o + 200) from by
    show ¬ (o ≤ o + 200 + r.val ∧ o + 200 + r.val < o + 200); omega)]
  rw [dif_pos (show o + 200 ≤ ((ix2 (⟨o + 200 + r.val, by omega⟩ : Fin 10000) j : S10000x128.Idx) 0).val
      ∧ ((ix2 (⟨o + 200 + r.val, by omega⟩ : Fin 10000) j : S10000x128.Idx) 0).val < o + 400 from
    ⟨Nat.le_add_right _ _, by show o + 200 + r.val < o + 400; omega⟩)]
  exact congrArg bot (congrArg (fun a : Fin 200 => (ix2 a j : S200x128.Idx))
    (Fin.ext (show o + 200 + r.val - o - 200 = r.val by omega)))

/-- A row outside `[o, o + 400)` of the spliced array is the old row. -/
theorem splice2_old {α : Type} (o : Nat) (old : S10000x128.Idx → α) (top bot : S200x128.Idx → α) (y : S10000x128.Idx)
    (h : (y 0).val < o ∨ o + 400 ≤ (y 0).val) : splice2 o old top bot y = old y := by
  unfold splice2
  rw [dif_neg (show ¬ (o ≤ (y 0).val ∧ (y 0).val < o + 200) by omega),
    dif_neg (show ¬ (o + 200 ≤ (y 0).val ∧ (y 0).val < o + 400) by omega)]

/-- The scratch after the first phase at row block `b`: rows `400·b + r` hold the first half's row `r`. -/
theorem S9_top (b : Nat) (hb : 400 * b + 400 ≤ 10000) (xs : Vec F S10000x128 .bf16) (x2 x3 : Vec F S200x10000 .bf16)
    (x4 : Vec F S10000x128 .bf16) (x5 : Vec F S1x128 .f32) (x6 : Vec F S128x128 .bf16) (r : Fin 200) (j : Fin 128) :
    S9 b xs x2 x3 x4 x5 x6 (ix2 (⟨400 * b + r.val, by omega⟩ : Fin 10000) j) = k1_pay4 x2 x4 x5 x6 (ix2 r j) :=
  splice2_top (400 * b) xs _ _ hb r j

/-- Rows `400·b + 200 + r` hold the second half's row `r`. -/
theorem S9_bot (b : Nat) (hb : 400 * b + 400 ≤ 10000) (xs : Vec F S10000x128 .bf16) (x2 x3 : Vec F S200x10000 .bf16)
    (x4 : Vec F S10000x128 .bf16) (x5 : Vec F S1x128 .f32) (x6 : Vec F S128x128 .bf16) (r : Fin 200) (j : Fin 128) :
    S9 b xs x2 x3 x4 x5 x6 (ix2 (⟨400 * b + 200 + r.val, by omega⟩ : Fin 10000) j)
      = k1_pay1 (k1_pay5 x3 x4 x5) x6 (ix2 r j) :=
  splice2_bot (400 * b) xs _ _ hb r j

/-- Every other row holds what the scratch held before. -/
theorem S9_old (b : Nat) (xs : Vec F S10000x128 .bf16) (x2 x3 : Vec F S200x10000 .bf16)
    (x4 : Vec F S10000x128 .bf16) (x5 : Vec F S1x128 .f32) (x6 : Vec F S128x128 .bf16) (y : S10000x128.Idx)
    (h : (y 0).val < 400 * b ∨ 400 * b + 400 ≤ (y 0).val) : S9 b xs x2 x3 x4 x5 x6 y = xs y :=
  splice2_old (400 * b) xs _ _ y h

/-! ## The runs -/

set_option maxHeartbeats 1000000 in
/-- THE FIRST PHASE. On whole memrefs — the six inputs at their contents, the output block at `y8`, the scratch at
    `xs` — the body, its first conditional taken and its second not, runs to the continuation holding the inputs and
    the output block as they were and the scratch at `xs` with the two halves computed at the point spliced into the
    rows of its block. -/
theorem runA (c : Dev nD) (i : grid1.Coords) (arg2 : Memref sig .tc .vmem S200x10000 .bf16) (harg2 : arg2.IsWhole) (arg3 : Memref sig .tc .vmem S200x10000 .bf16) (harg3 : arg3.IsWhole) (arg4 : Memref sig .tc .vmem S10000x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (h1 : k1_cond1 i = 1#1) (h2 : ¬ k1_cond2 i = 1#1)
    (x2 x3 : Vec F S200x10000 .bf16) (x4 : Vec F S10000x128 .bf16) (x5 : Vec F S1x128 .f32) (x6 : Vec F S128x128 .bf16) (x7 : Vec F S1x128 .f32) (y8 : Vec F S400x128 .f32) (xs : Vec F S10000x128 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare y8 ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare y8
            ∗ owns (c : Thread nD τ) arg9 fullShare (S9 (i 1).val xs x2 x3 x4 x5 x6)) -∗ K ⟨⟩))
      ⊢ wp frame (wpE (defs₀ (F := F)) Variants.none c none) E (cc1__tail_kernel i arg2 harg2 arg3 harg3 arg4 harg4 arg5 harg5 arg6 harg6 arg7 harg7 arg8 harg8 arg9 harg9) K := by
  simp only [cc1__tail_kernel_eq_skeleton]; unfold cc1__tail_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  on_goal 2 => iexact H9
  ipureintro
  rw [readAt_whole2 harg2 x2, readAt_whole2 harg3 x3, readAt_whole2 harg4 x4, readAt_whole2 harg5 x5, readAt_whole2 harg6 x6]
  refine (read_pieces9 arg9.view (harg9.unread xs) i h1 (k1_pay4 x2 x4 x5 x6) (k1_pay1 (k1_pay5 x3 x4 x5) x6)).trans ?_
  rw [harg9.read_unread]; rfl

set_option maxHeartbeats 1000000 in
/-- THE SECOND PHASE. On whole memrefs — the six inputs at their contents, the output block at anything, the scratch
    at `xs` — the body, its first conditional not taken and its second taken, runs to the continuation holding the
    inputs and the scratch as they were and the output block at the two halves computed from the scratch, stacked. -/
theorem runB (c : Dev nD) (i : grid1.Coords) (arg2 : Memref sig .tc .vmem S200x10000 .bf16) (harg2 : arg2.IsWhole) (arg3 : Memref sig .tc .vmem S200x10000 .bf16) (harg3 : arg3.IsWhole) (arg4 : Memref sig .tc .vmem S10000x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (h1 : ¬ k1_cond1 i = 1#1) (h2 : k1_cond2 i = 1#1)
    (x2 x3 : Vec F S200x10000 .bf16) (x4 : Vec F S10000x128 .bf16) (x5 : Vec F S1x128 .f32) (x6 : Vec F S128x128 .bf16) (x7 : Vec F S1x128 .f32) (xs : Vec F S10000x128 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (O8 xs x2 x3 x7)
            ∗ owns (c : Thread nD τ) arg9 fullShare xs) -∗ K ⟨⟩))
      ⊢ wp frame (wpE (defs₀ (F := F)) Variants.none c none) E (cc1__tail_kernel i arg2 harg2 arg3 harg3 arg4 harg4 arg5 harg5 arg6 harg6 arg7 harg7 arg8 harg8 arg9 harg9) K := by
  simp only [cc1__tail_kernel_eq_skeleton]; unfold cc1__tail_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    on_goal 2 => iexact H8
    ipureintro
    rw [readAt_whole2 harg2 x2, readAt_whole2 harg3 x3, readAt_whole2 harg7 x7, readAt_whole2 harg9 xs]
    exact read_pieces8 arg8.view f8 (k1_pay2 x2 xs x7) (k1_pay3 x3 xs x7)
  iexists _; isplitr; · ipureintro; exact harg9.read_unread _
  iexact H9

end Cert.KernelIdeal.Hand1

end
-- ==== Proof.Obl1.lean ====
/-
  The second kernel's body obligation.

  The 50 grid points are two phases of 25 row blocks: point t is phase t / 25, row block t mod 25. At a point of the
  first phase the body takes the scratch at contents that agree with p3 below row 400·t, stores the two halves it
  computes from the point's blocks into rows 400·t … 400·t+399 and leaves every buffer of a window as it found it; the
  rows it stored are the rows of p3 of that block, so the scratch then agrees with p3 below row 400·(t+1). At a point
  of the second phase the scratch agrees with p3 on all 10000 rows, so it IS p3; the body reads it and leaves in the
  output window's buffer the block computed from p3 and the point's adjacency rows, every other buffer and the scratch
  as found.
-/
import proofs.«175765_g50964081934784_cont_8to1c4_784_17_alg».proof.Proof.Data1
import proofs.«175765_g50964081934784_cont_8to1c4_784_17_alg».proof.Proof.Runs1

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two conditions and the row block, over the 50 points -/

/-- The first conditional is taken exactly at the points of the first phase. -/
theorem hcond1_1 : ∀ t : Fin cfg1.N, k1_cond1 (grid1.coords t) = 1#1 ↔ t.val < 25 :=
  (by decide +kernel : ∀ t : Fin grid1.N, k1_cond1 (grid1.coords t) = 1#1 ↔ t.val < 25)

/-- The second conditional is taken exactly at the points of the second phase. -/
theorem hcond1_2 : ∀ t : Fin cfg1.N, k1_cond2 (grid1.coords t) = 1#1 ↔ 25 ≤ t.val :=
  (by decide +kernel : ∀ t : Fin grid1.N, k1_cond2 (grid1.coords t) = 1#1 ↔ 25 ≤ t.val)

/-- The row block of point `t`. -/
theorem hrow1 : ∀ t : Fin cfg1.N, (grid1.coords t 1).val = t.val % 25 :=
  (by decide +kernel : ∀ t : Fin grid1.N, (grid1.coords t 1).val = t.val % 25)

/-! ## Splicing a block's rows into an array that agrees below the block -/

/-- An array that agrees with `P` below row 400·b, with two halves spliced into rows 400·b … 400·b+399 that are the
    rows of `P` there, agrees with `P` below row 400·(b+1). -/
theorem splice2_agrees {α : Type} (b : ℕ) (xs P : S10000x128.Idx → α) (top bot : S200x128.Idx → α)
    (hP : ∀ (a : Fin 10000) (j : Fin 128), a.val / 400 = b →
      P (ix2 a j) = stack2 top bot (ix2 (⟨a.val % 400, Nat.mod_lt _ (by norm_num)⟩ : Fin 400) j))
    (h : ∀ y : S10000x128.Idx, (y 0).val < 400 * b → xs y = P y) :
    ∀ y : S10000x128.Idx, (y 0).val < 400 * (b + 1) → splice2 (400 * b) xs top bot y = P y := by
  intro y hy
  obtain ⟨a, j, rfl⟩ : ∃ (a : Fin 10000) (j : Fin 128), y = ix2 a j := ⟨y 0, y 1, eq_ix2 y⟩
  have hy' : a.val < 400 * (b + 1) := hy
  by_cases hlt : a.val < 400 * b
  · rw [Hand1.splice2_old (400 * b) xs top bot (ix2 a j) (Or.inl hlt)]
    exact h (ix2 a j) hlt
  · have hdiv : a.val / 400 = b := by omega
    rw [hP a j hdiv]
    unfold splice2 stack2
    by_cases hr : a.val < 400 * b + 200
    · rw [dif_pos (show 400 * b ≤ ((ix2 a j : S10000x128.Idx) 0).val ∧ ((ix2 a j : S10000x128.Idx) 0).val < 400 * b + 200 from
        ⟨by show 400 * b ≤ a.val; omega, hr⟩)]
      rw [dif_pos (show ((ix2 (⟨a.val % 400, Nat.mod_lt _ (by norm_num)⟩ : Fin 400) j : S400x128.Idx) 0).val < 200 from by
        show a.val % 400 < 200; omega)]
      exact congrArg top (congrArg (fun r : Fin 200 => (ix2 r j : S200x128.Idx))
        (Fin.ext (show a.val - 400 * b = a.val % 400 by omega)))
    · rw [dif_neg (show ¬ (400 * b ≤ ((ix2 a j : S10000x128.Idx) 0).val ∧ ((ix2 a j : S10000x128.Idx) 0).val < 400 * b + 200) from by
        show ¬ (400 * b ≤ a.val ∧ a.val < 400 * b + 200); omega)]
      rw [dif_pos (show 400 * b + 200 ≤ ((ix2 a j : S10000x128.Idx) 0).val ∧ ((ix2 a j : S10000x128.Idx) 0).val < 400 * b + 400 from by
        show 400 * b + 200 ≤ a.val ∧ a.val < 400 * b + 400; omega)]
      rw [dif_neg (show ¬ ((ix2 (⟨a.val % 400, Nat.mod_lt _ (by norm_num)⟩ : Fin 400) j : S400x128.Idx) 0).val < 200 from by
        show ¬ a.val % 400 < 200; omega)]
      exact congrArg bot (congrArg (fun r : Fin 200 => (ix2 r j : S200x128.Idx))
        (Fin.ext (show a.val - 400 * b - 200 = a.val % 400 - 200 by omega)))

/-! ## The invariant across a point -/

/-- The rows of p3 of the row block of a first-phase point are the two halves computed at that point, stacked. -/
theorem P3_block (c : Dev nD) (t : Fin cfg1.N) (ht : t.val < 25) (a : Fin 10000) (j : Fin 128) (ha : a.val / 400 = t.val) :
    P3 m c (ix2 a j)
      = stack2 (k1_pay4 (iblk1 m c 0 t) (iblk1 m c 2 t) (iblk1 m c 3 t) (iblk1 m c 4 t))
          (k1_pay1 (k1_pay5 (iblk1 m c 1 t) (iblk1 m c 2 t) (iblk1 m c 3 t)) (iblk1 m c 4 t))
          (ix2 (⟨a.val % 400, Nat.mod_lt _ (by norm_num)⟩ : Fin 400) j) := by
  have key : ∀ (b : ℕ) (hb : b < 25), b = t.val →
      p3blk m c b hb = stack2 (k1_pay4 (iblk1 m c 0 t) (iblk1 m c 2 t) (iblk1 m c 3 t) (iblk1 m c 4 t))
          (k1_pay1 (k1_pay5 (iblk1 m c 1 t) (iblk1 m c 2 t) (iblk1 m c 3 t)) (iblk1 m c 4 t)) := by
    intro b hb e; subst e; rfl
  show p3blk m c (a.val / 400) _ (ix2 (⟨a.val % 400, _⟩ : Fin 400) j) = _
  exact congrFun (key (a.val / 400) _ ha) _

/-- ACROSS A POINT OF THE FIRST PHASE: the scratch with the point's two halves spliced in agrees with p3 one block
    further. -/
theorem Inv1_step (c : Dev nD) (t : Fin cfg1.N) (ht : t.val < 25) (b : ℕ) (hb : b = t.val) (xs : Vec F S10000x128 .bf16)
    (x2 x3 : Vec F S200x10000 .bf16) (x4 : Vec F S10000x128 .bf16) (x5 : Vec F S1x128 .f32) (x6 : Vec F S128x128 .bf16)
    (e0 : x2 = iblk1 m c 0 t) (e1 : x3 = iblk1 m c 1 t) (e2 : x4 = iblk1 m c 2 t) (e3 : x5 = iblk1 m c 3 t)
    (e4 : x6 = iblk1 m c 4 t) (h : Inv1 m c t.val xs) : Inv1 m c (t.val + 1) (S9 b xs x2 x3 x4 x5 x6) := by
  subst hb e0 e1 e2 e3 e4
  intro y hy
  rw [Nat.min_eq_left (by omega)] at hy
  exact splice2_agrees t.val xs (P3 m c) _ _ (fun a j ha => P3_block m c t ht a j ha)
    (fun y hy => h y (by rw [Nat.min_eq_left (by omega)]; exact hy)) y hy

/-- AT A POINT OF THE SECOND PHASE the scratch is p3: it agrees with it on all 10000 rows. -/
theorem Inv1_full (c : Dev nD) (n : ℕ) (hn : 25 ≤ n) (xs : Vec F S10000x128 .bf16) (h : Inv1 m c n xs) : xs = P3 m c := by
  funext y
  exact h y (by rw [Nat.min_eq_right hn]; have := idx2_lt0 y; omega)

/-- And the invariant holds of p3 at every point. -/
theorem Inv1_P3 (c : Dev nD) (n : ℕ) : Inv1 m c n (P3 m c) := fun _ _ => rfl

/-- What the second phase leaves in the output window's buffer is what the data ask of it there. -/
theorem after1_6_phase1 (c : Dev nD) (t : Fin cfg1.N) (ht : 25 ≤ t.val) (Y6 : Vec F S400x128 .f32)
    (xs : Vec F S10000x128 .bf16) (x2 x3 : Vec F S200x10000 .bf16) (x7 : Vec F S1x128 .f32) (hxs : xs = P3 m c)
    (e0 : x2 = iblk1 m c 0 t) (e1 : x3 = iblk1 m c 1 t) (e5 : x7 = iblk1 m c 5 t) :
    (rd1 m c).after 6 t Y6 (O8 xs x2 x3 x7) := by
  subst hxs e0 e1 e5
  exact (after1_6 m c t _ _).mpr (by rw [if_pos ht])

/-- In the first phase the output window's buffer is left as found, which is what the data ask of it there. -/
theorem after1_6_phase0 (c : Dev nD) (t : Fin cfg1.N) (ht : t.val < 25) (Y6 : Vec F S400x128 .f32) :
    (rd1 m c).after 6 t Y6 Y6 :=
  (after1_6 m c t _ _).mpr (by rw [if_neg (by omega)])

/-! ## The obligation -/

/-- THE BODY OBLIGATION of the second kernel: at every point, from the invariant, what the core owes and every
    window's current buffer at contents it may then hold, the body runs to the invariant at the next point, the same
    debt and every buffer at contents in the data's relation to what it was handed. The inputs' buffers hold their
    blocks; the point's phase decides the two conditionals; the run of that phase applies. -/
theorem body_obligation1 (c : Dev nD) :
    (rd1 m c).BodyObligation (defs₀ (F := F)) Variants.none () Set.univ := fun t Y hY => by
  rw [bigSep_W1, bigSep_W1]
  have e0 := finds1_0 m c t (Y 0) (hY 0)
  have e1 := finds1_1 m c t (Y 1) (hY 1)
  have e2 := finds1_2 m c t (Y 2) (hY 2)
  have e3 := finds1_3 m c t (Y 3) (hY 3)
  have e4 := finds1_4 m c t (Y 4) (hY 4)
  have e5 := finds1_5 m c t (Y 5) (hY 5)
  rw [show (rd1 m c).owesAt () t.succ = (rd1 m c).owesAt () t.castSucc from rfl]
  rw [show (rd1 m c).Φ t.castSucc = Phi1 m c t.val from rfl, show (rd1 m c).Φ t.succ = Phi1 m c (t.val + 1) from rfl]
  unfold Phi1
  change _ ⊢ wp frame (wpE (defs₀ (F := F)) Variants.none c none) Set.univ (bodyAt1 t) _
  by_cases ht : t.val < 25
  · have hb : (grid1.coords t 1).val = t.val := by rw [hrow1 t]; exact Nat.mod_eq_of_lt ht
    iintro ⟨⟨⟨%xs, %hinv, HS⟩, Hr⟩, Ho, H0, H1, H2, H3, H4, H5, H6⟩
    iapply (Hand1.runA c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _)
      ((hcond1_1 t).mpr ht) (fun h => absurd ((hcond1_2 t).mp h) (by omega))
      (Y 0) (Y 1) (Y 2) (Y 3) (Y 4) (Y 5) (Y 6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hr]
    · isplitl [HS]
      · iexists _; isplitr
        swap; · iexact HS
        ipureintro; exact Inv1_step m c t ht _ hb xs _ _ _ _ _ e0 e1 e2 e3 e4 hinv
      iexact Hr
    isplitl [Ho]; · iexact Ho
    isplitl [H0]
    · iexists _; isplitr; · ipureintro; exact (after1_0 m c t _ _).mpr rfl
      iexact H0
    isplitl [H1]
    · iexists _; isplitr; · ipureintro; exact (after1_1 m c t _ _).mpr rfl
      iexact H1
    isplitl [H2]
    · iexists _; isplitr; · ipureintro; exact (after1_2 m c t _ _).mpr rfl
      iexact H2
    isplitl [H3]
    · iexists _; isplitr; · ipureintro; exact (after1_3 m c t _ _).mpr rfl
      iexact H3
    isplitl [H4]
    · iexists _; isplitr; · ipureintro; exact (after1_4 m c t _ _).mpr rfl
      iexact H4
    isplitl [H5]
    · iexists _; isplitr; · ipureintro; exact (after1_5 m c t _ _).mpr rfl
      iexact H5
    iexists _; isplitr; · ipureintro; exact after1_6_phase0 m c t ht _
    iexact H6
  · have ht' : 25 ≤ t.val := by omega
    iintro ⟨⟨⟨%xs, %hinv, HS⟩, Hr⟩, Ho, H0, H1, H2, H3, H4, H5, H6⟩
    have hxs : xs = P3 m c := Inv1_full m c t.val ht' xs hinv
    iapply (Hand1.runB c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _)
      (fun h => absurd ((hcond1_1 t).mp h) (by omega)) ((hcond1_2 t).mpr ht')
      (Y 0) (Y 1) (Y 2) (Y 3) (Y 4) (Y 5) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hr]
    · isplitl [HS]
      · iexists _; isplitr
        swap; · iexact HS
        ipureintro; rw [hxs]; exact Inv1_P3 m c _
      iexact Hr
    isplitl [Ho]; · iexact Ho
    isplitl [H0]
    · iexists _; isplitr; · ipureintro; exact (after1_0 m c t _ _).mpr rfl
      iexact H0
    isplitl [H1]
    · iexists _; isplitr; · ipureintro; exact (after1_1 m c t _ _).mpr rfl
      iexact H1
    isplitl [H2]
    · iexists _; isplitr; · ipureintro; exact (after1_2 m c t _ _).mpr rfl
      iexact H2
    isplitl [H3]
    · iexists _; isplitr; · ipureintro; exact (after1_3 m c t _ _).mpr rfl
      iexact H3
    isplitl [H4]
    · iexists _; isplitr; · ipureintro; exact (after1_4 m c t _ _).mpr rfl
      iexact H4
    isplitl [H5]
    · iexists _; isplitr; · ipureintro; exact (after1_5 m c t _ _).mpr rfl
      iexact H5
    iexists _; isplitr; · ipureintro; exact after1_6_phase1 m c t ht' _ xs _ _ _ hxs e0 e1 e5
    iexact H6

end Cert.KernelIdeal.Hand

end
-- ==== Proof.K.Named.lean ====
/-
  Names for what the two kernels leave in their buffers.

  Both kernels work on a row block of 400 rows as two halves of 200 rows: each half is computed from its own 200 rows
  of the adjacency matrix and stored into rows 0..199 or 200..399 of a [400,128] buffer. `stack2 top bot` is that
  buffer: the first 200 rows are `top`, the last 200 rows are `bot`. The second kernel's first phase stores the two
  halves into a [10000,128] scratch at rows o..o+199 and o+200..o+399 and leaves every other row as it was:
  `splice2 o old top bot`.
-/
import proofs.«175765_g50964081934784_cont_8to1c4_784_17_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- Two [200,128] halves stacked into one [400,128] block: rows 0..199 are `top`, rows 200..399 are `bot`. -/
def stack2 {α : Type} (top bot : S200x128.Idx → α) : S400x128.Idx → α := fun y =>
  if h : (y 0).val < 200 then top (ix2 (⟨(y 0).val, h⟩ : Fin 200) (y 1))
  else bot (ix2 (⟨(y 0).val - 200, by have := idx2_lt0 y; omega⟩ : Fin 200) (y 1))

theorem stack2_top {α : Type} (top bot : S200x128.Idx → α) (r : Fin 200) (j : Fin 128) :
    stack2 top bot (ix2 (⟨r.val, by omega⟩ : Fin 400) j) = top (ix2 r j) := by
  unfold stack2; rw [dif_pos (show ((ix2 (⟨r.val, by omega⟩ : Fin 400) j : S400x128.Idx) 0).val < 200 from r.isLt)]

theorem stack2_bot {α : Type} (top bot : S200x128.Idx → α) (r : Fin 200) (j : Fin 128) :
    stack2 top bot (ix2 (⟨r.val + 200, by omega⟩ : Fin 400) j) = bot (ix2 r j) := by
  unfold stack2
  rw [dif_neg (show ¬ ((ix2 (⟨r.val + 200, by omega⟩ : Fin 400) j : S400x128.Idx) 0).val < 200 from by
    show ¬ r.val + 200 < 200; omega)]
  congr 1

/-- A [10000,128] array with rows o..o+199 replaced by `top`, rows o+200..o+399 by `bot`, the rest as in `old`. -/
def splice2 {α : Type} (o : Nat) (old : S10000x128.Idx → α) (top bot : S200x128.Idx → α) : S10000x128.Idx → α := fun y =>
  if h : o ≤ (y 0).val ∧ (y 0).val < o + 200 then top (ix2 (⟨(y 0).val - o, by omega⟩ : Fin 200) (y 1))
  else if h' : o + 200 ≤ (y 0).val ∧ (y 0).val < o + 400 then bot (ix2 (⟨(y 0).val - o - 200, by omega⟩ : Fin 200) (y 1))
  else old y

/-- What the first kernel leaves in its [400,128] output block at a point: from the two adjacency row blocks `x1`, `x2`,
    the carried product `S`, the bias row `x5` and the next layer's weights `x6`. -/
def O7 (S : Vec F S10000x128 .bf16) (x1 x2 : Vec F S200x10000 .f32) (x5 : Vec F S1x128 .f32) (x6 : Vec F S128x128 .bf16) :
    Vec F S400x128 .bf16 :=
  stack2 (k0_pay4 x1 S x5 x6) (k0_pay1 (k0_pay6 x2 S x5) x6)

/-- What the second kernel's second phase leaves in its [400,128] output block at a point. -/
def O8 (xs : Vec F S10000x128 .bf16) (x2 x3 : Vec F S200x10000 .bf16) (x7 : Vec F S1x128 .f32) : Vec F S400x128 .f32 :=
  stack2 (k1_pay2 x2 xs x7) (k1_pay3 x3 xs x7)

/-- What the second kernel's first phase leaves in its scratch at the point of row block `b`: rows 400·b … 400·b+399
    replaced by the two halves computed there. -/
def S9 (b : Nat) (xs : Vec F S10000x128 .bf16) (x2 x3 : Vec F S200x10000 .bf16) (x4 : Vec F S10000x128 .bf16)
    (x5 : Vec F S1x128 .f32) (x6 : Vec F S128x128 .bf16) : Vec F S10000x128 .bf16 :=
  splice2 (400 * b) xs (k1_pay4 x2 x4 x5 x6) (k1_pay1 (k1_pay5 x3 x4 x5) x6)

end Cert.Kernel.Hand

end
-- ==== Proof.K.Data0.lean ====
/-
  The first kernel's proof data.

  The first kernel visits 25 row blocks of 400 rows. At each it reads two halves of the adjacency block (the same array
  through two windows), at the first point also x and W1, and writes three outputs: the block of the next layer's
  operand p2 = relu(A·p1 + b1)·W2, and the two halves of the adjacency block in the narrower format. The product
  p1 = x·W1 is computed once, at the first point, into a scratch buffer that every point then reads.

  Here: the arrays as the kernel finds them (after the host operations before it), each window's block at a point,
  the carried product, what the body leaves in every staging buffer at every point, and the invariant between points —
  before the first point the scratch holds anything, afterwards it holds the product.
-/
import proofs.«175765_g50964081934784_cont_8to1c4_784_17_alg».proof.Proof.K.Named
import proofs.«175765_g50964081934784_cont_8to1c4_784_17_alg».proof.Proof.Gen.Kernel.Launch
import proofs.«175765_g50964081934784_cont_8to1c4_784_17_alg».proof.Proof.Gen.Kernel.Points
import proofs.«175765_g50964081934784_cont_8to1c4_784_17_alg».proof.Proof.Gen.Kernel.Regions
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays at the kernel's entry, and the windows' blocks -/

/-- Core `c`'s buffers when the first kernel is entered: the launch contents after the host operations before it. -/
abbrev Va (c : Dev nD) (b : Ref sig .tc) : Buf (Elt F) ((c : Thread nD τ).loc b) := Gen.V1 m c (Proc.devRef .tc b)

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (Va m c (Pipeline.arrRef spec0 w))

/-- The first grid point. -/
abbrev t00 : Fin cfg0.N := ⟨0, by decide⟩

/-- The carried product x·W1, as the first point computes it from the blocks of x and W1. -/
def S1 (c : Dev nD) : Vec F S10000x128 .bf16 := k0_pay2 (iblk0 m c 2 t00) (iblk0 m c 3 t00)

/-! ## The invariant between points -/

/-- The scratch buffer the kernel carries between points. -/
abbrev scM0 : Memref sig .tc .vmem S10000x128 .bf16 := Memref.whole cc0_scratch0

/-- The core's other scoped buffers that are no staging buffer of this kernel (the second kernel's). -/
abbrev restL0 : List (Ref sig .tc) :=
  [cc1_stg0_0, cc1_stg0_1, cc1_stg1_0, cc1_stg1_1, cc1_stg2_0, cc1_stg3_0, cc1_stg4_0, cc1_stg5_0, cc1_stg6_0, cc1_stg6_1, cc1_scratch0]

/-- Those buffers, each whole at some contents. -/
def rest0 (c : Dev nD) : sProp 𝕄 :=
  bigSepL restL0 fun b => iprop(∃ f : Buf (Elt F) ((c : Thread nD τ).loc b), ((c : Thread nD τ).loc b) ↦{fullShare} f)

/-- The scoped buffers the kernel does not stage: its scratch at some contents, and the rest. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ rest0 c) := by
  rw [Pipeline.scopedRest_eq_of_list spec0 c (cc0_scratch0 :: restL0) (by decide) (by decide)]
  unfold rest0; simp only [scM0, owns_whole]; rfl

/-- The invariant before point `n`: before the first the scratch holds anything; afterwards the carried product. -/
def Phi0 (c : Dev nD) : ℕ → sProp 𝕄
  | 0 => Pipeline.scopedRest (Ix := Unit) (Name := ℕ) (U := UR sig nD τ) (Lvl := ℕ) (Val := Elt F) spec0 c
  | _ + 1 => iprop(owns (c : Thread nD τ) scM0 fullShare (S1 m c) ∗ rest0 c)

theorem Phi0_zero (c : Dev nD) : Phi0 m c 0 = iprop((∃ d, owns (c : Thread nD τ) scM0 fullShare d) ∗ rest0 c) :=
  scopedRest0_split c

theorem Phi0_pos (c : Dev nD) (n : ℕ) (hn : n ≠ 0) : Phi0 m c n = iprop(owns (c : Thread nD τ) scM0 fullShare (S1 m c) ∗ rest0 c) := by
  cases n with
  | zero => exact absurd rfl hn
  | succ n => rfl

/-! ## The proof data -/

/-- The first kernel's proof data on core `c`: the arrays as the kernel finds them; after the body each input's buffer
    at its block, the three outputs' at what the point computes; the invariant above; the adjacency array held half by
    each of its two windows. -/
def dat0 (c : Dev nD) : Dat τ (Elt F) Unit ℕ (UR sig nD τ) ℕ cfg0 c where
  A w := Va m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => iblk0 m c 4 t
    | ⟨5, _⟩ => iblk0 m c 5 t
    | ⟨6, _⟩ => O7 (S1 m c) (iblk0 m c 0 t) (iblk0 m c 1 t) (iblk0 m c 4 t) (iblk0 m c 5 t)
    | ⟨7, _⟩ => k0_pay3 (iblk0 m c 0 t)
    | ⟨8, _⟩ => k0_pay5 (iblk0 m c 1 t)
  Φ t := Phi0 m c t.val
  q w := match w with
    | ⟨0, _⟩ => fullShare.left
    | ⟨1, _⟩ => fullShare.right
    | _ => fullShare
  owed _ := 0

theorem A0_eq (c : Dev nD) (w : Fin cfg0.W) : (dat0 m c).A w = Va m c (Pipeline.arrRef spec0 w) := by
  dsimp only [dat0]

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = iblk0 m c 2 t := by dsimp only [dat0]
theorem after0_3 (c : Dev nD) (t : Fin cfg0.N) : (dat0 m c).after 3 t = iblk0 m c 3 t := by dsimp only [dat0]
theorem after0_4 (c : Dev nD) (t : Fin cfg0.N) : (dat0 m c).after 4 t = iblk0 m c 4 t := by dsimp only [dat0]
theorem after0_5 (c : Dev nD) (t : Fin cfg0.N) : (dat0 m c).after 5 t = iblk0 m c 5 t := by dsimp only [dat0]
theorem after0_6 (c : Dev nD) (t : Fin cfg0.N) :
    (dat0 m c).after 6 t = O7 (S1 m c) (iblk0 m c 0 t) (iblk0 m c 1 t) (iblk0 m c 4 t) (iblk0 m c 5 t) := by dsimp only [dat0]
theorem after0_7 (c : Dev nD) (t : Fin cfg0.N) : (dat0 m c).after 7 t = k0_pay3 (iblk0 m c 0 t) := by dsimp only [dat0]
theorem after0_8 (c : Dev nD) (t : Fin cfg0.N) : (dat0 m c).after 8 t = k0_pay5 (iblk0 m c 1 t) := by dsimp only [dat0]

/-! ## Each input's buffer holds its block at every point, fetched there or not -/

theorem before0_0 (c : Dev nD) (t : Fin cfg0.N) (d) : (dat0 m c).before 0 t d = iblk0 m c 0 t :=
  ((dat0 m c).before_in_eq_fetched 0 rfl (fun _ => rfl) (fun _ _ _ => rfl)
      (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 m c).before 1 t d = iblk0 m c 1 t :=
  ((dat0 m c).before_in_eq_fetched 1 rfl (fun _ => rfl) (fun _ _ _ => rfl)
      (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 m c).before 2 t d = iblk0 m c 2 t :=
  ((dat0 m c).before_in_eq_fetched 2 rfl (fun _ => rfl) (fun _ _ _ => rfl)
      (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 m c).before 3 t d = iblk0 m c 3 t :=
  ((dat0 m c).before_in_eq_fetched 3 rfl (fun _ => rfl) (fun _ _ _ => rfl)
      (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 m c).before 4 t d = iblk0 m c 4 t :=
  ((dat0 m c).before_in_eq_fetched 4 rfl (fun _ => rfl) (fun _ _ _ => rfl)
      (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 m c).before 5 t d = iblk0 m c 5 t :=
  ((dat0 m c).before_in_eq_fetched 5 rfl (fun _ => rfl) (fun _ _ _ => rfl)
      (fun t => by rw [after0_5]; unfold Dat.blockOf iblk0; rw [A0_eq]; try rfl) t d).trans
    (by unfold Dat.fetched Dat.blockOf iblk0; rw [A0_eq]; try rfl)

end Cert.Kernel.Hand

end
-- ==== Proof.K.Data1.lean ====
/-
  The second kernel's proof data.

  The second kernel runs two phases over the same 25 row blocks. It reads the two halves of the adjacency block (as the
  first kernel wrote them, narrowed), the whole of p2, the bias rows b2 and b3 and the weights W3. In the first phase it
  computes, per row block, p3 = relu(A·p2 + b2)·W3 for the block's 400 rows and stores them into a scratch buffer at the
  block's rows; the output window is not stored into. In the second phase it reads the whole scratch and writes the
  output block A·p3 + b3.

  The output window keeps one block index (beyond the rows that are kept) through the first phase, so when the index
  changes at the phase boundary the pipeline writes back a buffer the body never stored into. What that write-back
  leaves cannot be named; so the data here RELATE what the body leaves in a buffer to what it found there: an input's
  buffer is left as found; the output's buffer is left as found in the first phase and holds the computed block in the
  second. The invariant tracks the scratch: before point n its rows below 400·min(n,25) are the rows of p3.
-/
import proofs.«175765_g50964081934784_cont_8to1c4_784_17_alg».proof.Proof.K.Data0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the first kernel left, and the arrays at the second kernel's entry -/

/-- The first kernel's three result arrays after its run: each as its write-backs leave it. -/
def a6 (c : Dev nD) : Buf (Elt F) ((c : Thread nD τ).loc main_v5_0) := (dat0 m c).arrAt 6 cfg0.N
def a7 (c : Dev nD) : Buf (Elt F) ((c : Thread nD τ).loc main_v5_1) := (dat0 m c).arrAt 7 cfg0.N
def a8 (c : Dev nD) : Buf (Elt F) ((c : Thread nD τ).loc main_v5_2) := (dat0 m c).arrAt 8 cfg0.N

/-- The contents the first kernel leaves in the buffers it may change, as a table over all buffers (only the three
    result arrays are ever read from it). -/
def outs0 : Gen.Outs (F := F) := fun _ r c =>
  if h0 : r = main_v5_0 then h0 ▸ a6 m c
  else if h1 : r = main_v5_1 then h1 ▸ a7 m c
  else if h2 : r = main_v5_2 then h2 ▸ a8 m c
  else Gen.V1 m c r

theorem outs0_v5_0 (J : ℕ) (c : Dev nD) : outs0 m J main_v5_0 c = a6 m c := by unfold outs0; rw [dif_pos rfl]
theorem outs0_v5_1 (J : ℕ) (c : Dev nD) : outs0 m J main_v5_1 c = a7 m c := by
  unfold outs0; rw [dif_neg (by decide), dif_pos rfl]
theorem outs0_v5_2 (J : ℕ) (c : Dev nD) : outs0 m J main_v5_2 c = a8 m c := by
  unfold outs0; rw [dif_neg (by decide), dif_neg (by decide), dif_pos rfl]

/-- Core `c`'s buffers when the second kernel is entered. -/
abbrev Vb (c : Dev nD) (b : Ref sig .tc) : Buf (Elt F) ((c : Thread nD τ).loc b) := Gen.V3 m (outs0 m) c (Proc.devRef .tc b)

/-- Window `w`'s block at point `t`, read off its array as the second kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (Vb m c (Pipeline.arrRef spec1 w))

/-! ## The carried scratch: the rows of p3 -/

/-- The first-phase point of row block `b`. -/
def tb (b : ℕ) (hb : b < 25) : Fin cfg1.N := ⟨b, by have : cfg1.N = 50 := N_1; omega⟩

/-- The 400 rows of p3 the first phase computes at row block `b`. -/
def p3blk (c : Dev nD) (b : ℕ) (hb : b < 25) : S400x128.Idx → F .bf16 :=
  stack2 (k1_pay4 (iblk1 m c 0 (tb b hb)) (iblk1 m c 2 (tb b hb)) (iblk1 m c 3 (tb b hb)) (iblk1 m c 4 (tb b hb)))
    (k1_pay1 (k1_pay5 (iblk1 m c 1 (tb b hb)) (iblk1 m c 2 (tb b hb)) (iblk1 m c 3 (tb b hb))) (iblk1 m c 4 (tb b hb)))

/-- p3 as the first phase leaves it in the scratch: row r is row r mod 400 of the block r / 400. -/
def P3 (c : Dev nD) : Vec F S10000x128 .bf16 := fun y =>
  p3blk m c ((y 0).val / 400) (by have := ValueIdx.idx2_lt0 y; omega)
    (ValueIdx.ix2 (⟨(y 0).val % 400, Nat.mod_lt _ (by norm_num)⟩ : Fin 400) (y 1))

/-! ## The invariant between points -/

/-- The scratch buffer the kernel carries between points. -/
abbrev scM1 : Memref sig .tc .vmem S10000x128 .bf16 := Memref.whole cc1_scratch0

/-- The core's other scoped buffers that are no staging buffer of this kernel (the first kernel's). -/
abbrev restL1 : List (Ref sig .tc) :=
  [cc0_stg0_0, cc0_stg0_1, cc0_stg1_0, cc0_stg1_1, cc0_stg2_0, cc0_stg3_0, cc0_stg4_0, cc0_stg5_0, cc0_stg6_0, cc0_stg6_1,
   cc0_stg7_0, cc0_stg7_1, cc0_stg8_0, cc0_stg8_1, cc0_scratch0]

/-- Those buffers, each whole at some contents. -/
def rest1 (c : Dev nD) : sProp 𝕄 :=
  bigSepL restL1 fun b => iprop(∃ f : Buf (Elt F) ((c : Thread nD τ).loc b), ((c : Thread nD τ).loc b) ↦{fullShare} f)

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ rest1 c) := by
  rw [Pipeline.scopedRest_eq_of_list spec1 c (cc1_scratch0 :: restL1) (by decide) (by decide)]
  unfold rest1; simp only [scM1, owns_whole]; rfl

/-- The scratch agrees with p3 on the rows the first phase has stored by point `n`. -/
def Inv1 (c : Dev nD) (n : ℕ) (xs : Vec F S10000x128 .bf16) : Prop :=
  ∀ y : S10000x128.Idx, (y 0).val < 400 * min n 25 → xs y = P3 m c y

/-- The invariant before point `n`: the scratch at contents that agree with p3 on the rows stored so far. -/
def Phi1 (c : Dev nD) (n : ℕ) : sProp 𝕄 :=
  iprop((∃ xs, ⌜Inv1 m c n xs⌝ ∗ owns (c : Thread nD τ) scM1 fullShare xs) ∗ rest1 c)

/-! ## The proof data -/

/-- The second kernel's proof data on core `c`. -/
def rd1 (c : Dev nD) : RDat τ (Elt F) Unit ℕ (UR sig nD τ) ℕ cfg1 c where
  A w := Vb m c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => if 25 ≤ t.val then X = O8 (P3 m c) (iblk1 m c 0 t) (iblk1 m c 1 t) (iblk1 m c 5 t) else X = Y
  Φ t := Phi1 m c t.val
  q _ := fullShare
  owed _ := 0

theorem A1_eq (c : Dev nD) (w : Fin cfg1.W) : (rd1 m c).A w = Vb m c (Pipeline.arrRef spec1 w) := by
  dsimp only [rd1]

theorem after1_0 (c : Dev nD) (t : Fin cfg1.N) (Y X) : (rd1 m c).after 0 t Y X ↔ X = Y := by dsimp only [rd1]; exact Iff.rfl
theorem after1_1 (c : Dev nD) (t : Fin cfg1.N) (Y X) : (rd1 m c).after 1 t Y X ↔ X = Y := by dsimp only [rd1]; exact Iff.rfl
theorem after1_2 (c : Dev nD) (t : Fin cfg1.N) (Y X) : (rd1 m c).after 2 t Y X ↔ X = Y := by dsimp only [rd1]; exact Iff.rfl
theorem after1_3 (c : Dev nD) (t : Fin cfg1.N) (Y X) : (rd1 m c).after 3 t Y X ↔ X = Y := by dsimp only [rd1]; exact Iff.rfl
theorem after1_4 (c : Dev nD) (t : Fin cfg1.N) (Y X) : (rd1 m c).after 4 t Y X ↔ X = Y := by dsimp only [rd1]; exact Iff.rfl
theorem after1_5 (c : Dev nD) (t : Fin cfg1.N) (Y X) : (rd1 m c).after 5 t Y X ↔ X = Y := by dsimp only [rd1]; exact Iff.rfl
theorem after1_6 (c : Dev nD) (t : Fin cfg1.N) (Y X) :
    (rd1 m c).after 6 t Y X ↔ (if 25 ≤ t.val then X = O8 (P3 m c) (iblk1 m c 0 t) (iblk1 m c 1 t) (iblk1 m c 5 t) else X = Y) := by
  dsimp only [rd1]; exact Iff.rfl

/-! ## Each input's buffer holds its block wherever the body is handed it -/

theorem finds1_0 (c : Dev nD) (t : Fin cfg1.N) (Y) (hY : (rd1 m c).Finds 0 t Y) : Y = iblk1 m c 0 t := by
  obtain ⟨d, hd⟩ := (rd1 m c).finds_in_eq_fetched 0 rfl (fun _ _ _ => rfl) (fun t Y X h => (after1_0 m c t Y X).mp h) t Y hY
  rw [hd]; unfold RDat.fetched RDat.blockOf iblk1; rw [A1_eq]; try rfl
theorem finds1_1 (c : Dev nD) (t : Fin cfg1.N) (Y) (hY : (rd1 m c).Finds 1 t Y) : Y = iblk1 m c 1 t := by
  obtain ⟨d, hd⟩ := (rd1 m c).finds_in_eq_fetched 1 rfl (fun _ _ _ => rfl) (fun t Y X h => (after1_1 m c t Y X).mp h) t Y hY
  rw [hd]; unfold RDat.fetched RDat.blockOf iblk1; rw [A1_eq]; try rfl
theorem finds1_2 (c : Dev nD) (t : Fin cfg1.N) (Y) (hY : (rd1 m c).Finds 2 t Y) : Y = iblk1 m c 2 t := by
  obtain ⟨d, hd⟩ := (rd1 m c).finds_in_eq_fetched 2 rfl (fun _ _ _ => rfl) (fun t Y X h => (after1_2 m c t Y X).mp h) t Y hY
  rw [hd]; unfold RDat.fetched RDat.blockOf iblk1; rw [A1_eq]; try rfl
theorem finds1_3 (c : Dev nD) (t : Fin cfg1.N) (Y) (hY : (rd1 m c).Finds 3 t Y) : Y = iblk1 m c 3 t := by
  obtain ⟨d, hd⟩ := (rd1 m c).finds_in_eq_fetched 3 rfl (fun _ _ _ => rfl) (fun t Y X h => (after1_3 m c t Y X).mp h) t Y hY
  rw [hd]; unfold RDat.fetched RDat.blockOf iblk1; rw [A1_eq]; try rfl
theorem finds1_4 (c : Dev nD) (t : Fin cfg1.N) (Y) (hY : (rd1 m c).Finds 4 t Y) : Y = iblk1 m c 4 t := by
  obtain ⟨d, hd⟩ := (rd1 m c).finds_in_eq_fetched 4 rfl (fun _ _ _ => rfl) (fun t Y X h => (after1_4 m c t Y X).mp h) t Y hY
  rw [hd]; unfold RDat.fetched RDat.blockOf iblk1; rw [A1_eq]; try rfl
theorem finds1_5 (c : Dev nD) (t : Fin cfg1.N) (Y) (hY : (rd1 m c).Finds 5 t Y) : Y = iblk1 m c 5 t := by
  obtain ⟨d, hd⟩ := (rd1 m c).finds_in_eq_fetched 5 rfl (fun _ _ _ => rfl) (fun t Y X h => (after1_5 m c t Y X).mp h) t Y hY
  rw [hd]; unfold RDat.fetched RDat.blockOf iblk1; rw [A1_eq]; try rfl

end Cert.Kernel.Hand

end
-- ==== Proof.K.Seg0.lean ====
/-
  The first kernel as a segment of the program.

  Between the program's items a core holds every unscoped buffer whole, at known contents. The first kernel takes the
  arrays its windows name out of them — the adjacency array, which two windows read, dealt to them half and half — and
  leaves the others untouched; at its exit the two halves are joined again, the three result arrays hold what the
  write-backs left, and the buffers are whole again at the contents the next item starts from.
-/
import proofs.«175765_g50964081934784_cont_8to1c4_784_17_alg».proof.Proof.K.Data1
import proofs.«175765_g50964081934784_cont_8to1c4_784_17_alg».proof.Proof.LibArraysShares
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The family of proof data, and the launch's parameters -/

/-- The two kernels' proof data as one family of relational data: the first kernel's exact data read relationally. -/
def rdats (p : Fin 2) (c : Dev nD) : RDat τ (Elt F) Unit ℕ (UR sig nD τ) ℕ (cfgs p) c :=
  match p with
  | ⟨0, _⟩ => (dat0 m c).toR
  | ⟨1, _⟩ => rd1 m c

/-- No core owes another anything: no level is assigned. -/
abbrev Lr : GSem nD τ sig → Finset Unit := fun _ => ∅
abbrev lvr : GSem nD τ sig → Unit → ℕ := fun _ _ => 0

/-- What rides beside the buffers between items: the core owes nothing. -/
abbrev Rr (c : Dev nD) : sProp 𝕄 := iprop(∃ W, owes (c : Thread nD τ) (0 : CellTallies nD τ sig Unit) W)

/-! ## The first kernel's arrays, window by window -/

theorem share0_0 (c : Dev nD) : (dat0 m c).share 0 = fullShare.left := rfl
theorem share0_1 (c : Dev nD) : (dat0 m c).share 1 = fullShare.right := rfl
theorem share0_2 (c : Dev nD) : (dat0 m c).share 2 = fullShare := rfl
theorem share0_3 (c : Dev nD) : (dat0 m c).share 3 = fullShare := rfl
theorem share0_4 (c : Dev nD) : (dat0 m c).share 4 = fullShare := rfl
theorem share0_5 (c : Dev nD) : (dat0 m c).share 5 = fullShare := rfl
theorem share0_6 (c : Dev nD) : (dat0 m c).share 6 = fullShare := rfl
theorem share0_7 (c : Dev nD) : (dat0 m c).share 7 = fullShare := rfl
theorem share0_8 (c : Dev nD) : (dat0 m c).share 8 = fullShare := rfl

/-- The first kernel's arrays at contents `G`, as points-tos of whole buffers, window by window (the two windows on the
    adjacency array at half each; the others at their own share, which is the full one). -/
theorem arrays0_eq (c : Dev nD) (G : (w : Fin cfg0.W) → Buf (Elt F) ((cfg0.win w).arr.view.loc (c : Thread nD τ))) :
    ((dat0 m c).arrays G : sProp 𝕄)
      = iprop((((c : Thread nD τ).loc (Pipeline.arrRef spec0 0)) ↦{fullShare.left} G 0) ∗ (((c : Thread nD τ).loc (Pipeline.arrRef spec0 1)) ↦{fullShare.right} G 1)
          ∗ (((c : Thread nD τ).loc (Pipeline.arrRef spec0 2)) ↦{(dat0 m c).share 2} G 2) ∗ (((c : Thread nD τ).loc (Pipeline.arrRef spec0 3)) ↦{(dat0 m c).share 3} G 3)
          ∗ (((c : Thread nD τ).loc (Pipeline.arrRef spec0 4)) ↦{(dat0 m c).share 4} G 4) ∗ (((c : Thread nD τ).loc (Pipeline.arrRef spec0 5)) ↦{(dat0 m c).share 5} G 5)
          ∗ (((c : Thread nD τ).loc (Pipeline.arrRef spec0 6)) ↦{(dat0 m c).share 6} G 6) ∗ (((c : Thread nD τ).loc (Pipeline.arrRef spec0 7)) ↦{(dat0 m c).share 7} G 7)
          ∗ (((c : Thread nD τ).loc (Pipeline.arrRef spec0 8)) ↦{(dat0 m c).share 8} G 8)) := by
  rw [Cert.LibArraysShares.arrays_eq_shares (dat0 m c) arr_whole0 G, bigSep_W0, share0_0, share0_1]

/-- The distinct buffers behind the first kernel's arrays, listed by the windows that name them (windows 0 and 1 name one
    buffer, listed once). -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc (Pipeline.arrRef spec0 0)) ↦{fullShare} V (Pipeline.arrRef spec0 0))
          ∗ (((c : Thread nD τ).loc (Pipeline.arrRef spec0 2)) ↦{fullShare} V (Pipeline.arrRef spec0 2))
          ∗ (((c : Thread nD τ).loc (Pipeline.arrRef spec0 3)) ↦{fullShare} V (Pipeline.arrRef spec0 3))
          ∗ (((c : Thread nD τ).loc (Pipeline.arrRef spec0 4)) ↦{fullShare} V (Pipeline.arrRef spec0 4))
          ∗ (((c : Thread nD τ).loc (Pipeline.arrRef spec0 5)) ↦{fullShare} V (Pipeline.arrRef spec0 5))
          ∗ (((c : Thread nD τ).loc (Pipeline.arrRef spec0 6)) ↦{fullShare} V (Pipeline.arrRef spec0 6))
          ∗ (((c : Thread nD τ).loc (Pipeline.arrRef spec0 7)) ↦{fullShare} V (Pipeline.arrRef spec0 7))
          ∗ (((c : Thread nD τ).loc (Pipeline.arrRef spec0 8)) ↦{fullShare} V (Pipeline.arrRef spec0 8))) := by
  unfold Pipeline.arrBufs
  exact bigSep_eq_bigSepL_of_eq [Pipeline.arrRef spec0 0, Pipeline.arrRef spec0 2, Pipeline.arrRef spec0 3, Pipeline.arrRef spec0 4,
    Pipeline.arrRef spec0 5, Pipeline.arrRef spec0 6, Pipeline.arrRef spec0 7, Pipeline.arrRef spec0 8] (by decide) (by decide) _

set_option maxHeartbeats 4000000 in
/-- ENTRY: the buffers behind the arrays, whole at the entry contents, dealt to the windows. -/
theorem split0 (c : Dev nD) :
    (Pipeline.arrBufs (Ix := Unit) (Name := ℕ) (U := UR sig nD τ) (Lvl := ℕ) spec0 c (Va m c) : sProp 𝕄) ⊢ (dat0 m c).arrays (dat0 m c).A := by
  rw [arrBufs0_eq, arrays0_eq, A0_eq, A0_eq, A0_eq, A0_eq, A0_eq, A0_eq, A0_eq, A0_eq, A0_eq, share0_2, share0_3, share0_4, share0_5, share0_6, share0_7, share0_8]
  iintro ⟨H1, H0, H3, H0', H4, H50, H51, H52⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H3]; · iexact H3
  isplitl [H0']; · iexact H0'
  isplitl [H4]; · iexact H4
  isplitl [H50]; · iexact H50
  isplitl [H51]; · iexact H51
  iexact H52

/-! ## The buffers after the first kernel -/

theorem V2_v5_0 (c : Dev nD) : Gen.V2 m (outs0 m) c main_v5_0 = a6 m c := by
  simp only [Gen.V2, Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1), Function.update_self]
  exact outs0_v5_0 m 2 c
theorem V2_v5_1 (c : Dev nD) : Gen.V2 m (outs0 m) c main_v5_1 = a7 m c := by
  simp only [Gen.V2, Function.update_of_ne (StableHlo.devRef_ne_of_ne (by decide) : (Proc.devRef .tc main_v5_1 : DevRef τ sig) ≠ Proc.devRef .tc main_v5_2),
    Function.update_self]
  exact outs0_v5_1 m 2 c
theorem V2_v5_2 (c : Dev nD) : Gen.V2 m (outs0 m) c main_v5_2 = a8 m c := by
  simp only [Gen.V2, Function.update_self]
  exact outs0_v5_2 m 2 c

/-- Off the three result arrays the buffers are as the kernel found them. -/
theorem unscopedRest0_V2 (c : Dev nD) :
    (Pipeline.unscopedRest (Ix := Unit) (Name := ℕ) (U := UR sig nD τ) (Lvl := ℕ) spec0 c (fun b => Gen.V2 m (outs0 m) c (Proc.devRef .tc b)) : sProp 𝕄)
      = Pipeline.unscopedRest spec0 c (Va m c) := by
  unfold Pipeline.unscopedRest
  refine bigSep_congr fun b hb => ?_
  have hb' := (Finset.mem_sdiff.mp hb).2
  beta_reduce
  rw [Gen.V2_of m (outs0 m) c b (fun hmem => hb' (by
    simp only [List.mem_cons, List.mem_nil_iff, or_false] at hmem
    rcases hmem with rfl | rfl | rfl <;> decide))]

set_option maxHeartbeats 4000000 in
/-- EXIT: the arrays after the write-backs and the untouched rest are the unscoped buffers, whole, at the contents the
    next item starts from. -/
theorem exit0 (c : Dev nD) :
    iprop((dat0 m c).arrays ((dat0 m c).arrAt · cfg0.N)
        ∗ Pipeline.unscopedRest (Ix := Unit) (Name := ℕ) (U := UR sig nD τ) (Lvl := ℕ) spec0 c (Va m c))
      ⊢ (StableHlo.held (c : Thread nD τ) (Pipeline.ucRefs τ sig) (Gen.V2 m (outs0 m) c) : sProp 𝕄) := by
  rw [← Pipeline.unscopedBufs_held (Ix := Unit) (Name := ℕ) (U := UR sig nD τ) (Lvl := ℕ) c (Gen.V2 m (outs0 m) c),
    Pipeline.unscopedBufs_split₀ cfgs 0 winFacts₀0.arr_unscoped c _]
  change _ ⊢ iprop((Pipeline.arrBufs spec0 c (fun b => Gen.V2 m (outs0 m) c (Proc.devRef .tc b)) : sProp 𝕄)
    ∗ Pipeline.unscopedRest spec0 c (fun b => Gen.V2 m (outs0 m) c (Proc.devRef .tc b)))
  rw [unscopedRest0_V2, arrBufs0_eq, arrays0_eq]
  have f0 : Gen.V2 m (outs0 m) c (Proc.devRef .tc (Pipeline.arrRef spec0 0)) = (dat0 m c).arrAt 0 cfg0.N :=
    (Gen.V2_of m (outs0 m) c main_arg1 (by decide)).trans (((dat0 m c).arrAt_in 0 rfl _).trans (A0_eq m c 0)).symm
  have f1 : (dat0 m c).arrAt 1 cfg0.N = (dat0 m c).arrAt 0 cfg0.N :=
    (((dat0 m c).arrAt_in 1 rfl _).trans (A0_eq m c 1)).trans (((dat0 m c).arrAt_in 0 rfl _).trans (A0_eq m c 0)).symm
  have f2 : Gen.V2 m (outs0 m) c (Proc.devRef .tc (Pipeline.arrRef spec0 2)) = (dat0 m c).arrAt 2 cfg0.N :=
    (Gen.V2_of m (outs0 m) c main_arg0 (by decide)).trans (((dat0 m c).arrAt_in 2 rfl _).trans (A0_eq m c 2)).symm
  have f3 : Gen.V2 m (outs0 m) c (Proc.devRef .tc (Pipeline.arrRef spec0 3)) = (dat0 m c).arrAt 3 cfg0.N :=
    (Gen.V2_of m (outs0 m) c main_v3 (by decide)).trans (((dat0 m c).arrAt_in 3 rfl _).trans (A0_eq m c 3)).symm
  have f4 : Gen.V2 m (outs0 m) c (Proc.devRef .tc (Pipeline.arrRef spec0 4)) = (dat0 m c).arrAt 4 cfg0.N :=
    (Gen.V2_of m (outs0 m) c main_v0 (by decide)).trans (((dat0 m c).arrAt_in 4 rfl _).trans (A0_eq m c 4)).symm
  have f5 : Gen.V2 m (outs0 m) c (Proc.devRef .tc (Pipeline.arrRef spec0 5)) = (dat0 m c).arrAt 5 cfg0.N :=
    (Gen.V2_of m (outs0 m) c main_v4 (by decide)).trans (((dat0 m c).arrAt_in 5 rfl _).trans (A0_eq m c 5)).symm
  have f6 : Gen.V2 m (outs0 m) c (Proc.devRef .tc (Pipeline.arrRef spec0 6)) = (dat0 m c).arrAt 6 cfg0.N := V2_v5_0 m c
  have f7 : Gen.V2 m (outs0 m) c (Proc.devRef .tc (Pipeline.arrRef spec0 7)) = (dat0 m c).arrAt 7 cfg0.N := V2_v5_1 m c
  have f8 : Gen.V2 m (outs0 m) c (Proc.devRef .tc (Pipeline.arrRef spec0 8)) = (dat0 m c).arrAt 8 cfg0.N := V2_v5_2 m c
  rw [f0, f1, f2, f3, f4, f5, f6, f7, f8, share0_2, share0_3, share0_4, share0_5, share0_6, share0_7, share0_8]
  iintro ⟨⟨H1l, H1r, H0, H3, H0', H4, H50, H51, H52⟩, Hur⟩
  isplitr [Hur]; swap; · iexact Hur
  isplitl [H1l H1r]
  · iapply (pointsTo_share (PosShare.mem_left_op_right fullShare)).2
    isplitl [H1l] <;> iassumption
  isplitl [H0]; · iexact H0
  isplitl [H3]; · iexact H3
  isplitl [H0']; · iexact H0'
  isplitl [H4]; · iexact H4
  isplitl [H50]; · iexact H50
  isplitl [H51]; · iexact H51
  iexact H52

/-! ## The segment -/

set_option backward.isDefEq.respectTransparency.types false in
/-- THE FIRST KERNEL as a segment: the layout facts, no semaphore of its own, the body obligation; entered from the
    unscoped buffers after the first host operations, left at the contents the next host operations start from. -/
def reg0 (hb : ∀ c, BodyObligation (dat0 m c) (defs₀ (F := F)) Variants.none () Set.univ) :
    Pipeline.RDat.RegionSeg (pcfgs (F := F)) Gen.adm (rdats m) () defs₀ Variants.none Lr lvr 0 where
  win := winFacts₀0
  block_pos := block_pos0
  stage_whole := stage_whole0
  K := PEmpty
  osem := fun k => k.elim
  ho := Pipeline.OwnSemFacts.none spec0
  hbody c := (hb c).loose.toR
  hwaits := Pipeline.RDat.hwaits_of_owed_zero _ _ _ _ Lr lvr 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs0 m) c) ∗ Rr c)
  X _ := iprop(emp)
  Y _ := iprop(emp)
  Z c := Pipeline.unscopedRest (Ix := Unit) (Name := ℕ) (U := UR sig nD τ) (Lvl := ℕ) spec0 c (Va m c)
  hentry c := by
    rw [show (StableHlo.held (c : Thread nD τ) (Pipeline.ucRefs τ sig) (Gen.V1 m c) : sProp 𝕄) = unscopedBufs c (Va m c) from
      (Pipeline.unscopedBufs_held c (Gen.V1 m c)).symm, Pipeline.unscopedBufs_split₀ cfgs 0 winFacts₀0.arr_unscoped c (Va m c)]
    iintro ⟨⟨⟨Hab, Hur⟩, HO⟩, -, -⟩
    imodintro
    isplitl [Hab]
    · iapply (show ((dat0 m c).arrays (dat0 m c).A : sProp 𝕄) ⊢ (rdats m 0 c).arrays (rdats m 0 c).A from Entails.of_eq rfl)
      iapply (split0 m c); iexact Hab
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hur
  hin c := by
    iintro ⟨-, -, HR⟩
    iapply (show (Pipeline.scopedRest (Ix := Unit) (Name := ℕ) (U := UR sig nD τ) (Lvl := ℕ) (Val := Elt F) spec0 c : sProp 𝕄) ⊢ (rdats m 0 c).Φ 0 from
      Entails.of_eq rfl)
    iexact HR
  hout c := by
    rw [Pipeline.ownSems0_none]
    change (Phi0 m c 25 : sProp 𝕄) ⊢ iprop(emp ∗ emp ∗ Pipeline.scopedRest (Ix := Unit) (Name := ℕ) (U := UR sig nD τ) (Lvl := ℕ) (Val := Elt F) spec0 c)
    rw [Phi0_pos m c 25 (by decide), scopedRest0_split]
    iintro ⟨HS, Hr⟩
    isplitr; · iempintro
    isplitr; · iempintro
    isplitl [HS]; · iexists _; iexact HS
    iexact Hr
  hexit c := by
    change iprop((dat0 m c).toR.arraysAt cfg0.N ∗ (dat0 m c).toR.owesAt () (Fin.last cfg0.N) ∗ emp
        ∗ Pipeline.unscopedRest (Ix := Unit) (Name := ℕ) (U := UR sig nD τ) (Lvl := ℕ) spec0 c (Va m c)) ⊢ _
    rw [(dat0 m c).toR_arraysAt_eq cfg0.N]
    iintro ⟨Ha, HO, -, HZ⟩
    imodintro
    isplitr [HO]
    · iapply (exit0 m c)
      isplitl [Ha] <;> iassumption
    · unfold Pipeline.RDat.owesAt Pipeline.owesWithin
      icases HO with ⟨%W, -, HO⟩; iexists W; iexact HO

end Cert.Kernel.Hand

end
-- ==== Proof.K.Seg1.lean ====
/-
  The second kernel as a segment of the program, and the host operations after it.

  The second kernel's windows name seven distinct arrays, all read but the result array. At its exit the inputs are as it
  found them, and the result array holds SOME contents the proof data's relation allows after the write-backs; the
  program's last host operation (the slice that keeps the first 10000 rows) then runs over the buffers at whichever
  contents those are.
-/
import proofs.«175765_g50964081934784_cont_8to1c4_784_17_alg».proof.Proof.K.Seg0
import proofs.«175765_g50964081934784_cont_8to1c4_784_17_alg».proof.Proof.LibHostSegEx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the second kernel may leave in its result array -/

/-- The contents of the result array's buffer. -/
abbrev B7 (c : Dev nD) : Type := Buf (Elt F) ((c : Thread nD τ).loc main_v7)

/-- Contents the result array may hold after the second kernel's write-backs. -/
def Good7 (c : Dev nD) (F7 : B7 (F := F) c) : Prop := (rd1 m c).ArrAt 6 cfg1.N F7

/-- One such contents per core. -/
abbrev Outs7 : Type := {o : (c : Dev nD) → B7 (F := F) c // ∀ c, Good7 m c (o c)}

/-- Core `c`'s buffers after the second kernel, the result array at `o`. -/
def V4 (o : Outs7 m) (c : Dev nD) : Valuation τ sig (Elt F) := Function.update (Gen.V3 m (outs0 m) c) main_v7 (o.1 c)

theorem V4_v7 (o : Outs7 m) (c : Dev nD) : V4 m o c main_v7 = o.1 c := by
  unfold V4; rw [Function.update_self]

theorem V4_of (o : Outs7 m) (c : Dev nD) (r : Ref sig .tc) (h : r ≠ main_v7) : V4 m o c r = Gen.V3 m (outs0 m) c r := by
  unfold V4
  rw [Function.update_of_ne (StableHlo.devRef_ne_of_ne h : (Proc.devRef .tc r : DevRef τ sig) ≠ Proc.devRef .tc main_v7)]

/-- With one device, contents for one core are contents for every core. -/
def outs7_of (c : Dev nD) (F7 : B7 (F := F) c) (h : Good7 m c F7) : Outs7 m :=
  ⟨fun c' => (Subsingleton.elim c c') ▸ F7, fun c' => by cases Subsingleton.elim c c'; exact h⟩

theorem outs7_of_self (c : Dev nD) (F7 : B7 (F := F) c) (h : Good7 m c F7) : (outs7_of m c F7 h).1 c = F7 := rfl

/-! ## The second kernel's arrays -/

theorem share1 (c : Dev nD) (w : Fin cfg1.W) : (rd1 m c).share w = fullShare := by
  unfold RDat.share; split <;> rfl

/-- Off the result array the buffers are as the kernel found them. -/
theorem unscopedRest1_V4 (o : Outs7 m) (c : Dev nD) :
    (Pipeline.unscopedRest (Ix := Unit) (Name := ℕ) (U := UR sig nD τ) (Lvl := ℕ) spec1 c (fun b => V4 m o c (Proc.devRef .tc b)) : sProp 𝕄)
      = Pipeline.unscopedRest spec1 c (Vb m c) := by
  unfold Pipeline.unscopedRest
  refine bigSep_congr fun b hb => ?_
  have hb' := (Finset.mem_sdiff.mp hb).2
  beta_reduce
  rw [V4_of m o c b (fun e => hb' (by rw [e]; decide))]

set_option maxHeartbeats 4000000 in
/-- The seven arrays — the inputs as the kernel found them, the result array at `o` — and the untouched rest are the
    unscoped buffers, whole, at the contents `V4 o`. -/
theorem held1_of (o : Outs7 m) (c : Dev nD) :
    iprop(((((c : Thread nD τ).loc (Pipeline.arrRef spec1 0)) ↦{fullShare} (rd1 m c).A 0)
          ∗ (((c : Thread nD τ).loc (Pipeline.arrRef spec1 1)) ↦{fullShare} (rd1 m c).A 1)
          ∗ (((c : Thread nD τ).loc (Pipeline.arrRef spec1 2)) ↦{fullShare} (rd1 m c).A 2)
          ∗ (((c : Thread nD τ).loc (Pipeline.arrRef spec1 3)) ↦{fullShare} (rd1 m c).A 3)
          ∗ (((c : Thread nD τ).loc (Pipeline.arrRef spec1 4)) ↦{fullShare} (rd1 m c).A 4)
          ∗ (((c : Thread nD τ).loc (Pipeline.arrRef spec1 5)) ↦{fullShare} (rd1 m c).A 5)
          ∗ (((c : Thread nD τ).loc (Pipeline.arrRef spec1 6)) ↦{fullShare} o.1 c))
        ∗ Pipeline.unscopedRest (Ix := Unit) (Name := ℕ) (U := UR sig nD τ) (Lvl := ℕ) spec1 c (Vb m c))
      ⊢ (StableHlo.held (c : Thread nD τ) (Pipeline.ucRefs τ sig) (V4 m o c) : sProp 𝕄) := by
  rw [← Pipeline.unscopedBufs_held (Ix := Unit) (Name := ℕ) (U := UR sig nD τ) (Lvl := ℕ) c (V4 m o c),
    Pipeline.unscopedBufs_split cfgs 1 winFacts1.arr_unscoped winFacts1.arr_inj c _]
  change _ ⊢ iprop((bigSep Finset.univ fun w : Fin cfg1.W => (((c : Thread nD τ).loc (Pipeline.arrRef spec1 w))
      ↦{fullShare} V4 m o c (Proc.devRef .tc (Pipeline.arrRef spec1 w)) : sProp 𝕄))
    ∗ Pipeline.unscopedRest spec1 c (fun b => V4 m o c (Proc.devRef .tc b)))
  rw [unscopedRest1_V4, bigSep_W1]
  have e0 : V4 m o c (Proc.devRef .tc (Pipeline.arrRef spec1 0)) = (rd1 m c).A 0 := (V4_of m o c _ (by decide)).trans (A1_eq m c 0).symm
  have e1 : V4 m o c (Proc.devRef .tc (Pipeline.arrRef spec1 1)) = (rd1 m c).A 1 := (V4_of m o c _ (by decide)).trans (A1_eq m c 1).symm
  have e2 : V4 m o c (Proc.devRef .tc (Pipeline.arrRef spec1 2)) = (rd1 m c).A 2 := (V4_of m o c _ (by decide)).trans (A1_eq m c 2).symm
  have e3 : V4 m o c (Proc.devRef .tc (Pipeline.arrRef spec1 3)) = (rd1 m c).A 3 := (V4_of m o c _ (by decide)).trans (A1_eq m c 3).symm
  have e4 : V4 m o c (Proc.devRef .tc (Pipeline.arrRef spec1 4)) = (rd1 m c).A 4 := (V4_of m o c _ (by decide)).trans (A1_eq m c 4).symm
  have e5 : V4 m o c (Proc.devRef .tc (Pipeline.arrRef spec1 5)) = (rd1 m c).A 5 := (V4_of m o c _ (by decide)).trans (A1_eq m c 5).symm
  have e6 : V4 m o c (Proc.devRef .tc (Pipeline.arrRef spec1 6)) = o.1 c := V4_v7 m o c
  rw [e0, e1, e2, e3, e4, e5, e6]

set_option maxHeartbeats 4000000 in
/-- EXIT: the arrays after the write-backs — the inputs as found, the result array at allowed contents — and the
    untouched rest are the unscoped buffers, whole, at contents the last host operation starts from. -/
theorem exit1 (c : Dev nD) :
    iprop((rd1 m c).arraysAt cfg1.N
        ∗ Pipeline.unscopedRest (Ix := Unit) (Name := ℕ) (U := UR sig nD τ) (Lvl := ℕ) spec1 c (Vb m c))
      ⊢ (iprop(∃ o : Outs7 m, StableHlo.held (c : Thread nD τ) (Pipeline.ucRefs τ sig) (V4 m o c)) : sProp 𝕄) := by
  rw [Cert.LibArraysShares.arraysAt_eq_shares (rd1 m c) arr_whole1 cfg1.N, bigSep_W1,
    share1 m c 0, share1 m c 1, share1 m c 2, share1 m c 3, share1 m c 4, share1 m c 5, share1 m c 6]
  iintro ⟨⟨⟨%G0, %h0, H0⟩, ⟨%G1, %h1, H1⟩, ⟨%G2, %h2, H2⟩, ⟨%G3, %h3, H3⟩, ⟨%G4, %h4, H4⟩, ⟨%G5, %h5, H5⟩, ⟨%G6, %h6, H6⟩⟩, Hur⟩
  rw [(rd1 m c).ArrAt_in 0 rfl] at h0
  rw [(rd1 m c).ArrAt_in 1 rfl] at h1
  rw [(rd1 m c).ArrAt_in 2 rfl] at h2
  rw [(rd1 m c).ArrAt_in 3 rfl] at h3
  rw [(rd1 m c).ArrAt_in 4 rfl] at h4
  rw [(rd1 m c).ArrAt_in 5 rfl] at h5
  subst h0 h1 h2 h3 h4 h5
  iexists (outs7_of m c G6 h6)
  iapply (held1_of m (outs7_of m c G6 h6) c)
  isplitr [Hur]; swap; · iexact Hur
  isplitl [H0]; · iexact H0
  isplitl [H1]; · iexact H1
  isplitl [H2]; · iexact H2
  isplitl [H3]; · iexact H3
  isplitl [H4]; · iexact H4
  isplitl [H5]; · iexact H5
  iexact H6

/-! ## The segments -/

set_option backward.isDefEq.respectTransparency.types false in
/-- THE SECOND KERNEL as a segment. -/
def reg1 (hb : ∀ c, (rd1 m c).BodyObligation (defs₀ (F := F)) Variants.none () Set.univ) :
    Pipeline.RDat.RegionSeg (pcfgs (F := F)) Gen.adm (rdats m) () defs₀ Variants.none Lr lvr 1 where
  win := winFacts1.to₀
  block_pos := block_pos1
  stage_whole := stage_whole1
  K := PEmpty
  osem := fun k => k.elim
  ho := Pipeline.OwnSemFacts.none spec1
  hbody c := hb c
  hwaits := Pipeline.RDat.hwaits_of_owed_zero _ _ _ _ Lr lvr 1 fun _ _ => rfl
  pre c := iprop(StableHlo.held (c : Thread nD τ) (Pipeline.ucRefs τ sig) (Gen.V3 m (outs0 m) c) ∗ Rr c)
  post c := iprop(∃ o : Outs7 m, StableHlo.held (c : Thread nD τ) (Pipeline.ucRefs τ sig) (V4 m o c) ∗ Rr c)
  X _ := iprop(emp)
  Y _ := iprop(emp)
  Z c := Pipeline.unscopedRest (Ix := Unit) (Name := ℕ) (U := UR sig nD τ) (Lvl := ℕ) spec1 c (Vb m c)
  hentry c := by
    rw [show (StableHlo.held (c : Thread nD τ) (Pipeline.ucRefs τ sig) (Gen.V3 m (outs0 m) c) : sProp 𝕄) = unscopedBufs c (Vb m c) from
      (Pipeline.unscopedBufs_held c (Gen.V3 m (outs0 m) c)).symm]
    have hsplit := Pipeline.RDat.arrays_of_unscopedBufs (pcfgs (F := F)) Gen.adm (rdats m) (p := 1) winFacts1 arr_whole1 c
      (share1 m c) (Vb m c) (A1_eq m c)
    iintro ⟨⟨Hub, HO⟩, -, -⟩
    ihave H := hsplit $$ Hub
    icases H with ⟨Ha, Hur⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hur
  hin c := by
    change iprop(emp ∗ _ ∗ Pipeline.scopedRest (Ix := Unit) (Name := ℕ) (U := UR sig nD τ) (Lvl := ℕ) (Val := Elt F) spec1 c) ⊢ (Phi1 m c 0 : sProp 𝕄)
    rw [scopedRest1_split]; unfold Phi1
    iintro ⟨-, -, ⟨%d, HS⟩, Hr⟩
    isplitr [Hr]; swap; · iexact Hr
    iexists d; isplitr; · ipureintro; intro y hy; exact absurd hy (by simp)
    iexact HS
  hout c := by
    rw [Pipeline.ownSems0_none]
    change (Phi1 m c 50 : sProp 𝕄) ⊢ iprop(emp ∗ emp ∗ Pipeline.scopedRest (Ix := Unit) (Name := ℕ) (U := UR sig nD τ) (Lvl := ℕ) (Val := Elt F) spec1 c)
    rw [scopedRest1_split]; unfold Phi1
    iintro ⟨⟨%xs, -, HS⟩, Hr⟩
    isplitr; · iempintro
    isplitr; · iempintro
    isplitl [HS]; · iexists _; iexact HS
    iexact Hr
  hexit c := by
    change iprop((rd1 m c).arraysAt cfg1.N ∗ (rd1 m c).owesAt () (Fin.last cfg1.N) ∗ emp
        ∗ Pipeline.unscopedRest (Ix := Unit) (Name := ℕ) (U := UR sig nD τ) (Lvl := ℕ) spec1 c (Vb m c)) ⊢ _
    iintro ⟨Ha, HO, -, HZ⟩
    imodintro
    ihave H := (exit1 m c) $$ [Ha HZ]
    · isplitl [Ha] <;> iassumption
    icases H with ⟨%o, Hh⟩
    iexists o
    isplitl [Hh]; · iexact Hh
    unfold Pipeline.RDat.owesAt Pipeline.owesWithin
    icases HO with ⟨%W, -, HO⟩; iexists W; iexact HO

/-- THE LAST HOST OPERATION, over the buffers at whichever contents the second kernel left. -/
def seg4 : Pipeline.HostSeg (Name := ℕ) (U := UR sig nD τ) (pcfgs (F := F)) defs₀ Variants.none Lr lvr :=
  Cert.LibHostSegEx.hostSegEx (pcfgs (F := F)) defs₀ Variants.none Lr lvr (Pipeline.ucRefs τ sig) hostOps2
    (fun op h => Pipeline.sub_ucRefs op ((List.forall_iff_forall_mem.mp hostOps2_sub) op h))
    (fun op h => (List.forall_iff_forall_mem.mp Gen.hostOps2_fresh) op h) (V4 m) Rr

end Cert.Kernel.Hand

end
-- ==== Proof.K.Run.lean ====
/-
  The run of the whole program.

  @main is: host operations, the first kernel, a host operation, the second kernel, a host operation. Each item is entered
  from what the item before it left. The launch makes the first state on every core; the last state, read against a final
  memory, says: the result buffer holds the slice of SOME contents the second kernel may have left in its result array,
  and every argument array holds what it held at launch.
-/
import proofs.«175765_g50964081934784_cont_8to1c4_784_17_alg».proof.Proof.K.Seg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The program's items as segments, in order. -/
abbrev segsR (hb0 : ∀ c, BodyObligation (dat0 m c) (defs₀ (F := F)) Variants.none () Set.univ)
    (hb1 : ∀ c, (rd1 m c).BodyObligation (defs₀ (F := F)) Variants.none () Set.univ) :
    List (Pipeline.RDat.Seg (pcfgs (F := F)) Gen.adm (rdats m) () defs₀ Variants.none Lr lvr) :=
  [.host (Gen.seg0 m Variants.none Lr lvr (fun _ => Rr)), .region (reg0 m hb0),
   .host (Gen.seg2 m (outs0 m) Variants.none Lr lvr (fun _ => Rr)), .region (reg1 m hb1), .host (seg4 m)]

/-- An argument array reaches the end as launched: no host operation writes it and no kernel may change it. -/
theorem final_arg (o : Outs7 m) (c : Dev nD) (r : Ref sig .tc) (h8 : r ∉ hostOps2_W) (h7 : r ≠ main_v7) (h6 : r ∉ hostOps1_W)
    (h5 : r ∉ ([main_v5_0, main_v5_1, main_v5_2] : List (Ref sig .tc))) (h0 : r ∉ hostOps0_W) :
    StableHlo.after hostOps2 (V4 m o c) r = m ((c : Thread nD τ).loc r) :=
  (StableHlo.after_of_writes_sub hostOps2 _ Gen.hostOps2_writes h8).trans <| (V4_of m o c r h7).trans <|
    (Gen.V3_of m (outs0 m) c r h6).trans <| (Gen.V2_of m (outs0 m) c r h5).trans <| (Gen.V1_of m c r h0).trans rfl

/-- The result buffer and the argument arrays are unscoped buffers of the core. -/
theorem uc_v8 : (Proc.devRef .tc main_v8 : DevRef τ sig) ∈ Pipeline.ucRefs τ sig := by decide
theorem uc_arg0 : (Proc.devRef .tc main_arg0 : DevRef τ sig) ∈ Pipeline.ucRefs τ sig := by decide
theorem uc_arg1 : (Proc.devRef .tc main_arg1 : DevRef τ sig) ∈ Pipeline.ucRefs τ sig := by decide
theorem uc_arg2 : (Proc.devRef .tc main_arg2 : DevRef τ sig) ∈ Pipeline.ucRefs τ sig := by decide
theorem uc_arg3 : (Proc.devRef .tc main_arg3 : DevRef τ sig) ∈ Pipeline.ucRefs τ sig := by decide
theorem uc_arg4 : (Proc.devRef .tc main_arg4 : DevRef τ sig) ∈ Pipeline.ucRefs τ sig := by decide
theorem uc_arg5 : (Proc.devRef .tc main_arg5 : DevRef τ sig) ∈ Pipeline.ucRefs τ sig := by decide
theorem uc_arg6 : (Proc.devRef .tc main_arg6 : DevRef τ sig) ∈ Pipeline.ucRefs τ sig := by decide
theorem uc_arg7 : (Proc.devRef .tc main_arg7 : DevRef τ sig) ∈ Pipeline.ucRefs τ sig := by decide

/-- What a final memory satisfies on core `c`. -/
def QYc (c : Dev nD) (s : MemSt nD τ sig (Elt F)) : Prop :=
  (∃ o : Outs7 m, s.mem ((c : Thread nD τ).loc main_v8) = StableHlo.after hostOps2 (V4 m o c) main_v8)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

set_option backward.isDefEq.respectTransparency.types false in
/-- THE RUN: from any memory with zero counters, every weakly fair execution of @main terminates, nothing faulting, and
    the final memory has the result buffer at the slice of contents the second kernel may have left and every argument
    array as launched. -/
theorem run_main (hb0 : ∀ c, BodyObligation (dat0 m c) (defs₀ (F := F)) Variants.none () Set.univ)
    (hb1 : ∀ c, (rd1 m c).BodyObligation (defs₀ (F := F)) Variants.none () Set.univ) :
    θ_run defs (onTc (τ := τ) (main (F := F))) ⟨m, fun _ => 0, ρ⟩ (fun r => ∀ c : Dev nD, QYc m c r.2) :=
  Pipeline.RDat.θ_run_regions_kit (pcfgs (F := F)) Gen.adm (rdats m) () cellOf_inj emb₁ defs₀ Variants.none Lr lvr m ρ main (segsR m hb0 hb1)
    (fun c Q => by rw [main_chain c]; exact Entails.of_eq rfl)
    (by simp only [Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) Gen.adm) cellOf_inj) (Pipeline.launchToks (Pipeline.pin (pcfgs (F := F)) Gen.adm) cellOf_inj))
    (hu₀ := by
      iintro Hu
      imodintro
      isplitl [Hu]
      · iapply (show (ownU _ : sProp 𝕄) ⊢ BI.own (emb₁ (initOf (Pipeline.cells (Pipeline.pin (pcfgs (F := F)) Gen.adm) cellOf_inj)
          (Pipeline.launchToks (Pipeline.pin (pcfgs (F := F)) Gen.adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => iprop(∃ o : Outs7 m, StableHlo.held (c : Thread nD τ) (Pipeline.ucRefs τ sig) (StableHlo.after hostOps2 (V4 m o c))))
    (hch := ⟨fun _ => .rfl, fun _ => .rfl, fun _ => .rfl, fun _ => .rfl, fun _ => .rfl, fun c => by
      show (iprop(∃ o : Outs7 m, StableHlo.held (c : Thread nD τ) (Pipeline.ucRefs τ sig) (StableHlo.after hostOps2 (V4 m o c)) ∗ Rr c) : sProp 𝕄) ⊢ _
      iintro ⟨%o, Hh, HR⟩
      isplitl [Hh]; · iexists o; iexact Hh
      iexact HR⟩)
    (hinit := by
      refine Pipeline.initEach Lr lvr fun c => ?_
      rw [show (unscopedBufs c (fun b => m ((c : Thread nD τ).loc b)) : sProp 𝕄) = StableHlo.held (c : Thread nD τ) (Pipeline.ucRefs τ sig) (Gen.V0 m c) from
        Pipeline.unscopedBufs_held c (Gen.V0 m c)]
      iintro ⟨⟨Hh, -, HO, -, -, -⟩, -⟩
      imodintro
      isplitl [Hh]; · iexact Hh
      iexists ∅; iexact HO)
    (QY := QYc m)
    (hfin := fun c s' => by
      iintro ⟨⟨%o, Hh⟩, HSI⟩
      unfold StableHlo.held
      ihave Hr := (pointsTo_read_all (Pipeline.ucRefs τ sig) (fun b => (((c : Thread nD τ).1, b) : Loc nD τ sig))
        (fun b => StableHlo.after hostOps2 (V4 m o c) b) s') $$ [Hh HSI]
      · isplitl [Hh] <;> iassumption
      icases Hr with ⟨%hall, HSI⟩
      imodintro
      isplitr; swap; · iexact HSI
      ipureintro
      refine ⟨⟨o, hall _ uc_v8⟩, ?_, ?_, ?_, ?_, ?_, ?_, ?_, ?_⟩
      · exact (hall _ uc_arg0).trans (final_arg m o c main_arg0 (by decide) (by decide) (by decide) (by decide) (by decide))
      · exact (hall _ uc_arg1).trans (final_arg m o c main_arg1 (by decide) (by decide) (by decide) (by decide) (by decide))
      · exact (hall _ uc_arg2).trans (final_arg m o c main_arg2 (by decide) (by decide) (by decide) (by decide) (by decide))
      · exact (hall _ uc_arg3).trans (final_arg m o c main_arg3 (by decide) (by decide) (by decide) (by decide) (by decide))
      · exact (hall _ uc_arg4).trans (final_arg m o c main_arg4 (by decide) (by decide) (by decide) (by decide) (by decide))
      · exact (hall _ uc_arg5).trans (final_arg m o c main_arg5 (by decide) (by decide) (by decide) (by decide) (by decide))
      · exact (hall _ uc_arg6).trans (final_arg m o c main_arg6 (by decide) (by decide) (by decide) (by decide) (by decide))
      · exact (hall _ uc_arg7).trans (final_arg m o c main_arg7 (by decide) (by decide) (by decide) (by decide) (by decide)))
    (hQ := fun _ h => h)

end Cert.Kernel.Hand

end
-- ==== Proof.K.Runs0.lean ====
/- The body of the first kernel (the layer-1 aggregation, one grid coordinate, 25 points) run symbolically
   in its two control cases: at the first grid point the scratch operand is first filled with the
   projected features, at every other point it is found as the previous point left it; in both cases
   the two adjacency blocks are rounded to bf16 and copied out, and each is multiplied into the scratch,
   biased, clamped at zero, rounded and multiplied by the next layer's weights into one half of the
   [400,128] output block. -/
import proofs.«175765_g50964081934784_cont_8to1c4_784_17_alg».proof.Proof.Gen.Kernel.Skeleton
import proofs.«175765_g50964081934784_cont_8to1c4_784_17_alg».proof.Proof.Gen.Kernel.Launch
import proofs.«175765_g50964081934784_cont_8to1c4_784_17_alg».proof.Proof.K.Named
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

variable {U : Type} [URA U]

local notation "𝕄" => MT nD τ sig Unit (Elt F) ℕ U ℕ

/-- The condition of the body's one conditional: the grid coordinate is zero. -/
abbrev cond0 (i : grid0.Coords) : Prop :=
  (Scalar.cmpi .ne (Scalar.extui (Scalar.cmpi .eq (BitVec.ofNat 32 (i 0).val) 0#32)) 0#32) = 1#1

/-! ## Rectangles and what stores through them leave -/

/-- Two zero offsets, however spelt. -/
theorem hz2 : (![0, 0] : Fin 2 → ℕ) = fun _ => 0 := by
  funext a; match a with | ⟨0, _⟩ => rfl | ⟨1, _⟩ => rfl

/-- Rows 0..199 of the [400,128] output block. -/
abbrev rTop : Rect S400x128 := Rect.unit (s := S400x128) ![0, 0] S200x128.size inb_S400x128_S200x128_0_0
/-- Rows 200..399 of the [400,128] output block. -/
abbrev rBot : Rect S400x128 := Rect.unit (s := S400x128) ![200, 0] S200x128.size inb_S400x128_S200x128_200_0

/-- Entry (r, j) of the upper half sits at row r of the block. -/
theorem rTop_emb (r : Fin 200) (j : Fin 128) :
    rTop.emb (ix2 r j) = ix2 (⟨r.val, by omega⟩ : Fin 400) j := by
  funext a; apply Fin.ext
  match a with
  | ⟨0, _⟩ => show 0 + 1 * r.val = r.val; omega
  | ⟨1, _⟩ => show 0 + 1 * j.val = j.val; omega

/-- Entry (r, j) of the lower half sits at row r + 200 of the block. -/
theorem rBot_emb (r : Fin 200) (j : Fin 128) :
    rBot.emb (ix2 r j) = ix2 (⟨r.val + 200, by omega⟩ : Fin 400) j := by
  funext a; apply Fin.ext
  match a with
  | ⟨0, _⟩ => show 200 + 1 * r.val = r.val + 200; omega
  | ⟨1, _⟩ => show 0 + 1 * j.val = j.val; omega

/-- The two half-block stores, the lower one last, leave the two halves stacked, whatever the block held. -/
theorem read_writes_stack2 {κ : Kind} {sp : Space} {e : EltTy} (v : View sig κ sp S400x128 e) (f : v.ty.Contents (Elt F))
    (top bot : S200x128.Idx → Elt F e) :
    v.read (Elt F) (v.writes (Elt F) f [⟨rBot, bot⟩, ⟨rTop, top⟩]) = Hand.stack2 top bot := by
  funext y
  refine View.read_writes_apply_of_pieces v f (Hand.stack2 top bot) _ ?_ y ?_
  · intro p hp x
    simp only [List.mem_cons, List.mem_nil_iff, or_false] at hp
    rcases hp with rfl | rfl
    · obtain ⟨r, j, rfl⟩ : ∃ (r : Fin 200) (j : Fin 128), x = ix2 r j := ⟨x 0, x 1, eq_ix2 x⟩
      exact ((congrArg (Hand.stack2 top bot) (rBot_emb r j)).trans (Hand.stack2_bot top bot r j)).symm
    · obtain ⟨r, j, rfl⟩ : ∃ (r : Fin 200) (j : Fin 128), x = ix2 r j := ⟨x 0, x 1, eq_ix2 x⟩
      exact ((congrArg (Hand.stack2 top bot) (rTop_emb r j)).trans (Hand.stack2_top top bot r j)).symm
  · by_cases h : (y 0).val < 200
    · refine ⟨⟨rTop, top⟩, by simp, (Rect.mem_set_unit (inb := inb_S400x128_S200x128_0_0)).mpr fun a => ?_⟩
      match a with
      | ⟨0, _⟩ => exact ⟨Nat.zero_le _, by show (y 0).val < 0 + 200; omega⟩
      | ⟨1, _⟩ => exact ⟨Nat.zero_le _, by show (y 1).val < 0 + 128; have := idx2_lt1 y; omega⟩
    · refine ⟨⟨rBot, bot⟩, by simp, (Rect.mem_set_unit (inb := inb_S400x128_S200x128_200_0)).mpr fun a => ?_⟩
      match a with
      | ⟨0, _⟩ => exact ⟨by show 200 ≤ (y 0).val; omega, by show (y 0).val < 200 + 200; have := idx2_lt0 y; omega⟩
      | ⟨1, _⟩ => exact ⟨Nat.zero_le _, by show (y 1).val < 0 + 128; have := idx2_lt1 y; omega⟩

/-- A buffer whose last store went through its whole shape is owned at that store's payload. -/
theorem owns_of_writes_unit_zero (c : Dev nD) {S : Shape} {e : EltTy} (m : Memref sig .tc .vmem S e)
    {off : Fin S.rank → ℕ} (h : off = fun _ => 0) (inb : ∀ a, off a + S.size a ≤ S.size a) (w : S.Idx → Elt F e)
    (L : List (View.Piece (Elt F) S e)) :
    (iprop(∃ f, m.view.loc (c : Thread nD τ) ↦[m.view.set]{fullShare} m.view.writes (Elt F) f ((⟨Rect.unit off S.size inb, w⟩ : View.Piece (Elt F) S e) :: L)) : sProp 𝕄)
      ⊢ owns (c : Thread nD τ) m fullShare w := by
  iintro ⟨%f, H⟩
  unfold owns
  iexists m.view.writes (Elt F) f ((⟨Rect.unit off S.size inb, w⟩ : View.Piece (Elt F) S e) :: L)
  isplitr
  · ipureintro
    exact (View.read_writes_eq_canon _ _ _ (fun y => ⟨_, List.mem_cons_self, View.mem_set_unit_zero h inb y⟩)).trans
      (View.canon_cons_unit_zero h inb w L)
  · iexact H

/-- The output block after the two half-block stores is owned at the two halves stacked. -/
theorem owns_of_writes_stack2 (c : Dev nD) {e : EltTy} (m : Memref sig .tc .vmem S400x128 e) (top bot : S200x128.Idx → Elt F e) :
    (iprop(∃ f, m.view.loc (c : Thread nD τ) ↦[m.view.set]{fullShare} m.view.writes (Elt F) f [⟨rBot, bot⟩, ⟨rTop, top⟩]) : sProp 𝕄)
      ⊢ owns (c : Thread nD τ) m fullShare (Hand.stack2 top bot) := by
  iintro ⟨%f, H⟩
  unfold owns
  iexists m.view.writes (Elt F) f [⟨rBot, bot⟩, ⟨rTop, top⟩]
  isplitr
  · ipureintro; exact read_writes_stack2 m.view f top bot
  · iexact H

set_option maxHeartbeats 1000000 in
/-- CASE A (the first grid point). The pieces the body's stores leave in the output block (`L7`), in the two
    bf16 copies of the adjacency blocks (`L8`, `L9`) and in the scratch (`L10`), last store first, with the
    proof that from the six inputs owned at their contents and the three outputs and the scratch owned at
    anything the body runs to a continuation holding the inputs as they were and each written buffer with
    its pieces written. -/
noncomputable def run0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i)
    (x1 x2 : Vec F S200x10000 .f32) (x3 : Vec F S10000x128 .f32) (x4 : Vec F S128x128 .bf16) (x5 : Vec F S1x128 .f32) (x6 : Vec F S128x128 .bf16) :
    Σ' (L7 : List (View.Piece (Elt F) S400x128 .bf16)) (L8 : List (View.Piece (Elt F) S200x10000 .bf16)) (L9 : List (View.Piece (Elt F) S200x10000 .bf16)), { L10 : List (View.Piece (Elt F) S10000x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__layer1_kernel_eq_skeleton]; unfold cc0__layer1_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; iexact H10

/-! ## Case A: the pieces found, over the payloads -/

/-- Case A leaves in the output block the lower half's product, stored last, over the upper half's. -/
theorem run0_A_L7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).1
      = [⟨rBot, k0_pay1 (k0_pay6 x2 (k0_pay2 x3 x4) x5) x6⟩, ⟨rTop, k0_pay4 x1 (k0_pay2 x3 x4) x5 x6⟩] := by
  unfold run0_A; dsimp only; sl_unfold_words
  simp only [View.readAt_eq_ld, harg1.read_unread, harg2.read_unread, harg3.read_unread, harg4.read_unread, harg5.read_unread, harg6.read_unread,
    View.readCov_unit_zero (S := S10000x128) arg10.view hz2, View.ld_unit_zero (S := S200x10000) hz2, View.ld_unit_zero (S := S10000x128) hz2,
    View.ld_unit_zero (S := S128x128) hz2, View.ld_unit_zero (S := S1x128) hz2] <;> rfl

/-- Case A leaves in the first bf16 copy the first adjacency block rounded. -/
theorem run0_A_L8 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).2.1
      = [⟨Rect.unit (s := S200x10000) ![0, 0] S200x10000.size inb_S200x10000_S200x10000_0_0, k0_pay3 x1⟩] := by
  unfold run0_A; dsimp only; sl_unfold_words
  simp only [View.readAt_eq_ld, harg1.read_unread, View.ld_unit_zero (S := S200x10000) hz2] <;> rfl

/-- Case A leaves in the second bf16 copy the second adjacency block rounded. -/
theorem run0_A_L9 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).2.2.1
      = [⟨Rect.unit (s := S200x10000) ![0, 0] S200x10000.size inb_S200x10000_S200x10000_0_0, k0_pay5 x2⟩] := by
  unfold run0_A; dsimp only; sl_unfold_words
  simp only [View.readAt_eq_ld, harg2.read_unread, View.ld_unit_zero (S := S200x10000) hz2] <;> rfl

/-- Case A leaves in the scratch the projected features. -/
theorem run0_A_L10 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i) (x1 x2 : Vec F S200x10000 .f32) (x3 : Vec F S10000x128 .f32) (x4 : Vec F S128x128 .bf16) (x5 : Vec F S1x128 .f32) (x6 : Vec F S128x128 .bf16) :
    (run0_A (U := U) c i arg1 harg1 arg2 harg2 arg3 harg3 arg4 harg4 arg5 harg5 arg6 harg6 arg7 harg7 arg8 harg8 arg9 harg9 arg10 harg10 hc x1 x2 x3 x4 x5 x6).2.2.2.1
      = [⟨Rect.unit (s := S10000x128) ![0, 0] S10000x128.size inb_S10000x128_S10000x128_0_0, k0_pay2 x3 x4⟩] := by
  unfold run0_A; dsimp only; sl_unfold_words
  simp only [View.readAt_eq_ld, harg3.read_unread, harg4.read_unread, View.ld_unit_zero (S := S10000x128) hz2, View.ld_unit_zero (S := S128x128) hz2] <;> rfl

/-- Case A's run over the payloads: the pieces found, substituted by what they are. -/
theorem run0_A_spec (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i)
    (x1 x2 : Vec F S200x10000 .f32) (x3 : Vec F S10000x128 .f32) (x4 : Vec F S128x128 .bf16) (x5 : Vec F S1x128 .f32) (x6 : Vec F S128x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ f, arg7.view.loc (c : Thread nD τ) ↦[arg7.view.set]{fullShare} arg7.view.writes (Elt F) f [⟨rBot, k0_pay1 (k0_pay6 x2 (k0_pay2 x3 x4) x5) x6⟩, ⟨rTop, k0_pay4 x1 (k0_pay2 x3 x4) x5 x6⟩])
            ∗ (∃ f, arg8.view.loc (c : Thread nD τ) ↦[arg8.view.set]{fullShare} arg8.view.writes (Elt F) f [⟨Rect.unit (s := S200x10000) ![0, 0] S200x10000.size inb_S200x10000_S200x10000_0_0, k0_pay3 x1⟩])
            ∗ (∃ f, arg9.view.loc (c : Thread nD τ) ↦[arg9.view.set]{fullShare} arg9.view.writes (Elt F) f [⟨Rect.unit (s := S200x10000) ![0, 0] S200x10000.size inb_S200x10000_S200x10000_0_0, k0_pay5 x2⟩])
            ∗ (∃ f, arg10.view.loc (c : Thread nD τ) ↦[arg10.view.set]{fullShare} arg10.view.writes (Elt F) f [⟨Rect.unit (s := S10000x128) ![0, 0] S10000x128.size inb_S10000x128_S10000x128_0_0, k0_pay2 x3 x4⟩])) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have e7 := run0_A_L7 (U := U) c i arg1 harg1 arg2 harg2 arg3 harg3 arg4 harg4 arg5 harg5 arg6 harg6 arg7 harg7 arg8 harg8 arg9 harg9 arg10 harg10 hc x1 x2 x3 x4 x5 x6
  have e8 := run0_A_L8 (U := U) c i arg1 harg1 arg2 harg2 arg3 harg3 arg4 harg4 arg5 harg5 arg6 harg6 arg7 harg7 arg8 harg8 arg9 harg9 arg10 harg10 hc x1 x2 x3 x4 x5 x6
  have e9 := run0_A_L9 (U := U) c i arg1 harg1 arg2 harg2 arg3 harg3 arg4 harg4 arg5 harg5 arg6 harg6 arg7 harg7 arg8 harg8 arg9 harg9 arg10 harg10 hc x1 x2 x3 x4 x5 x6
  have e10 := run0_A_L10 (U := U) c i arg1 harg1 arg2 harg2 arg3 harg3 arg4 harg4 arg5 harg5 arg6 harg6 arg7 harg7 arg8 harg8 arg9 harg9 arg10 harg10 hc x1 x2 x3 x4 x5 x6
  generalize run0_A (U := U) c i arg1 harg1 arg2 harg2 arg3 harg3 arg4 harg4 arg5 harg5 arg6 harg6 arg7 harg7 arg8 harg8 arg9 harg9 arg10 harg10 hc x1 x2 x3 x4 x5 x6 = R at e7 e8 e9 e10
  obtain ⟨L7, L8, L9, L10, hrun⟩ := R
  dsimp only at e7 e8 e9 e10
  subst e7 e8 e9 e10
  exact hrun E K

/-! ## Case A at exact contents -/

/-- CASE A (the first grid point): from the six inputs owned at their contents and the three outputs and the
    scratch owned at anything, the body runs to a continuation holding the inputs as they were, the scratch at
    the projected features `S`, the two bf16 copies at the adjacency blocks rounded, and the output block at
    the two halves computed from `S`. -/
theorem body0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : cond0 i)
    (x1 x2 : Vec F S200x10000 .f32) (x3 : Vec F S10000x128 .f32) (x4 : Vec F S128x128 .bf16) (x5 : Vec F S1x128 .f32) (x6 : Vec F S128x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Hand.O7 (k0_pay2 x3 x4) x1 x2 x5 x6) ∗ owns (c : Thread nD τ) arg8 fullShare (k0_pay3 x1) ∗ owns (c : Thread nD τ) arg9 fullShare (k0_pay5 x2) ∗ owns (c : Thread nD τ) arg10 fullShare (k0_pay2 x3 x4)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have hrun := run0_A_spec c i arg1 harg1 arg2 harg2 arg3 harg3 arg4 harg4 arg5 harg5 arg6 harg6 arg7 harg7 arg8 harg8 arg9 harg9 arg10 harg10 hc x1 x2 x3 x4 x5 x6 E K
  refine BIBase.Entails.trans ?_ hrun
  iintro ⟨H1, H2, H3, H4, H5, H6, H7, H8, H9, H10, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G1, G2, G3, G4, G5, G6, G7, G8, G9, G10⟩
  iapply Hk
  isplitl [G1]; · iexact G1
  isplitl [G2]; · iexact G2
  isplitl [G3]; · iexact G3
  isplitl [G4]; · iexact G4
  isplitl [G5]; · iexact G5
  isplitl [G6]; · iexact G6
  isplitl [G7]
  · unfold Hand.O7; iapply owns_of_writes_stack2; iexact G7
  isplitl [G8]
  · iapply owns_of_writes_unit_zero c arg8 hz2 inb_S200x10000_S200x10000_0_0 (k0_pay3 x1) []; iexact G8
  isplitl [G9]
  · iapply owns_of_writes_unit_zero c arg9 hz2 inb_S200x10000_S200x10000_0_0 (k0_pay5 x2) []; iexact G9
  iapply owns_of_writes_unit_zero c arg10 hz2 inb_S10000x128_S10000x128_0_0 (k0_pay2 x3 x4) []; iexact G10

/-! ## Case B: every later grid point -/

set_option maxHeartbeats 1000000 in
/-- CASE B (every grid point but the first). The pieces the body's stores leave in the output block (`L7`) and in
    the two bf16 copies of the adjacency blocks (`L8`, `L9`), last store first, with the proof that from the six
    inputs owned at their contents, the scratch owned at the contents `xs` the point before left, and the three
    outputs owned at anything, the body runs to a continuation holding the inputs and the scratch as they were
    and each output with its pieces written: the conditional is skipped, the features and first weights unread. -/
noncomputable def run0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i)
    (x1 x2 : Vec F S200x10000 .f32) (x3 : Vec F S10000x128 .f32) (x4 : Vec F S128x128 .bf16) (x5 : Vec F S1x128 .f32) (x6 : Vec F S128x128 .bf16) (xs : Vec F S10000x128 .bf16) :
    Σ' (L7 : List (View.Piece (Elt F) S400x128 .bf16)) (L8 : List (View.Piece (Elt F) S200x10000 .bf16)), { L9 : List (View.Piece (Elt F) S200x10000 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ owns (c : Thread nD τ) arg10 fullShare xs) -∗ K ⟨⟩))
          ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__layer1_kernel_eq_skeleton]; unfold cc0__layer1_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    iexists _; isplitr; · ipureintro; exact harg10.read_unread _
    iexact H10

/-- Case B leaves in the output block the lower half's product, stored last, over the upper half's, both
    computed from the scratch as found. -/
theorem run0_B_L7 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i) (x1 x2 : Vec F S200x10000 .f32) (x3 : Vec F S10000x128 .f32) (x4 : Vec F S128x128 .bf16) (x5 : Vec F S1x128 .f32) (x6 : Vec F S128x128 .bf16) (xs : Vec F S10000x128 .bf16) :
    (run0_B (U := U) c i arg1 harg1 arg2 harg2 arg3 harg3 arg4 harg4 arg5 harg5 arg6 harg6 arg7 harg7 arg8 harg8 arg9 harg9 arg10 harg10 hc x1 x2 x3 x4 x5 x6 xs).1
      = [⟨rBot, k0_pay1 (k0_pay6 x2 xs x5) x6⟩, ⟨rTop, k0_pay4 x1 xs x5 x6⟩] := by
  unfold run0_B; dsimp only; sl_unfold_words
  simp only [View.readAt_eq_ld, harg1.read_unread, harg2.read_unread, harg5.read_unread, harg6.read_unread, harg10.read_unread,
    View.ld_unit_zero (S := S200x10000) hz2, View.ld_unit_zero (S := S10000x128) hz2,
    View.ld_unit_zero (S := S128x128) hz2, View.ld_unit_zero (S := S1x128) hz2] <;> rfl

/-- Case B leaves in the first bf16 copy the first adjacency block rounded. -/
theorem run0_B_L8 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i) (x1 x2 : Vec F S200x10000 .f32) (x3 : Vec F S10000x128 .f32) (x4 : Vec F S128x128 .bf16) (x5 : Vec F S1x128 .f32) (x6 : Vec F S128x128 .bf16) (xs : Vec F S10000x128 .bf16) :
    (run0_B (U := U) c i arg1 harg1 arg2 harg2 arg3 harg3 arg4 harg4 arg5 harg5 arg6 harg6 arg7 harg7 arg8 harg8 arg9 harg9 arg10 harg10 hc x1 x2 x3 x4 x5 x6 xs).2.1
      = [⟨Rect.unit (s := S200x10000) ![0, 0] S200x10000.size inb_S200x10000_S200x10000_0_0, k0_pay3 x1⟩] := by
  unfold run0_B; dsimp only; sl_unfold_words
  simp only [View.readAt_eq_ld, harg1.read_unread, View.ld_unit_zero (S := S200x10000) hz2] <;> rfl

/-- Case B leaves in the second bf16 copy the second adjacency block rounded. -/
theorem run0_B_L9 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i) (x1 x2 : Vec F S200x10000 .f32) (x3 : Vec F S10000x128 .f32) (x4 : Vec F S128x128 .bf16) (x5 : Vec F S1x128 .f32) (x6 : Vec F S128x128 .bf16) (xs : Vec F S10000x128 .bf16) :
    (run0_B (U := U) c i arg1 harg1 arg2 harg2 arg3 harg3 arg4 harg4 arg5 harg5 arg6 harg6 arg7 harg7 arg8 harg8 arg9 harg9 arg10 harg10 hc x1 x2 x3 x4 x5 x6 xs).2.2.1
      = [⟨Rect.unit (s := S200x10000) ![0, 0] S200x10000.size inb_S200x10000_S200x10000_0_0, k0_pay5 x2⟩] := by
  unfold run0_B; dsimp only; sl_unfold_words
  simp only [View.readAt_eq_ld, harg2.read_unread, View.ld_unit_zero (S := S200x10000) hz2] <;> rfl

/-- Case B's run over the payloads: the pieces found, substituted by what they are. -/
theorem run0_B_spec (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i)
    (x1 x2 : Vec F S200x10000 .f32) (x3 : Vec F S10000x128 .f32) (x4 : Vec F S128x128 .bf16) (x5 : Vec F S1x128 .f32) (x6 : Vec F S128x128 .bf16) (xs : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ f, arg7.view.loc (c : Thread nD τ) ↦[arg7.view.set]{fullShare} arg7.view.writes (Elt F) f [⟨rBot, k0_pay1 (k0_pay6 x2 xs x5) x6⟩, ⟨rTop, k0_pay4 x1 xs x5 x6⟩])
            ∗ (∃ f, arg8.view.loc (c : Thread nD τ) ↦[arg8.view.set]{fullShare} arg8.view.writes (Elt F) f [⟨Rect.unit (s := S200x10000) ![0, 0] S200x10000.size inb_S200x10000_S200x10000_0_0, k0_pay3 x1⟩])
            ∗ (∃ f, arg9.view.loc (c : Thread nD τ) ↦[arg9.view.set]{fullShare} arg9.view.writes (Elt F) f [⟨Rect.unit (s := S200x10000) ![0, 0] S200x10000.size inb_S200x10000_S200x10000_0_0, k0_pay5 x2⟩])
            ∗ owns (c : Thread nD τ) arg10 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have e7 := run0_B_L7 (U := U) c i arg1 harg1 arg2 harg2 arg3 harg3 arg4 harg4 arg5 harg5 arg6 harg6 arg7 harg7 arg8 harg8 arg9 harg9 arg10 harg10 hc x1 x2 x3 x4 x5 x6 xs
  have e8 := run0_B_L8 (U := U) c i arg1 harg1 arg2 harg2 arg3 harg3 arg4 harg4 arg5 harg5 arg6 harg6 arg7 harg7 arg8 harg8 arg9 harg9 arg10 harg10 hc x1 x2 x3 x4 x5 x6 xs
  have e9 := run0_B_L9 (U := U) c i arg1 harg1 arg2 harg2 arg3 harg3 arg4 harg4 arg5 harg5 arg6 harg6 arg7 harg7 arg8 harg8 arg9 harg9 arg10 harg10 hc x1 x2 x3 x4 x5 x6 xs
  generalize run0_B (U := U) c i arg1 harg1 arg2 harg2 arg3 harg3 arg4 harg4 arg5 harg5 arg6 harg6 arg7 harg7 arg8 harg8 arg9 harg9 arg10 harg10 hc x1 x2 x3 x4 x5 x6 xs = R at e7 e8 e9
  obtain ⟨L7, L8, L9, hrun⟩ := R
  dsimp only at e7 e8 e9
  subst e7 e8 e9
  exact hrun E K

/-! ## Case B at exact contents -/

/-- CASE B (every later grid point): from the six inputs owned at their contents, the scratch owned at the contents
    `xs` the point before left and the three outputs owned at anything, the body runs to a continuation holding
    the inputs and the scratch as they were, the two bf16 copies at the adjacency blocks rounded, and the output
    block at the two halves computed from `xs`. -/
theorem body0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S400x128 .bf16) (harg7 : arg7.IsWhole) (arg8 : Memref sig .tc .vmem S200x10000 .bf16) (harg8 : arg8.IsWhole) (arg9 : Memref sig .tc .vmem S200x10000 .bf16) (harg9 : arg9.IsWhole) (arg10 : Memref sig .tc .vmem S10000x128 .bf16) (harg10 : arg10.IsWhole) (hc : ¬cond0 i)
    (x1 x2 : Vec F S200x10000 .f32) (x3 : Vec F S10000x128 .f32) (x4 : Vec F S128x128 .bf16) (x5 : Vec F S1x128 .f32) (x6 : Vec F S128x128 .bf16) (xs : Vec F S10000x128 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (Hand.O7 xs x1 x2 x5 x6) ∗ owns (c : Thread nD τ) arg8 fullShare (k0_pay3 x1) ∗ owns (c : Thread nD τ) arg9 fullShare (k0_pay5 x2) ∗ owns (c : Thread nD τ) arg10 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8 arg9 harg9 arg10 harg10) K := by
  have hrun := run0_B_spec c i arg1 harg1 arg2 harg2 arg3 harg3 arg4 harg4 arg5 harg5 arg6 harg6 arg7 harg7 arg8 harg8 arg9 harg9 arg10 harg10 hc x1 x2 x3 x4 x5 x6 xs E K
  refine BIBase.Entails.trans ?_ hrun
  iintro ⟨H1, H2, H3, H4, H5, H6, H7, H8, H9, H10, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨G1, G2, G3, G4, G5, G6, G7, G8, G9, G10⟩
  iapply Hk
  isplitl [G1]; · iexact G1
  isplitl [G2]; · iexact G2
  isplitl [G3]; · iexact G3
  isplitl [G4]; · iexact G4
  isplitl [G5]; · iexact G5
  isplitl [G6]; · iexact G6
  isplitl [G7]
  · unfold Hand.O7; iapply owns_of_writes_stack2; iexact G7
  isplitl [G8]
  · iapply owns_of_writes_unit_zero c arg8 hz2 inb_S200x10000_S200x10000_0_0 (k0_pay3 x1) []; iexact G8
  isplitl [G9]
  · iapply owns_of_writes_unit_zero c arg9 hz2 inb_S200x10000_S200x10000_0_0 (k0_pay5 x2) []; iexact G9
  iexact G10

/-! ## The output block entry by entry -/

/-- Row r < 200 of the output block is row r of the upper half: the first adjacency block's product. -/
theorem O7_top (S : Vec F S10000x128 .bf16) (x1 x2 : Vec F S200x10000 .f32) (x5 : Vec F S1x128 .f32) (x6 : Vec F S128x128 .bf16)
    (r : Fin 200) (j : Fin 128) :
    Hand.O7 S x1 x2 x5 x6 (ix2 (⟨r.val, by omega⟩ : Fin 400) j) = k0_pay4 x1 S x5 x6 (ix2 r j) :=
  Hand.stack2_top _ _ r j

/-- Row r + 200 of the output block is row r of the lower half: the second adjacency block's product. -/
theorem O7_bot (S : Vec F S10000x128 .bf16) (x1 x2 : Vec F S200x10000 .f32) (x5 : Vec F S1x128 .f32) (x6 : Vec F S128x128 .bf16)
    (r : Fin 200) (j : Fin 128) :
    Hand.O7 S x1 x2 x5 x6 (ix2 (⟨r.val + 200, by omega⟩ : Fin 400) j) = k0_pay1 (k0_pay6 x2 S x5) x6 (ix2 r j) :=
  Hand.stack2_bot _ _ r j

end Cert.Kernel.Hand0

end
-- ==== Proof.K.Obl0.lean ====
/- The first kernel's body obligation over its proof data: at every one of the 25 grid points, from the
   invariant before the point and every window's staging buffer at what it then holds, the body runs to the
   invariant after the point and every buffer at what the proof data says the body leaves. At the first
   point the scratch is found at anything and left at the projected features; at every later point it is
   found and left at the projected features. -/
import proofs.«175765_g50964081934784_cont_8to1c4_784_17_alg».proof.Proof.K.Data0
import proofs.«175765_g50964081934784_cont_8to1c4_784_17_alg».proof.Proof.K.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen Cert.Kernel.Hand0

variable {F : FTy → Type} [FloatOps F]

local notation "𝕄" => MT nD τ sig Unit (Elt F) ℕ (UR sig nD τ) ℕ

variable (m : (ℓ : Loc nD τ sig) → Buf (Elt F) ℓ)

/-- The body's conditional is taken at the first grid point and at no other: it holds at point 0 and fails at
    each of the other 24. -/
theorem hcond0 : ∀ t : Fin cfg0.N, cond0 (grid0.coords t) ↔ t.val = 0 :=
  (by decide +kernel : ∀ t : Fin grid0.N, cond0 (grid0.coords t) ↔ t.val = 0)

/-- Each window's current staging memref at point `t`, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x10000 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x10000 .bf16 := win0_8.stage (cfg0.slots t 8)
abbrev hs0_8 (t : Fin cfg0.N) : (ms0_8 t).IsWhole := hstage0_8 ((cfg0.slots t 8).cast nbuf0_8)

/-- What the body is called with at point `t`: the invariant, what the core owes, and the nine windows' buffers. -/
def bodyPre0 (c : Dev nD) (t : Fin cfg0.N) : sProp 𝕄 :=
  iprop((dat0 m c).Φ t.castSucc ∗ (dat0 m c).owesAt () t.castSucc
    ∗ (∃ d, owns (c : Thread nD τ) (ms0_0 t) fullShare ((dat0 m c).before 0 t d))
    ∗ (∃ d, owns (c : Thread nD τ) (ms0_1 t) fullShare ((dat0 m c).before 1 t d))
    ∗ (∃ d, owns (c : Thread nD τ) (ms0_2 t) fullShare ((dat0 m c).before 2 t d))
    ∗ (∃ d, owns (c : Thread nD τ) (ms0_3 t) fullShare ((dat0 m c).before 3 t d))
    ∗ (∃ d, owns (c : Thread nD τ) (ms0_4 t) fullShare ((dat0 m c).before 4 t d))
    ∗ (∃ d, owns (c : Thread nD τ) (ms0_5 t) fullShare ((dat0 m c).before 5 t d))
    ∗ (∃ d, owns (c : Thread nD τ) (ms0_6 t) fullShare ((dat0 m c).before 6 t d))
    ∗ (∃ d, owns (c : Thread nD τ) (ms0_7 t) fullShare ((dat0 m c).before 7 t d))
    ∗ (∃ d, owns (c : Thread nD τ) (ms0_8 t) fullShare ((dat0 m c).before 8 t d)))

/-- What it returns. -/
def bodyPost0 (c : Dev nD) (t : Fin cfg0.N) : sProp 𝕄 :=
  iprop((dat0 m c).Φ t.succ ∗ (dat0 m c).owesAt () t.succ
    ∗ (dat0 m c).leavesExact 0 t
    ∗ (dat0 m c).leavesExact 1 t
    ∗ (dat0 m c).leavesExact 2 t
    ∗ (dat0 m c).leavesExact 3 t
    ∗ (dat0 m c).leavesExact 4 t
    ∗ (dat0 m c).leavesExact 5 t
    ∗ (dat0 m c).leavesExact 6 t
    ∗ (dat0 m c).leavesExact 7 t
    ∗ (dat0 m c).leavesExact 8 t)

set_option maxHeartbeats 4800000 in
/-- The body at any point. The six inputs' buffers hold their blocks; the three outputs' hold anything. At the
    first point the conditional is taken: the scratch, found at anything, is left at the projected features of
    that point's blocks of the features and first weights, which are the carried product since the point is the
    first. At a later point the conditional is skipped and the scratch is found and left at the carried product. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3, before0_4, before0_5]
  rw [show (dat0 m c).owesAt () t.succ = (dat0 m c).owesAt () t.castSucc from rfl]
  rw [show (dat0 m c).Φ t.succ = Phi0 m c (t.val + 1) from rfl, show (dat0 m c).Φ t.castSucc = Phi0 m c t.val from rfl]
  rw [Phi0_pos m c (t.val + 1) (Nat.succ_ne_zero _)]
  rw [show (dat0 m c).leavesExact 0 t = owns (c : Thread nD τ) (ms0_0 t) fullShare ((dat0 m c).after 0 t) from rfl, after0_0]
  rw [show (dat0 m c).leavesExact 1 t = owns (c : Thread nD τ) (ms0_1 t) fullShare ((dat0 m c).after 1 t) from rfl, after0_1]
  rw [show (dat0 m c).leavesExact 2 t = owns (c : Thread nD τ) (ms0_2 t) fullShare ((dat0 m c).after 2 t) from rfl, after0_2]
  rw [show (dat0 m c).leavesExact 3 t = owns (c : Thread nD τ) (ms0_3 t) fullShare ((dat0 m c).after 3 t) from rfl, after0_3]
  rw [show (dat0 m c).leavesExact 4 t = owns (c : Thread nD τ) (ms0_4 t) fullShare ((dat0 m c).after 4 t) from rfl, after0_4]
  rw [show (dat0 m c).leavesExact 5 t = owns (c : Thread nD τ) (ms0_5 t) fullShare ((dat0 m c).after 5 t) from rfl, after0_5]
  rw [show (dat0 m c).leavesExact 6 t = owns (c : Thread nD τ) (ms0_6 t) fullShare ((dat0 m c).after 6 t) from rfl, after0_6]
  rw [show (dat0 m c).leavesExact 7 t = owns (c : Thread nD τ) (ms0_7 t) fullShare ((dat0 m c).after 7 t) from rfl, after0_7]
  rw [show (dat0 m c).leavesExact 8 t = owns (c : Thread nD τ) (ms0_8 t) fullShare ((dat0 m c).after 8 t) from rfl, after0_8]
  by_cases hz : t.val = 0
  · have e : S1 m c = k0_pay2 (iblk0 m c 2 t) (iblk0 m c 3 t) := by
      have ht : t = t00 := Fin.ext hz
      subst ht; rfl
    rw [e, hz, Phi0_zero]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_A (U := UR sig nD τ) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) ((hcond0 t).mpr hz) (iblk0 m c 0 t) (iblk0 m c 1 t) (iblk0 m c 2 t) (iblk0 m c 3 t) (iblk0 m c 4 t) (iblk0 m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨G0, G1, G2, G3, G4, G5, G6, G7, G8, GS⟩
    isplitl [GS Hr]
    · isplitl [GS]; · iexact GS
      iexact Hr
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8
  · rw [Phi0_pos m c t.val hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body0_B (U := UR sig nD τ) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0 (Memref.isWhole_whole _) (fun h => hz ((hcond0 t).mp h)) (iblk0 m c 0 t) (iblk0 m c 1 t) (iblk0 m c 2 t) (iblk0 m c 3 t) (iblk0 m c 4 t) (iblk0 m c 5 t) (S1 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨G0, G1, G2, G3, G4, G5, G6, G7, G8, GS⟩
    isplitl [GS Hr]
    · isplitl [GS]; · iexact GS
      iexact Hr
    isplitl [Ho]; · iexact Ho
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    iexact G8

/-- The body obligation for the first kernel, at every point. -/
theorem body_obligation0 (c : Dev nD) : BodyObligation (dat0 (F := F) m c) (defs₀ (F := F)) Variants.none () Set.univ := fun t => by
  rw [bigSep_W0, bigSep_W0]
  exact sound_body0 m c t

end Cert.Kernel.Hand

end
-- ==== Proof.K.Runs1.lean ====
/-
  The body of the second kernel run symbolically in its two control cases.

  The body is two conditionals on the grid coordinates. In the first phase it reads the two adjacency row blocks, the
  carried product, the bias row and the weights, and stores two [200,128] halves into rows 400·b … 400·b+199 and
  400·b+200 … 400·b+399 of the [10000,128] scratch, b the row block; every other row of the scratch keeps what it held.
  In the second phase it reads the whole scratch and stores two [200,128] halves into rows 0 … 199 and 200 … 399 of the
  [400,128] output block, which they cover.

  A list of stores is read newest first: an index under the newest rectangle reads that store's payload at the index
  minus the rectangle's offsets, any other index reads what the rest of the list left. With the two rectangles of a
  phase disjoint in their rows, the scratch after the first phase is the old contents with the two halves spliced in,
  and the output block after the second phase is the two halves stacked.
-/
import proofs.«175765_g50964081934784_cont_8to1c4_784_17_alg».proof.Proof.Gen.Kernel.Skeleton
import proofs.«175765_g50964081934784_cont_8to1c4_784_17_alg».proof.Proof.Gen.Kernel.Launch
import proofs.«175765_g50964081934784_cont_8to1c4_784_17_alg».proof.Proof.K.Named
import Idealize.ShloMosaic.Lib.Pipeline.FrameBody
import Idealize.ShloMosaic.Lib.WholeRead
import Idealize.ShloMosaic.Lib.WritesUnit
import Idealize.ShloMosaic.Lib.Tactic

set_option maxRecDepth 16384

noncomputable section

namespace Cert.Kernel.Hand1

open Cert.Kernel Cert.Kernel.Gen Cert.Kernel.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## A load of a whole buffer reads its contents -/

theorem zero2 : (![0, 0] : Fin 2 → ℕ) = fun _ => 0 := by
  funext a; fin_cases a <;> rfl

/-- A load through the whole-shape rectangle at zero offsets of a whole rank-2 memref held at the contents that read
    `X` reads `X`. -/
theorem readAt_whole2 {Val : EltTy → Type} {κ : Kind} {sp : Space} {d : Fin 2 → ℕ} {e : EltTy}
    {m : Memref sig κ sp (⟨2, d⟩ : Shape) e} (h : m.IsWhole) (X : (⟨2, d⟩ : Shape).Idx → Val e)
    (inb : ∀ a, (![0, 0] : Fin 2 → ℕ) a + (⟨2, d⟩ : Shape).size a ≤ (⟨2, d⟩ : Shape).size a) :
    m.view.readAt Val (Rect.unit (s := (⟨2, d⟩ : Shape)) ![0, 0] (⟨2, d⟩ : Shape).size inb).toLoadRect (h.unread X) = X :=
  (View.readAt_eq_ld m.view (h.unread X) _).trans (by rw [h.read_unread, View.ld_unit_zero (S := (⟨2, d⟩ : Shape)) zero2])

/-! ## The first phase's two stores into the scratch -/

/-- The two stores of the first phase, newest first: `bot` into rows 400·b+200 …, `top` into rows 400·b …, b the row
    block of the point. -/
def pieces9 (i : grid1.Coords) (h1 : k1_cond1 i = 1#1) (top bot : Vec F S200x128 .bf16) :
    List (View.Piece (Elt F) S10000x128 .bf16) :=
  [⟨Rect.unit (s := S10000x128) (k1_off1 i 200#32) S200x128.size (k1_off1_inb i h1 1), bot⟩,
   ⟨Rect.unit (s := S10000x128) (k1_off1 i 0#32) S200x128.size (k1_off1_inb i h1 0), top⟩]

/-- Read back over any earlier contents, the two stores splice the two halves into the rows of the point's block. -/
theorem read_pieces9 {κ : Kind} {sp : Space} (v : View sig κ sp S10000x128 .bf16) (f : v.ty.Contents (Elt F))
    (i : grid1.Coords) (h1 : k1_cond1 i = 1#1) (top bot : Vec F S200x128 .bf16) :
    v.read (Elt F) (v.writes (Elt F) f (pieces9 i h1 top bot))
      = splice2 (400 * (i 1).val) (v.read (Elt F) f) top bot := by
  have e0 : k1_off1 i 0#32 = ![400 * (i 1).val, 0] := k1_off1_eq i 0
  have e1 : k1_off1 i 200#32 = ![400 * (i 1).val + 200, 0] := k1_off1_eq i 1
  funext y
  unfold splice2 pieces9
  by_cases hA : 400 * (i 1).val ≤ (y 0).val ∧ (y 0).val < 400 * (i 1).val + 200
  · rw [dif_pos hA]
    refine (View.read_writes_cons_unit_of_not_mem v f (k1_off1_inb i h1 1) bot _ y e1 0
      (by show (y 0).val < 400 * (i 1).val + 200 ∨ 400 * (i 1).val + 200 + 200 ≤ (y 0).val; omega)).trans ?_
    exact View.read_writes_cons_unit_of_mem v f (k1_off1_inb i h1 0) top _ y
      (ix2 (⟨(y 0).val - 400 * (i 1).val, by omega⟩ : Fin 200) (y 1)) e0
      (Fin.forall_fin_two.mpr ⟨by show (y 0).val = 400 * (i 1).val + ((y 0).val - 400 * (i 1).val); omega,
        (Nat.zero_add _).symm⟩)
  · rw [dif_neg hA]
    by_cases hB : 400 * (i 1).val + 200 ≤ (y 0).val ∧ (y 0).val < 400 * (i 1).val + 400
    · rw [dif_pos hB]
      exact View.read_writes_cons_unit_of_mem v f (k1_off1_inb i h1 1) bot _ y
        (ix2 (⟨(y 0).val - 400 * (i 1).val - 200, by omega⟩ : Fin 200) (y 1)) e1
        (Fin.forall_fin_two.mpr ⟨by show (y 0).val = 400 * (i 1).val + 200 + ((y 0).val - 400 * (i 1).val - 200); omega,
          (Nat.zero_add _).symm⟩)
    · rw [dif_neg hB]
      refine (View.read_writes_cons_unit_of_not_mem v f (k1_off1_inb i h1 1) bot _ y e1 0
        (by show (y 0).val < 400 * (i 1).val + 200 ∨ 400 * (i 1).val + 200 + 200 ≤ (y 0).val; omega)).trans ?_
      exact View.read_writes_cons_unit_of_not_mem v f (k1_off1_inb i h1 0) top _ y e0 0
        (by show (y 0).val < 400 * (i 1).val ∨ 400 * (i 1).val + 200 ≤ (y 0).val; omega)

/-! ## The second phase's two stores into the output block -/

/-- The two stores of the second phase, newest first: `bot` into rows 200 … 399, `top` into rows 0 … 199. -/
def pieces8 (top bot : Vec F S200x128 .f32) : List (View.Piece (Elt F) S400x128 .f32) :=
  [⟨Rect.unit (s := S400x128) ![200, 0] S200x128.size inb_S400x128_S200x128_200_0, bot⟩,
   ⟨Rect.unit (s := S400x128) ![0, 0] S200x128.size inb_S400x128_S200x128_0_0, top⟩]

/-- Read back over any earlier contents, the two stores are the two halves stacked: they cover the block. -/
theorem read_pieces8 {κ : Kind} {sp : Space} (v : View sig κ sp S400x128 .f32) (f : v.ty.Contents (Elt F))
    (top bot : Vec F S200x128 .f32) :
    v.read (Elt F) (v.writes (Elt F) f (pieces8 top bot)) = stack2 top bot := by
  funext y
  unfold stack2 pieces8
  by_cases hA : (y 0).val < 200
  · rw [dif_pos hA]
    rw [View.read_writes_cons_unit_of_not_mem v f inb_S400x128_S200x128_200_0 bot _ y rfl 0
      (by show (y 0).val < 200 ∨ 200 + 200 ≤ (y 0).val; omega)]
    exact View.read_writes_cons_unit_of_mem v f inb_S400x128_S200x128_0_0 top _ y
      (ix2 (⟨(y 0).val, hA⟩ : Fin 200) (y 1)) rfl
      (Fin.forall_fin_two.mpr ⟨(Nat.zero_add _).symm, (Nat.zero_add _).symm⟩)
  · rw [dif_neg hA]
    exact View.read_writes_cons_unit_of_mem v f inb_S400x128_S200x128_200_0 bot _ y
      (ix2 (⟨(y 0).val - 200, by have := idx2_lt0 y; omega⟩ : Fin 200) (y 1)) rfl
      (Fin.forall_fin_two.mpr ⟨by show (y 0).val = 200 + ((y 0).val - 200); omega, (Nat.zero_add _).symm⟩)

/-! ## The spliced array at an index -/

/-- Row `o + r` of the spliced array, `r` below 200, is row `r` of the first half. -/
theorem splice2_top {α : Type} (o : Nat) (old : S10000x128.Idx → α) (top bot : S200x128.Idx → α) (ho : o + 400 ≤ 10000)
    (r : Fin 200) (j : Fin 128) :
    splice2 o old top bot (ix2 (⟨o + r.val, by omega⟩ : Fin 10000) j) = top (ix2 r j) := by
  unfold splice2
  rw [dif_pos (show o ≤ ((ix2 (⟨o + r.val, by omega⟩ : Fin 10000) j : S10000x128.Idx) 0).val
      ∧ ((ix2 (⟨o + r.val, by omega⟩ : Fin 10000) j : S10000x128.Idx) 0).val < o + 200 from
    ⟨Nat.le_add_right _ _, by show o + r.val < o + 200; omega⟩)]
  exact congrArg top (congrArg (fun a : Fin 200 => (ix2 a j : S200x128.Idx))
    (Fin.ext (show o + r.val - o = r.val by omega)))

/-- Row `o + 200 + r` of the spliced array, `r` below 200, is row `r` of the second half. -/
theorem splice2_bot {α : Type} (o : Nat) (old : S10000x128.Idx → α) (top bot : S200x128.Idx → α) (ho : o + 400 ≤ 10000)
    (r : Fin 200) (j : Fin 128) :
    splice2 o old top bot (ix2 (⟨o + 200 + r.val, by omega⟩ : Fin 10000) j) = bot (ix2 r j) := by
  unfold splice2
  rw [dif_neg (show ¬ (o ≤ ((ix2 (⟨o + 200 + r.val, by omega⟩ : Fin 10000) j : S10000x128.Idx) 0).val
      ∧ ((ix2 (⟨o + 200 + r.val, by omega⟩ : Fin 10000) j : S10000x128.Idx) 0).val < o + 200) from by
    show ¬ (o ≤ o + 200 + r.val ∧ o + 200 + r.val < o + 200); omega)]
  rw [dif_pos (show o + 200 ≤ ((ix2 (⟨o + 200 + r.val, by omega⟩ : Fin 10000) j : S10000x128.Idx) 0).val
      ∧ ((ix2 (⟨o + 200 + r.val, by omega⟩ : Fin 10000) j : S10000x128.Idx) 0).val < o + 400 from
    ⟨Nat.le_add_right _ _, by show o + 200 + r.val < o + 400; omega⟩)]
  exact congrArg bot (congrArg (fun a : Fin 200 => (ix2 a j : S200x128.Idx))
    (Fin.ext (show o + 200 + r.val - o - 200 = r.val by omega)))

/-- A row outside `[o, o + 400)` of the spliced array is the old row. -/
theorem splice2_old {α : Type} (o : Nat) (old : S10000x128.Idx → α) (top bot : S200x128.Idx → α) (y : S10000x128.Idx)
    (h : (y 0).val < o ∨ o + 400 ≤ (y 0).val) : splice2 o old top bot y = old y := by
  unfold splice2
  rw [dif_neg (show ¬ (o ≤ (y 0).val ∧ (y 0).val < o + 200) by omega),
    dif_neg (show ¬ (o + 200 ≤ (y 0).val ∧ (y 0).val < o + 400) by omega)]

/-- The scratch after the first phase at row block `b`: rows `400·b + r` hold the first half's row `r`. -/
theorem S9_top (b : Nat) (hb : 400 * b + 400 ≤ 10000) (xs : Vec F S10000x128 .bf16) (x2 x3 : Vec F S200x10000 .bf16)
    (x4 : Vec F S10000x128 .bf16) (x5 : Vec F S1x128 .f32) (x6 : Vec F S128x128 .bf16) (r : Fin 200) (j : Fin 128) :
    S9 b xs x2 x3 x4 x5 x6 (ix2 (⟨400 * b + r.val, by omega⟩ : Fin 10000) j) = k1_pay4 x2 x4 x5 x6 (ix2 r j) :=
  splice2_top (400 * b) xs _ _ hb r j

/-- Rows `400·b + 200 + r` hold the second half's row `r`. -/
theorem S9_bot (b : Nat) (hb : 400 * b + 400 ≤ 10000) (xs : Vec F S10000x128 .bf16) (x2 x3 : Vec F S200x10000 .bf16)
    (x4 : Vec F S10000x128 .bf16) (x5 : Vec F S1x128 .f32) (x6 : Vec F S128x128 .bf16) (r : Fin 200) (j : Fin 128) :
    S9 b xs x2 x3 x4 x5 x6 (ix2 (⟨400 * b + 200 + r.val, by omega⟩ : Fin 10000) j)
      = k1_pay1 (k1_pay5 x3 x4 x5) x6 (ix2 r j) :=
  splice2_bot (400 * b) xs _ _ hb r j

/-- Every other row holds what the scratch held before. -/
theorem S9_old (b : Nat) (xs : Vec F S10000x128 .bf16) (x2 x3 : Vec F S200x10000 .bf16)
    (x4 : Vec F S10000x128 .bf16) (x5 : Vec F S1x128 .f32) (x6 : Vec F S128x128 .bf16) (y : S10000x128.Idx)
    (h : (y 0).val < 400 * b ∨ 400 * b + 400 ≤ (y 0).val) : S9 b xs x2 x3 x4 x5 x6 y = xs y :=
  splice2_old (400 * b) xs _ _ y h

/-! ## The runs -/

set_option maxHeartbeats 1000000 in
/-- THE FIRST PHASE. On whole memrefs — the six inputs at their contents, the output block at `y8`, the scratch at
    `xs` — the body, its first conditional taken and its second not, runs to the continuation holding the inputs and
    the output block as they were and the scratch at `xs` with the two halves computed at the point spliced into the
    rows of its block. -/
theorem runA (c : Dev nD) (i : grid1.Coords) (arg2 : Memref sig .tc .vmem S200x10000 .bf16) (harg2 : arg2.IsWhole) (arg3 : Memref sig .tc .vmem S200x10000 .bf16) (harg3 : arg3.IsWhole) (arg4 : Memref sig .tc .vmem S10000x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (h1 : k1_cond1 i = 1#1) (h2 : ¬ k1_cond2 i = 1#1)
    (x2 x3 : Vec F S200x10000 .bf16) (x4 : Vec F S10000x128 .bf16) (x5 : Vec F S1x128 .f32) (x6 : Vec F S128x128 .bf16) (x7 : Vec F S1x128 .f32) (y8 : Vec F S400x128 .f32) (xs : Vec F S10000x128 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare y8 ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare y8
            ∗ owns (c : Thread nD τ) arg9 fullShare (S9 (i 1).val xs x2 x3 x4 x5 x6)) -∗ K ⟨⟩))
      ⊢ wp frame (wpE (defs₀ (F := F)) Variants.none c none) E (cc1__tail_kernel i arg2 harg2 arg3 harg3 arg4 harg4 arg5 harg5 arg6 harg6 arg7 harg7 arg8 harg8 arg9 harg9) K := by
  simp only [cc1__tail_kernel_eq_skeleton]; unfold cc1__tail_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  on_goal 2 => iexact H9
  ipureintro
  rw [readAt_whole2 harg2 x2, readAt_whole2 harg3 x3, readAt_whole2 harg4 x4, readAt_whole2 harg5 x5, readAt_whole2 harg6 x6]
  refine (read_pieces9 arg9.view (harg9.unread xs) i h1 (k1_pay4 x2 x4 x5 x6) (k1_pay1 (k1_pay5 x3 x4 x5) x6)).trans ?_
  rw [harg9.read_unread]; rfl

set_option maxHeartbeats 1000000 in
/-- THE SECOND PHASE. On whole memrefs — the six inputs at their contents, the output block at anything, the scratch
    at `xs` — the body, its first conditional not taken and its second taken, runs to the continuation holding the
    inputs and the scratch as they were and the output block at the two halves computed from the scratch, stacked. -/
theorem runB (c : Dev nD) (i : grid1.Coords) (arg2 : Memref sig .tc .vmem S200x10000 .bf16) (harg2 : arg2.IsWhole) (arg3 : Memref sig .tc .vmem S200x10000 .bf16) (harg3 : arg3.IsWhole) (arg4 : Memref sig .tc .vmem S10000x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .bf16) (harg9 : arg9.IsWhole) (h1 : ¬ k1_cond1 i = 1#1) (h2 : k1_cond2 i = 1#1)
    (x2 x3 : Vec F S200x10000 .bf16) (x4 : Vec F S10000x128 .bf16) (x5 : Vec F S1x128 .f32) (x6 : Vec F S128x128 .bf16) (x7 : Vec F S1x128 .f32) (xs : Vec F S10000x128 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (O8 xs x2 x3 x7)
            ∗ owns (c : Thread nD τ) arg9 fullShare xs) -∗ K ⟨⟩))
      ⊢ wp frame (wpE (defs₀ (F := F)) Variants.none c none) E (cc1__tail_kernel i arg2 harg2 arg3 harg3 arg4 harg4 arg5 harg5 arg6 harg6 arg7 harg7 arg8 harg8 arg9 harg9) K := by
  simp only [cc1__tail_kernel_eq_skeleton]; unfold cc1__tail_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | exact h1 | exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    on_goal 2 => iexact H8
    ipureintro
    rw [readAt_whole2 harg2 x2, readAt_whole2 harg3 x3, readAt_whole2 harg7 x7, readAt_whole2 harg9 xs]
    exact read_pieces8 arg8.view f8 (k1_pay2 x2 xs x7) (k1_pay3 x3 xs x7)
  iexists _; isplitr; · ipureintro; exact harg9.read_unread _
  iexact H9

end Cert.Kernel.Hand1

end
-- ==== Proof.K.Obl1.lean ====
/-
  The second kernel's body obligation.

  The 50 grid points are two phases of 25 row blocks: point t is phase t / 25, row block t mod 25. At a point of the
  first phase the body takes the scratch at contents that agree with p3 below row 400·t, stores the two halves it
  computes from the point's blocks into rows 400·t … 400·t+399 and leaves every buffer of a window as it found it; the
  rows it stored are the rows of p3 of that block, so the scratch then agrees with p3 below row 400·(t+1). At a point
  of the second phase the scratch agrees with p3 on all 10000 rows, so it IS p3; the body reads it and leaves in the
  output window's buffer the block computed from p3 and the point's adjacency rows, every other buffer and the scratch
  as found.
-/
import proofs.«175765_g50964081934784_cont_8to1c4_784_17_alg».proof.Proof.K.Data1
import proofs.«175765_g50964081934784_cont_8to1c4_784_17_alg».proof.Proof.K.Runs1

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The two conditions and the row block, over the 50 points -/

/-- The first conditional is taken exactly at the points of the first phase. -/
theorem hcond1_1 : ∀ t : Fin cfg1.N, k1_cond1 (grid1.coords t) = 1#1 ↔ t.val < 25 :=
  (by decide +kernel : ∀ t : Fin grid1.N, k1_cond1 (grid1.coords t) = 1#1 ↔ t.val < 25)

/-- The second conditional is taken exactly at the points of the second phase. -/
theorem hcond1_2 : ∀ t : Fin cfg1.N, k1_cond2 (grid1.coords t) = 1#1 ↔ 25 ≤ t.val :=
  (by decide +kernel : ∀ t : Fin grid1.N, k1_cond2 (grid1.coords t) = 1#1 ↔ 25 ≤ t.val)

/-- The row block of point `t`. -/
theorem hrow1 : ∀ t : Fin cfg1.N, (grid1.coords t 1).val = t.val % 25 :=
  (by decide +kernel : ∀ t : Fin grid1.N, (grid1.coords t 1).val = t.val % 25)

/-! ## Splicing a block's rows into an array that agrees below the block -/

/-- An array that agrees with `P` below row 400·b, with two halves spliced into rows 400·b … 400·b+399 that are the
    rows of `P` there, agrees with `P` below row 400·(b+1). -/
theorem splice2_agrees {α : Type} (b : ℕ) (xs P : S10000x128.Idx → α) (top bot : S200x128.Idx → α)
    (hP : ∀ (a : Fin 10000) (j : Fin 128), a.val / 400 = b →
      P (ix2 a j) = stack2 top bot (ix2 (⟨a.val % 400, Nat.mod_lt _ (by norm_num)⟩ : Fin 400) j))
    (h : ∀ y : S10000x128.Idx, (y 0).val < 400 * b → xs y = P y) :
    ∀ y : S10000x128.Idx, (y 0).val < 400 * (b + 1) → splice2 (400 * b) xs top bot y = P y := by
  intro y hy
  obtain ⟨a, j, rfl⟩ : ∃ (a : Fin 10000) (j : Fin 128), y = ix2 a j := ⟨y 0, y 1, eq_ix2 y⟩
  have hy' : a.val < 400 * (b + 1) := hy
  by_cases hlt : a.val < 400 * b
  · rw [Hand1.splice2_old (400 * b) xs top bot (ix2 a j) (Or.inl hlt)]
    exact h (ix2 a j) hlt
  · have hdiv : a.val / 400 = b := by omega
    rw [hP a j hdiv]
    unfold splice2 stack2
    by_cases hr : a.val < 400 * b + 200
    · rw [dif_pos (show 400 * b ≤ ((ix2 a j : S10000x128.Idx) 0).val ∧ ((ix2 a j : S10000x128.Idx) 0).val < 400 * b + 200 from
        ⟨by show 400 * b ≤ a.val; omega, hr⟩)]
      rw [dif_pos (show ((ix2 (⟨a.val % 400, Nat.mod_lt _ (by norm_num)⟩ : Fin 400) j : S400x128.Idx) 0).val < 200 from by
        show a.val % 400 < 200; omega)]
      exact congrArg top (congrArg (fun r : Fin 200 => (ix2 r j : S200x128.Idx))
        (Fin.ext (show a.val - 400 * b = a.val % 400 by omega)))
    · rw [dif_neg (show ¬ (400 * b ≤ ((ix2 a j : S10000x128.Idx) 0).val ∧ ((ix2 a j : S10000x128.Idx) 0).val < 400 * b + 200) from by
        show ¬ (400 * b ≤ a.val ∧ a.val < 400 * b + 200); omega)]
      rw [dif_pos (show 400 * b + 200 ≤ ((ix2 a j : S10000x128.Idx) 0).val ∧ ((ix2 a j : S10000x128.Idx) 0).val < 400 * b + 400 from by
        show 400 * b + 200 ≤ a.val ∧ a.val < 400 * b + 400; omega)]
      rw [dif_neg (show ¬ ((ix2 (⟨a.val % 400, Nat.mod_lt _ (by norm_num)⟩ : Fin 400) j : S400x128.Idx) 0).val < 200 from by
        show ¬ a.val % 400 < 200; omega)]
      exact congrArg bot (congrArg (fun r : Fin 200 => (ix2 r j : S200x128.Idx))
        (Fin.ext (show a.val - 400 * b - 200 = a.val % 400 - 200 by omega)))

/-! ## The invariant across a point -/

/-- The rows of p3 of the row block of a first-phase point are the two halves computed at that point, stacked. -/
theorem P3_block (c : Dev nD) (t : Fin cfg1.N) (ht : t.val < 25) (a : Fin 10000) (j : Fin 128) (ha : a.val / 400 = t.val) :
    P3 m c (ix2 a j)
      = stack2 (k1_pay4 (iblk1 m c 0 t) (iblk1 m c 2 t) (iblk1 m c 3 t) (iblk1 m c 4 t))
          (k1_pay1 (k1_pay5 (iblk1 m c 1 t) (iblk1 m c 2 t) (iblk1 m c 3 t)) (iblk1 m c 4 t))
          (ix2 (⟨a.val % 400, Nat.mod_lt _ (by norm_num)⟩ : Fin 400) j) := by
  have key : ∀ (b : ℕ) (hb : b < 25), b = t.val →
      p3blk m c b hb = stack2 (k1_pay4 (iblk1 m c 0 t) (iblk1 m c 2 t) (iblk1 m c 3 t) (iblk1 m c 4 t))
          (k1_pay1 (k1_pay5 (iblk1 m c 1 t) (iblk1 m c 2 t) (iblk1 m c 3 t)) (iblk1 m c 4 t)) := by
    intro b hb e; subst e; rfl
  show p3blk m c (a.val / 400) _ (ix2 (⟨a.val % 400, _⟩ : Fin 400) j) = _
  exact congrFun (key (a.val / 400) _ ha) _

/-- ACROSS A POINT OF THE FIRST PHASE: the scratch with the point's two halves spliced in agrees with p3 one block
    further. -/
theorem Inv1_step (c : Dev nD) (t : Fin cfg1.N) (ht : t.val < 25) (b : ℕ) (hb : b = t.val) (xs : Vec F S10000x128 .bf16)
    (x2 x3 : Vec F S200x10000 .bf16) (x4 : Vec F S10000x128 .bf16) (x5 : Vec F S1x128 .f32) (x6 : Vec F S128x128 .bf16)
    (e0 : x2 = iblk1 m c 0 t) (e1 : x3 = iblk1 m c 1 t) (e2 : x4 = iblk1 m c 2 t) (e3 : x5 = iblk1 m c 3 t)
    (e4 : x6 = iblk1 m c 4 t) (h : Inv1 m c t.val xs) : Inv1 m c (t.val + 1) (S9 b xs x2 x3 x4 x5 x6) := by
  subst hb e0 e1 e2 e3 e4
  intro y hy
  rw [Nat.min_eq_left (by omega)] at hy
  exact splice2_agrees t.val xs (P3 m c) _ _ (fun a j ha => P3_block m c t ht a j ha)
    (fun y hy => h y (by rw [Nat.min_eq_left (by omega)]; exact hy)) y hy

/-- AT A POINT OF THE SECOND PHASE the scratch is p3: it agrees with it on all 10000 rows. -/
theorem Inv1_full (c : Dev nD) (n : ℕ) (hn : 25 ≤ n) (xs : Vec F S10000x128 .bf16) (h : Inv1 m c n xs) : xs = P3 m c := by
  funext y
  exact h y (by rw [Nat.min_eq_right hn]; have := idx2_lt0 y; omega)

/-- And the invariant holds of p3 at every point. -/
theorem Inv1_P3 (c : Dev nD) (n : ℕ) : Inv1 m c n (P3 m c) := fun _ _ => rfl

/-- What the second phase leaves in the output window's buffer is what the data ask of it there. -/
theorem after1_6_phase1 (c : Dev nD) (t : Fin cfg1.N) (ht : 25 ≤ t.val) (Y6 : Vec F S400x128 .f32)
    (xs : Vec F S10000x128 .bf16) (x2 x3 : Vec F S200x10000 .bf16) (x7 : Vec F S1x128 .f32) (hxs : xs = P3 m c)
    (e0 : x2 = iblk1 m c 0 t) (e1 : x3 = iblk1 m c 1 t) (e5 : x7 = iblk1 m c 5 t) :
    (rd1 m c).after 6 t Y6 (O8 xs x2 x3 x7) := by
  subst hxs e0 e1 e5
  exact (after1_6 m c t _ _).mpr (by rw [if_pos ht])

/-- In the first phase the output window's buffer is left as found, which is what the data ask of it there. -/
theorem after1_6_phase0 (c : Dev nD) (t : Fin cfg1.N) (ht : t.val < 25) (Y6 : Vec F S400x128 .f32) :
    (rd1 m c).after 6 t Y6 Y6 :=
  (after1_6 m c t _ _).mpr (by rw [if_neg (by omega)])

/-! ## The obligation -/

/-- THE BODY OBLIGATION of the second kernel: at every point, from the invariant, what the core owes and every
    window's current buffer at contents it may then hold, the body runs to the invariant at the next point, the same
    debt and every buffer at contents in the data's relation to what it was handed. The inputs' buffers hold their
    blocks; the point's phase decides the two conditionals; the run of that phase applies. -/
theorem body_obligation1 (c : Dev nD) :
    (rd1 m c).BodyObligation (defs₀ (F := F)) Variants.none () Set.univ := fun t Y hY => by
  rw [bigSep_W1, bigSep_W1]
  have e0 := finds1_0 m c t (Y 0) (hY 0)
  have e1 := finds1_1 m c t (Y 1) (hY 1)
  have e2 := finds1_2 m c t (Y 2) (hY 2)
  have e3 := finds1_3 m c t (Y 3) (hY 3)
  have e4 := finds1_4 m c t (Y 4) (hY 4)
  have e5 := finds1_5 m c t (Y 5) (hY 5)
  rw [show (rd1 m c).owesAt () t.succ = (rd1 m c).owesAt () t.castSucc from rfl]
  rw [show (rd1 m c).Φ t.castSucc = Phi1 m c t.val from rfl, show (rd1 m c).Φ t.succ = Phi1 m c (t.val + 1) from rfl]
  unfold Phi1
  change _ ⊢ wp frame (wpE (defs₀ (F := F)) Variants.none c none) Set.univ (bodyAt1 t) _
  by_cases ht : t.val < 25
  · have hb : (grid1.coords t 1).val = t.val := by rw [hrow1 t]; exact Nat.mod_eq_of_lt ht
    iintro ⟨⟨⟨%xs, %hinv, HS⟩, Hr⟩, Ho, H0, H1, H2, H3, H4, H5, H6⟩
    iapply (Hand1.runA c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _)
      ((hcond1_1 t).mpr ht) (fun h => absurd ((hcond1_2 t).mp h) (by omega))
      (Y 0) (Y 1) (Y 2) (Y 3) (Y 4) (Y 5) (Y 6) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hr]
    · isplitl [HS]
      · iexists _; isplitr
        swap; · iexact HS
        ipureintro; exact Inv1_step m c t ht _ hb xs _ _ _ _ _ e0 e1 e2 e3 e4 hinv
      iexact Hr
    isplitl [Ho]; · iexact Ho
    isplitl [H0]
    · iexists _; isplitr; · ipureintro; exact (after1_0 m c t _ _).mpr rfl
      iexact H0
    isplitl [H1]
    · iexists _; isplitr; · ipureintro; exact (after1_1 m c t _ _).mpr rfl
      iexact H1
    isplitl [H2]
    · iexists _; isplitr; · ipureintro; exact (after1_2 m c t _ _).mpr rfl
      iexact H2
    isplitl [H3]
    · iexists _; isplitr; · ipureintro; exact (after1_3 m c t _ _).mpr rfl
      iexact H3
    isplitl [H4]
    · iexists _; isplitr; · ipureintro; exact (after1_4 m c t _ _).mpr rfl
      iexact H4
    isplitl [H5]
    · iexists _; isplitr; · ipureintro; exact (after1_5 m c t _ _).mpr rfl
      iexact H5
    iexists _; isplitr; · ipureintro; exact after1_6_phase0 m c t ht _
    iexact H6
  · have ht' : 25 ≤ t.val := by omega
    iintro ⟨⟨⟨%xs, %hinv, HS⟩, Hr⟩, Ho, H0, H1, H2, H3, H4, H5, H6⟩
    have hxs : xs = P3 m c := Inv1_full m c t.val ht' xs hinv
    iapply (Hand1.runB c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Memref.whole cc1_scratch0) (Memref.isWhole_whole _)
      (fun h => absurd ((hcond1_1 t).mp h) (by omega)) ((hcond1_2 t).mpr ht')
      (Y 0) (Y 1) (Y 2) (Y 3) (Y 4) (Y 5) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hr]
    · isplitl [HS]
      · iexists _; isplitr
        swap; · iexact HS
        ipureintro; rw [hxs]; exact Inv1_P3 m c _
      iexact Hr
    isplitl [Ho]; · iexact Ho
    isplitl [H0]
    · iexists _; isplitr; · ipureintro; exact (after1_0 m c t _ _).mpr rfl
      iexact H0
    isplitl [H1]
    · iexists _; isplitr; · ipureintro; exact (after1_1 m c t _ _).mpr rfl
      iexact H1
    isplitl [H2]
    · iexists _; isplitr; · ipureintro; exact (after1_2 m c t _ _).mpr rfl
      iexact H2
    isplitl [H3]
    · iexists _; isplitr; · ipureintro; exact (after1_3 m c t _ _).mpr rfl
      iexact H3
    isplitl [H4]
    · iexists _; isplitr; · ipureintro; exact (after1_4 m c t _ _).mpr rfl
      iexact H4
    isplitl [H5]
    · iexists _; isplitr; · ipureintro; exact (after1_5 m c t _ _).mpr rfl
      iexact H5
    iexists _; isplitr; · ipureintro; exact after1_6_phase1 m c t ht' _ xs _ _ _ hxs e0 e1 e5
    iexact H6

end Cert.Kernel.Hand

end
-- ==== Proof.PayloadAt.lean ====
/- The kernel's payloads read at an index, at the ideal values: each payload of the two kernel
   functions is, at the entry `(r, j)`, the matrix-product / bias / rectifier expression of its
   arguments' entries. Rounding to a narrower format is the identity on the extended reals, a shape cast
   to the same shape is the identity, and a matrix product into a zero accumulator is the plain sum of
   products over the contracted axis. -/
import proofs.«175765_g50964081934784_cont_8to1c4_784_17_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PayloadAt

open Cert.KernelIdeal Cert.KernelIdeal.Gen Idealize.ShloMosaic Idealize.ShloMosaic.ValueIdx Idealize.SL.Sem

/-! ## The three matrix products at an index -/

/-- Coordinates of the operand indices of the `[10000,128] × [128,128]` contraction. -/
theorem matmul_x_w_lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem matmul_x_w_lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem matmul_x_w_rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem matmul_x_w_rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The `[10000,128] × [128,128]` matrix product into a zero accumulator, read at `(r, j)`:
    the sum over the contracted axis of the products of row `r` of the left operand and column `j` of the right. -/
theorem matmul_x_w {φ₁ φ₂ : FTy} (lhs : FVec Ideal S10000x128 φ₁) (rhs : FVec Ideal S128x128 φ₂) (r : Fin 10000) (j : Fin 128) :
    matmul dot_S10000x128_S128x128_S10000x128_1_0_0_1_n_n none lhs rhs (constant (F := Ideal) S10000x128 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r j) ((ValueIdx.contrEquiv1 dot_S10000x128_S128x128_S10000x128_1_0_0_1_n_n 128 rfl rfl).symm k) = ix2 r k := funext fun a => Fin.ext (by
    match a with
    | ⟨0, _⟩ => exact matmul_x_w_lhs0 _ _
    | ⟨1, _⟩ => exact (matmul_x_w_lhs1 _ _).trans hk)
  have er : dot_S10000x128_S128x128_S10000x128_1_0_0_1_n_n.rhsIdx (ix2 r j) ((ValueIdx.contrEquiv1 dot_S10000x128_S128x128_S10000x128_1_0_0_1_n_n 128 rfl rfl).symm k) = ix2 k j := funext fun a => Fin.ext (by
    match a with
    | ⟨0, _⟩ => exact (matmul_x_w_rhs0 _ _).trans hk
    | ⟨1, _⟩ => exact matmul_x_w_rhs1 _ _)
  rw [el, er]

/-- Coordinates of the operand indices of the `[200,10000] × [10000,128]` contraction. -/
theorem matmul_a_p_lhs0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem matmul_a_p_lhs1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem matmul_a_p_rhs0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem matmul_a_p_rhs1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The `[200,10000] × [10000,128]` matrix product into a zero accumulator, read at `(r, j)`:
    the sum over the contracted axis of the products of row `r` of the left operand and column `j` of the right. -/
theorem matmul_a_p {φ₁ φ₂ : FTy} (lhs : FVec Ideal S200x10000 φ₁) (rhs : FVec Ideal S10000x128 φ₂) (r : Fin 200) (j : Fin 128) :
    matmul dot_S200x10000_S10000x128_S200x128_1_0_0_1_n_n none lhs rhs (constant (F := Ideal) S200x128 .f32 0x00000000#32) (ix2 r j)
      = ∑ k : Fin 10000, lhs (ix2 r k) * rhs (ix2 k j) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 r j) ((ValueIdx.contrEquiv1 dot_S200x10000_S10000x128_S200x128_1_0_0_1_n_n 10000 rfl rfl).symm k) = ix2 r k := funext fun a => Fin.ext (by
    match a with
    | ⟨0, _⟩ => exact matmul_a_p_lhs0 _ _
    | ⟨1, _⟩ => exact (matmul_a_p_lhs1 _ _).trans hk)
  have er : dot_S200x10000_S10000x128_S200x128_1_0_0_1_n_n.rhsIdx (ix2 r j) ((ValueIdx.contrEquiv1 dot_S200x10000_S10000x128_S200x128_1_0_0_1_n_n 10000 rfl rfl).symm k) = ix2 k j := funext fun a => Fin.ext (by
    match a with
    | ⟨0, _⟩ => exact (matmul_a_p_rhs0 _ _).trans hk
    | ⟨1, _⟩ => exact matmul_a_p_rhs1 _ _)
  rw [el, er]

/-- Coordinates of the operand indices of the `[200,128] × [128,128]` contraction. -/
theorem matmul_h_w_lhs0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem matmul_h_w_lhs1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem matmul_h_w_rhs0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem matmul_h_w_rhs1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The `[200,128] × [128,128]` matrix product into a zero accumulator, read at `(r, j)`:
    the sum over the contracted axis of the products of row `r` of the left operand and column `j` of the right. -/
theorem matmul_h_w {φ₁ φ₂ : FTy} (lhs : FVec Ideal S200x128 φ₁) (rhs : FVec Ideal S128x128 φ₂) (r : Fin 200) (j : Fin 128) :
    matmul dot_S200x128_S128x128_S200x128_1_0_0_1_n_n none lhs rhs (constant (F := Ideal) S200x128 .f32 0x00000000#32) (ix2 r j)
      = ∑ k : Fin 128, lhs (ix2 r k) * rhs (ix2 k j) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 r j) ((ValueIdx.contrEquiv1 dot_S200x128_S128x128_S200x128_1_0_0_1_n_n 128 rfl rfl).symm k) = ix2 r k := funext fun a => Fin.ext (by
    match a with
    | ⟨0, _⟩ => exact matmul_h_w_lhs0 _ _
    | ⟨1, _⟩ => exact (matmul_h_w_lhs1 _ _).trans hk)
  have er : dot_S200x128_S128x128_S200x128_1_0_0_1_n_n.rhsIdx (ix2 r j) ((ValueIdx.contrEquiv1 dot_S200x128_S128x128_S200x128_1_0_0_1_n_n 128 rfl rfl).symm k) = ix2 k j := funext fun a => Fin.ext (by
    match a with
    | ⟨0, _⟩ => exact (matmul_h_w_rhs0 _ _).trans hk
    | ⟨1, _⟩ => exact matmul_h_w_rhs1 _ _)
  rw [el, er]

/-! ## Rounding to a narrower format is the identity at the ideal values -/

theorem truncf_eq {s : Shape} {φ ψ : FTy} (a : FVec Ideal s φ) (h : ψ.bits < φ.bits) :
    (truncf ψ a h : FVec Ideal s ψ) = a := rfl

/-! ## The payloads of the first kernel function -/

/-- The projected features `x · w` at `(r, j)`. -/
theorem k0_pay2_at (x : Vec Ideal S10000x128 .f32) (w : Vec Ideal S128x128 .bf16) (r : Fin 10000) (j : Fin 128) :
    k0_pay2 (F := Ideal) x w (ix2 r j) = ∑ k : Fin 128, x (ix2 r k) * w (ix2 k j) := by
  unfold k0_pay2
  simp only [shapeCast_self, truncf_eq]
  exact matmul_x_w _ _ r j

/-- Rounding the adjacency block is the identity. -/
theorem k0_pay3_eq (a : Vec Ideal S200x10000 .f32) : k0_pay3 (F := Ideal) a = a := rfl

theorem k0_pay5_eq (a : Vec Ideal S200x10000 .f32) : k0_pay5 (F := Ideal) a = a := rfl

theorem k0_pay4_at (a : Vec Ideal S200x10000 .f32) (p : Vec Ideal S10000x128 .bf16) (b : Vec Ideal S1x128 .f32)
    (w : Vec Ideal S128x128 .bf16) (r : Fin 200) (j : Fin 128) :
    k0_pay4 (F := Ideal) a p b w (ix2 r j)
      = ∑ k : Fin 128, max ((∑ q : Fin 10000, a (ix2 r q) * p (ix2 q k)) + b (ix2 (0 : Fin 1) k)) 0 * w (ix2 k j) := by
  unfold k0_pay4 k0_pay3
  simp only [shapeCast_self, truncf_eq]
  rw [matmul_h_w]
  refine Finset.sum_congr rfl fun k _ => ?_
  rw [maximumf_apply, addf_apply, broadcast_apply, matmul_a_p, broadcastTo_1b_ab_apply]
  rw [Ideal.ofBits_def, Ideal.ofBits_zero_f32]

/-- The aggregated, biased features `a · p + b` of the second row block at `(r, k)`. -/
theorem k0_pay6_at (a : Vec Ideal S200x10000 .f32) (p : Vec Ideal S10000x128 .bf16) (b : Vec Ideal S1x128 .f32) (r : Fin 200) (k : Fin 128) :
    k0_pay6 (F := Ideal) a p b (ix2 r k) = (∑ q : Fin 10000, a (ix2 r q) * p (ix2 q k)) + b (ix2 (0 : Fin 1) k) := by
  unfold k0_pay6 k0_pay5
  simp only [shapeCast_self, truncf_eq]
  rw [addf_apply, matmul_a_p, broadcastTo_1b_ab_apply]

/-- The rectified block times the next layer's weights, for any block `v`. -/
theorem k0_pay1_at (v : FVec Ideal S200x128 .f32) (w : Vec Ideal S128x128 .bf16) (r : Fin 200) (j : Fin 128) :
    k0_pay1 (F := Ideal) v w (ix2 r j) = ∑ k : Fin 128, max (v (ix2 r k)) 0 * w (ix2 k j) := by
  unfold k0_pay1
  simp only [shapeCast_self, truncf_eq]
  rw [matmul_h_w]
  refine Finset.sum_congr rfl fun k _ => ?_
  rw [maximumf_apply, broadcast_apply, Ideal.ofBits_def, Ideal.ofBits_zero_f32]

/-- The second row block's payload, composed: the same expression as the first row block's. -/
theorem k0_pay1_pay6_at (a : Vec Ideal S200x10000 .f32) (p : Vec Ideal S10000x128 .bf16) (b : Vec Ideal S1x128 .f32)
    (w : Vec Ideal S128x128 .bf16) (r : Fin 200) (j : Fin 128) :
    k0_pay1 (F := Ideal) (k0_pay6 (F := Ideal) a p b) w (ix2 r j)
      = ∑ k : Fin 128, max ((∑ q : Fin 10000, a (ix2 r q) * p (ix2 q k)) + b (ix2 (0 : Fin 1) k)) 0 * w (ix2 k j) := by
  rw [k0_pay1_at]
  refine Finset.sum_congr rfl fun k _ => ?_
  rw [k0_pay6_at]

/-! ## The payloads of the second kernel function -/

/-- The last layer's aggregation `a · p + b` at `(r, j)` (first row block). -/
theorem k1_pay2_at (a : Vec Ideal S200x10000 .bf16) (p : Vec Ideal S10000x128 .bf16) (b : Vec Ideal S1x128 .f32) (r : Fin 200) (j : Fin 128) :
    k1_pay2 (F := Ideal) a p b (ix2 r j) = (∑ q : Fin 10000, a (ix2 r q) * p (ix2 q j)) + b (ix2 (0 : Fin 1) j) := by
  unfold k1_pay2
  simp only [shapeCast_self]
  rw [addf_apply, matmul_a_p, broadcastTo_1b_ab_apply]

/-- The last layer's aggregation `a · p + b` at `(r, j)` (second row block). -/
theorem k1_pay3_at (a : Vec Ideal S200x10000 .bf16) (p : Vec Ideal S10000x128 .bf16) (b : Vec Ideal S1x128 .f32) (r : Fin 200) (j : Fin 128) :
    k1_pay3 (F := Ideal) a p b (ix2 r j) = (∑ q : Fin 10000, a (ix2 r q) * p (ix2 q j)) + b (ix2 (0 : Fin 1) j) := by
  unfold k1_pay3
  simp only [shapeCast_self]
  rw [addf_apply, matmul_a_p, broadcastTo_1b_ab_apply]

/-- The middle layer's first row block: aggregate, add the bias, rectify, multiply by the next weights. -/
theorem k1_pay4_at (a : Vec Ideal S200x10000 .bf16) (p : Vec Ideal S10000x128 .bf16) (b : Vec Ideal S1x128 .f32)
    (w : Vec Ideal S128x128 .bf16) (r : Fin 200) (j : Fin 128) :
    k1_pay4 (F := Ideal) a p b w (ix2 r j)
      = ∑ k : Fin 128, max ((∑ q : Fin 10000, a (ix2 r q) * p (ix2 q k)) + b (ix2 (0 : Fin 1) k)) 0 * w (ix2 k j) := by
  unfold k1_pay4
  simp only [shapeCast_self, truncf_eq]
  rw [matmul_h_w]
  refine Finset.sum_congr rfl fun k _ => ?_
  rw [maximumf_apply, addf_apply, broadcast_apply, matmul_a_p, broadcastTo_1b_ab_apply,
    Ideal.ofBits_def, Ideal.ofBits_zero_f32]

/-- The middle layer's rectified aggregation of the second row block at `(r, k)`. -/
theorem k1_pay5_at (a : Vec Ideal S200x10000 .bf16) (p : Vec Ideal S10000x128 .bf16) (b : Vec Ideal S1x128 .f32) (r : Fin 200) (k : Fin 128) :
    k1_pay5 (F := Ideal) a p b (ix2 r k) = max ((∑ q : Fin 10000, a (ix2 r q) * p (ix2 q k)) + b (ix2 (0 : Fin 1) k)) 0 := by
  unfold k1_pay5
  simp only [shapeCast_self, truncf_eq]
  rw [maximumf_apply, addf_apply, broadcast_apply, matmul_a_p, broadcastTo_1b_ab_apply,
    Ideal.ofBits_def, Ideal.ofBits_zero_f32]

/-- A block times the next layer's weights, for any block `h`. -/
theorem k1_pay1_at (h : FVec Ideal S200x128 .bf16) (w : Vec Ideal S128x128 .bf16) (r : Fin 200) (j : Fin 128) :
    k1_pay1 (F := Ideal) h w (ix2 r j) = ∑ k : Fin 128, h (ix2 r k) * w (ix2 k j) := by
  unfold k1_pay1
  simp only [shapeCast_self, truncf_eq]
  rw [matmul_h_w]

/-- The second row block's payload, composed: the same expression as the first row block's. -/
theorem k1_pay1_pay5_at (a : Vec Ideal S200x10000 .bf16) (p : Vec Ideal S10000x128 .bf16) (b : Vec Ideal S1x128 .f32)
    (w : Vec Ideal S128x128 .bf16) (r : Fin 200) (j : Fin 128) :
    k1_pay1 (F := Ideal) (k1_pay5 (F := Ideal) a p b) w (ix2 r j)
      = ∑ k : Fin 128, max ((∑ q : Fin 10000, a (ix2 r q) * p (ix2 q k)) + b (ix2 (0 : Fin 1) k)) 0 * w (ix2 k j) := by
  rw [k1_pay1_at]
  refine Finset.sum_congr rfl fun k _ => ?_
  rw [k1_pay5_at]

end Cert.PayloadAt
-- ==== Proof.Final0.lean ====
/- What the first kernel leaves in its three result arrays, read at an index, at the ideal values:
   the two narrowed copies of the adjacency matrix hold its rows in the order the row blocks were visited,
   and the next layer's operand holds relu(A·(x·W1) + b1)·W2. -/
import proofs.«175765_g50964081934784_cont_8to1c4_784_17_alg».proof.Proof.Data0
import proofs.«175765_g50964081934784_cont_8to1c4_784_17_alg».proof.Proof.PayloadAt
import Idealize.ShloMosaic.Lib.Pipeline.Value

noncomputable section

open scoped BigOperators

namespace Cert.Final0

open Idealize.ShloMosaic Idealize.ShloMosaic.TcCoe Idealize.SL.Sem Idealize.ShloMosaic.ValueIdx
open Idealize.ShloMosaic.Pipeline (Dat Window)
open Cert.KernelIdeal Cert.KernelIdeal.Gen Cert.KernelIdeal.Hand

variable (m : (ℓ : Loc nD τ sig) → Buf (Elt Ideal) ℓ)

/-! ## The index maps, decided over the grid -/

/-- At point `t`: the two adjacency windows are at block rows `2t` and `2t + 1`, the four whole-array windows at
    block `(0, 0)`, the three output windows at block row `t`. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The arrays as the kernel finds them -/

/-- The adjacency matrix is as launched. -/
theorem Va_arg1 (c : Dev nD) : Va m c main_arg1 = m ((c : Thread nD τ).loc main_arg1) :=
  (V1_of m c main_arg1 (by decide)).trans rfl

/-- The features are as launched. -/
theorem Va_arg0 (c : Dev nD) : Va m c main_arg0 = m ((c : Thread nD τ).loc main_arg0) :=
  (V1_of m c main_arg0 (by decide)).trans rfl

/-! ## The arguments, as arrays of extended reals -/

/-- The adjacency matrix. -/
abbrev argA (c : Dev nD) : S10000x10000.Idx → EReal := m ((c : Thread nD τ).loc main_arg1)
/-- The features. -/
abbrev argX (c : Dev nD) : S10000x128.Idx → EReal := m ((c : Thread nD τ).loc main_arg0)
/-- The first layer's weights. -/
abbrev argW1 (c : Dev nD) : S128x128.Idx → EReal := m ((c : Thread nD τ).loc main_arg2)
/-- The first layer's bias. -/
abbrev argB1 (c : Dev nD) : S128.Idx → EReal := m ((c : Thread nD τ).loc main_arg3)
/-- The second layer's weights. -/
abbrev argW2 (c : Dev nD) : S128x128.Idx → EReal := m ((c : Thread nD τ).loc main_arg4)

/-! ## The narrowed copies of the adjacency matrix -/

/-- Row `r'` of the first copy is row `400·(r'/200) + r'%200` of the adjacency matrix. -/
def A7 (c : Dev nD) : S5000x10000.Idx → Elt Ideal .bf16 := fun i =>
  argA m c
    (ix2 (⟨400 * ((i 0).val / 200) + (i 0).val % 200, by have := idx2_lt0 i; omega⟩ : Fin 10000) (i 1))

/-- What point `t` writes back to the first copy is its block of `A7`: rounding is the identity, and the
    adjacency window's block row `2t` of 200 rows is the copy's block row `t`. -/
theorem flushed7_eq (c : Dev nD) (t : Fin cfg0.N) :
    (dat0 m c).flushed 7 t = ((cfg0.win 7).blk t).view.read (Elt Ideal) (A7 m c) := by
  show (cfg0.win 7).cut (grid0.coords t) ((dat0 m c).after 7 t) = _
  rw [after0_7, PayloadAt.k0_pay3_eq]
  obtain ⟨e00, e01, e10, e11, -, -, -, -, -, -, -, -, e60, e61, e70, e71, e80, e81⟩ := idx_facts t
  funext y
  show Va m c main_arg1 (((cfg0.win 0).blk t).view.emb ((cfg0.win 7).xinj (grid0.coords t) y))
    = A7 m c (((cfg0.win 7).blk t).view.emb y)
  rw [Va_arg1]
  unfold A7
  show m ((c : Thread nD τ).loc main_arg1) _ = m ((c : Thread nD τ).loc main_arg1) _
  have hy0 : (y 0).val < 200 := (y 0).isLt
  have hy1 : (y 1).val < 10000 := (y 1).isLt
  congr 1
  funext a
  apply Fin.ext
  match a with
  | ⟨0, _⟩ =>
    show win0_0.index t (0 : Fin 2) * 200 + 1 * (y 0).val
      = 400 * ((win0_7.index t (0 : Fin 2) * 200 + 1 * (y 0).val) / 200) + (win0_7.index t (0 : Fin 2) * 200 + 1 * (y 0).val) % 200
    omega
  | ⟨1, _⟩ =>
    show win0_0.index t (1 : Fin 2) * 10000 + 1 * (y 1).val = win0_7.index t (1 : Fin 2) * 10000 + 1 * (y 1).val
    omega

/-- An index of the first copy is in point `t`'s block iff each coordinate is in the block's range on its axis. -/
theorem mem_blk7 (t : Fin cfg0.N) (i : S5000x10000.Idx) :
    i ∈ ((cfg0.win 7).blk t).view.set ↔ ∀ a : Fin 2, win0_7.index t a * S200x10000.size a ≤ (i a).val
      ∧ (i a).val < win0_7.index t a * S200x10000.size a + S200x10000.size a := by
  show i ∈ ((View.whole main_v5_1).slice (win0_7.rect t)).set ↔ _
  rw [View.set_slice_whole, Rect.mem_set_unit]
  exact Iff.rfl

/-- Every row of the first copy is in the block of the point that visits its row block. -/
theorem cover7 (i : S5000x10000.Idx) :
    ∃ t : Fin cfg0.N, (cfg0.win 7).flush t = true ∧ i ∈ ((cfg0.win 7).blk t).view.set := by
  have hi0 : (i 0).val < 5000 := (i 0).isLt
  have hi1 : (i 1).val < 10000 := (i 1).isLt
  have hN : cfg0.N = 25 := N_0
  have ht : (i 0).val / 200 < cfg0.N := by rw [hN]; omega
  obtain ⟨-, -, -, -, -, -, -, -, -, -, -, -, e60, e61, e70, e71, e80, e81⟩ := idx_facts ⟨(i 0).val / 200, ht⟩
  refine ⟨⟨(i 0).val / 200, ht⟩, flush0_7 _, ?_⟩
  rw [mem_blk7]
  intro a
  match a with
  | ⟨0, _⟩ =>
    show win0_7.index ⟨(i 0).val / 200, ht⟩ (0 : Fin 2) * 200 ≤ (i 0).val
      ∧ (i 0).val < win0_7.index ⟨(i 0).val / 200, ht⟩ (0 : Fin 2) * 200 + 200
    rw [e70]
    show (i 0).val / 200 * 200 ≤ (i 0).val ∧ (i 0).val < (i 0).val / 200 * 200 + 200
    omega
  | ⟨1, _⟩ =>
    show win0_7.index ⟨(i 0).val / 200, ht⟩ (1 : Fin 2) * 10000 ≤ (i 1).val
      ∧ (i 1).val < win0_7.index ⟨(i 0).val / 200, ht⟩ (1 : Fin 2) * 10000 + 10000
    rw [e71]
    omega

/-- The first copy after the run. -/
theorem final7 (c : Dev nD) : (dat0 m c).arrAt 7 cfg0.N = A7 m c :=
  (dat0 m c).arrAt_eq_of_cover 7 (A7 m c) (fun t _ => flushed7_eq m c t) cover7

/-- The first copy after the run, read at `(r', k)`. -/
theorem arr7_at (c : Dev nD) (r' : Fin 5000) (k : Fin 10000) :
    (dat0 m c).arrAt 7 cfg0.N (ix2 r' k)
      = argA m c
          (ix2 (⟨400 * (r'.val / 200) + r'.val % 200, by omega⟩ : Fin 10000) k) := by
  rw [final7]
  rfl

/-- Row `r'` of the second copy is row `400·(r'/200) + 200 + r'%200` of the adjacency matrix. -/
def A8 (c : Dev nD) : S5000x10000.Idx → Elt Ideal .bf16 := fun i =>
  argA m c
    (ix2 (⟨400 * ((i 0).val / 200) + 200 + (i 0).val % 200, by have := idx2_lt0 i; omega⟩ : Fin 10000) (i 1))

/-- What point `t` writes back to the second copy is its block of `A8`: rounding is the identity, and the
    adjacency window's block row `2t + 1` of 200 rows is the copy's block row `t`. -/
theorem flushed8_eq (c : Dev nD) (t : Fin cfg0.N) :
    (dat0 m c).flushed 8 t = ((cfg0.win 8).blk t).view.read (Elt Ideal) (A8 m c) := by
  show (cfg0.win 8).cut (grid0.coords t) ((dat0 m c).after 8 t) = _
  rw [after0_8, PayloadAt.k0_pay5_eq]
  obtain ⟨e00, e01, e10, e11, -, -, -, -, -, -, -, -, e60, e61, e70, e71, e80, e81⟩ := idx_facts t
  funext y
  show Va m c main_arg1 (((cfg0.win 1).blk t).view.emb ((cfg0.win 8).xinj (grid0.coords t) y))
    = A8 m c (((cfg0.win 8).blk t).view.emb y)
  rw [Va_arg1]
  unfold A8
  show m ((c : Thread nD τ).loc main_arg1) _ = m ((c : Thread nD τ).loc main_arg1) _
  have hy0 : (y 0).val < 200 := (y 0).isLt
  have hy1 : (y 1).val < 10000 := (y 1).isLt
  congr 1
  funext a
  apply Fin.ext
  match a with
  | ⟨0, _⟩ =>
    show win0_1.index t (0 : Fin 2) * 200 + 1 * (y 0).val
      = 400 * ((win0_8.index t (0 : Fin 2) * 200 + 1 * (y 0).val) / 200) + 200 + (win0_8.index t (0 : Fin 2) * 200 + 1 * (y 0).val) % 200
    omega
  | ⟨1, _⟩ =>
    show win0_1.index t (1 : Fin 2) * 10000 + 1 * (y 1).val = win0_8.index t (1 : Fin 2) * 10000 + 1 * (y 1).val
    omega

/-- An index of the second copy is in point `t`'s block iff each coordinate is in the block's range on its axis. -/
theorem mem_blk8 (t : Fin cfg0.N) (i : S5000x10000.Idx) :
    i ∈ ((cfg0.win 8).blk t).view.set ↔ ∀ a : Fin 2, win0_8.index t a * S200x10000.size a ≤ (i a).val
      ∧ (i a).val < win0_8.index t a * S200x10000.size a + S200x10000.size a := by
  show i ∈ ((View.whole main_v5_2).slice (win0_8.rect t)).set ↔ _
  rw [View.set_slice_whole, Rect.mem_set_unit]
  exact Iff.rfl

/-- Every row of the second copy is in the block of the point that visits its row block. -/
theorem cover8 (i : S5000x10000.Idx) :
    ∃ t : Fin cfg0.N, (cfg0.win 8).flush t = true ∧ i ∈ ((cfg0.win 8).blk t).view.set := by
  have hi0 : (i 0).val < 5000 := (i 0).isLt
  have hi1 : (i 1).val < 10000 := (i 1).isLt
  have hN : cfg0.N = 25 := N_0
  have ht : (i 0).val / 200 < cfg0.N := by rw [hN]; omega
  obtain ⟨-, -, -, -, -, -, -, -, -, -, -, -, e60, e61, e70, e71, e80, e81⟩ := idx_facts ⟨(i 0).val / 200, ht⟩
  refine ⟨⟨(i 0).val / 200, ht⟩, flush0_8 _, ?_⟩
  rw [mem_blk8]
  intro a
  match a with
  | ⟨0, _⟩ =>
    show win0_8.index ⟨(i 0).val / 200, ht⟩ (0 : Fin 2) * 200 ≤ (i 0).val
      ∧ (i 0).val < win0_8.index ⟨(i 0).val / 200, ht⟩ (0 : Fin 2) * 200 + 200
    rw [e80]
    show (i 0).val / 200 * 200 ≤ (i 0).val ∧ (i 0).val < (i 0).val / 200 * 200 + 200
    omega
  | ⟨1, _⟩ =>
    show win0_8.index ⟨(i 0).val / 200, ht⟩ (1 : Fin 2) * 10000 ≤ (i 1).val
      ∧ (i 1).val < win0_8.index ⟨(i 0).val / 200, ht⟩ (1 : Fin 2) * 10000 + 10000
    rw [e81]
    omega

/-- The second copy after the run. -/
theorem final8 (c : Dev nD) : (dat0 m c).arrAt 8 cfg0.N = A8 m c :=
  (dat0 m c).arrAt_eq_of_cover 8 (A8 m c) (fun t _ => flushed8_eq m c t) cover8

/-- The second copy after the run, read at `(r', k)`. -/
theorem arr8_at (c : Dev nD) (r' : Fin 5000) (k : Fin 10000) :
    (dat0 m c).arrAt 8 cfg0.N (ix2 r' k)
      = argA m c
          (ix2 (⟨400 * (r'.val / 200) + 200 + r'.val % 200, by omega⟩ : Fin 10000) k) := by
  rw [final8]
  rfl

/-! ## The host operations before the kernel -/

/-- The first layer's weights, narrowed: at the ideal values the weights themselves. -/
theorem Va_v3 (c : Dev nD) :
    (Va m c main_v3 : S128x128.Idx → Elt Ideal .bf16) = (m ((c : Thread nD τ).loc main_arg2) : S128x128.Idx → Elt Ideal .f32) := by
  show StableHlo.after hostOps0 (V0 m c) (Proc.devRef .tc main_v3) = _
  after_results
  rfl

/-- The second layer's weights, narrowed: at the ideal values the weights themselves. -/
theorem Va_v4 (c : Dev nD) :
    (Va m c main_v4 : S128x128.Idx → Elt Ideal .bf16) = (m ((c : Thread nD τ).loc main_arg4) : S128x128.Idx → Elt Ideal .f32) := by
  show StableHlo.after hostOps0 (V0 m c) (Proc.devRef .tc main_v4) = _
  after_results
  rfl

/-- The first layer's bias as a one-row matrix. -/
theorem Va_v0 (c : Dev nD) (u : Fin 1) (k : Fin 128) :
    (Va m c main_v0 : S1x128.Idx → Elt Ideal .f32) (ix2 u k) = (m ((c : Thread nD τ).loc main_arg3) : S128.Idx → Elt Ideal .f32) (ix1 k) := by
  have h : (Va m c main_v0 : S1x128.Idx → Elt Ideal .f32)
      = shapeCast S1x128 (m ((c : Thread nD τ).loc main_arg3) : S128.Idx → Elt Ideal .f32) shapeCasts_S128_S1x128 := by
    show StableHlo.after hostOps0 (V0 m c) (Proc.devRef .tc main_v0) = _
    after_results
    rfl
  rw [h]
  exact shapeCast_a_1a_apply _ _ u k

/-! ## The input windows' blocks at an index -/

/-- Rows `400t … 400t + 199` of the adjacency matrix. -/
theorem iblk0_0_at (c : Dev nD) (t : Fin cfg0.N) (r : Fin 200) (q : Fin 10000) :
    iblk0 m c 0 t (ix2 r q) = argA m c
      (ix2 (⟨400 * t.val + r.val, by have := t.isLt; have hN : cfg0.N = 25 := N_0; omega⟩ : Fin 10000) q) := by
  obtain ⟨e00, e01, -⟩ := idx_facts t
  show Va m c main_arg1 (((cfg0.win 0).blk t).view.emb (ix2 r q)) = _
  rw [Va_arg1]
  exact congrArg (m ((c : Thread nD τ).loc main_arg1)) (funext fun a => Fin.ext (by
    match a with
    | ⟨0, _⟩ => show win0_0.index t (0 : Fin 2) * 200 + 1 * r.val = 400 * t.val + r.val; omega
    | ⟨1, _⟩ => show win0_0.index t (1 : Fin 2) * 10000 + 1 * q.val = q.val; omega))

/-- Rows `400t + 200 … 400t + 399` of the adjacency matrix. -/
theorem iblk0_1_at (c : Dev nD) (t : Fin cfg0.N) (r : Fin 200) (q : Fin 10000) :
    iblk0 m c 1 t (ix2 r q) = argA m c
      (ix2 (⟨400 * t.val + 200 + r.val, by have := t.isLt; have hN : cfg0.N = 25 := N_0; omega⟩ : Fin 10000) q) := by
  obtain ⟨-, -, e10, e11, -⟩ := idx_facts t
  show Va m c main_arg1 (((cfg0.win 1).blk t).view.emb (ix2 r q)) = _
  rw [Va_arg1]
  exact congrArg (m ((c : Thread nD τ).loc main_arg1)) (funext fun a => Fin.ext (by
    match a with
    | ⟨0, _⟩ => show win0_1.index t (0 : Fin 2) * 200 + 1 * r.val = 400 * t.val + 200 + r.val; omega
    | ⟨1, _⟩ => show win0_1.index t (1 : Fin 2) * 10000 + 1 * q.val = q.val; omega))

/-- The features, whole. -/
theorem iblk0_2_at (c : Dev nD) (t : Fin cfg0.N) (q : Fin 10000) (k : Fin 128) :
    iblk0 m c 2 t (ix2 q k) = argX m c (ix2 q k) := by
  obtain ⟨-, -, -, -, e20, e21, -⟩ := idx_facts t
  show Va m c main_arg0 (((cfg0.win 2).blk t).view.emb (ix2 q k)) = _
  rw [Va_arg0]
  exact congrArg (m ((c : Thread nD τ).loc main_arg0)) (funext fun a => Fin.ext (by
    match a with
    | ⟨0, _⟩ => show win0_2.index t (0 : Fin 2) * 10000 + 1 * q.val = q.val; omega
    | ⟨1, _⟩ => show win0_2.index t (1 : Fin 2) * 128 + 1 * k.val = k.val; omega))

/-- The first layer's weights, whole. -/
theorem iblk0_3_at (c : Dev nD) (t : Fin cfg0.N) (k' : Fin 128) (k : Fin 128) :
    iblk0 m c 3 t (ix2 k' k) = argW1 m c (ix2 k' k) := by
  obtain ⟨-, -, -, -, -, -, e30, e31, -⟩ := idx_facts t
  show (Va m c main_v3 : S128x128.Idx → Elt Ideal .bf16) (((cfg0.win 3).blk t).view.emb (ix2 k' k)) = _
  rw [Va_v3]
  exact congrArg (m ((c : Thread nD τ).loc main_arg2)) (funext fun a => Fin.ext (by
    match a with
    | ⟨0, _⟩ => show win0_3.index t (0 : Fin 2) * 128 + 1 * k'.val = k'.val; omega
    | ⟨1, _⟩ => show win0_3.index t (1 : Fin 2) * 128 + 1 * k.val = k.val; omega))

/-- The first layer's bias, as a row. -/
theorem iblk0_4_at (c : Dev nD) (t : Fin cfg0.N) (k : Fin 128) :
    iblk0 m c 4 t (ix2 (0 : Fin 1) k) = argB1 m c (ix1 k) := by
  obtain ⟨-, -, -, -, -, -, -, -, e40, e41, -⟩ := idx_facts t
  show (Va m c main_v0 : S1x128.Idx → Elt Ideal .f32) (((cfg0.win 4).blk t).view.emb (ix2 (0 : Fin 1) k)) = _
  refine Eq.trans ?_ (Va_v0 m c (0 : Fin 1) k)
  exact congrArg (Va m c main_v0 : S1x128.Idx → Elt Ideal .f32) (funext fun a => Fin.ext (by
    match a with
    | ⟨0, _⟩ => show win0_4.index t (0 : Fin 2) * 1 + 1 * 0 = 0; omega
    | ⟨1, _⟩ => show win0_4.index t (1 : Fin 2) * 128 + 1 * k.val = k.val; omega))

/-- The second layer's weights, whole. -/
theorem iblk0_5_at (c : Dev nD) (t : Fin cfg0.N) (k : Fin 128) (j : Fin 128) :
    iblk0 m c 5 t (ix2 k j) = argW2 m c (ix2 k j) := by
  obtain ⟨-, -, -, -, -, -, -, -, -, -, e50, e51, -⟩ := idx_facts t
  show (Va m c main_v4 : S128x128.Idx → Elt Ideal .bf16) (((cfg0.win 5).blk t).view.emb (ix2 k j)) = _
  rw [Va_v4]
  exact congrArg (m ((c : Thread nD τ).loc main_arg4)) (funext fun a => Fin.ext (by
    match a with
    | ⟨0, _⟩ => show win0_5.index t (0 : Fin 2) * 128 + 1 * k.val = k.val; omega
    | ⟨1, _⟩ => show win0_5.index t (1 : Fin 2) * 128 + 1 * j.val = j.val; omega))

/-- The carried product `x · W1` at `(q, k)`. -/
theorem S1_at (c : Dev nD) (q : Fin 10000) (k : Fin 128) :
    S1 m c (ix2 q k) = ∑ k' : Fin 128, argX m c (ix2 q k') * argW1 m c (ix2 k' k) := by
  unfold S1
  rw [PayloadAt.k0_pay2_at]
  refine Finset.sum_congr rfl fun k' _ => ?_
  rw [iblk0_2_at, iblk0_3_at]

/-! ## The next layer's operand -/

/-- `relu(A · (x · W1) + b1) · W2` at `(r, j)`. -/
def P2 (c : Dev nD) : S10000x128.Idx → EReal := fun i =>
  ∑ k : Fin 128, max ((∑ q : Fin 10000, argA m c (ix2 (i 0) q)
      * ∑ k' : Fin 128, argX m c (ix2 q k') * argW1 m c (ix2 k' k)) + argB1 m c (ix1 k)) 0 * argW2 m c (ix2 k (i 1))

theorem P2_apply (c : Dev nD) (r : Fin 10000) (j : Fin 128) :
    P2 m c (ix2 r j) = ∑ k : Fin 128, max ((∑ q : Fin 10000, argA m c (ix2 r q)
      * ∑ k' : Fin 128, argX m c (ix2 q k') * argW1 m c (ix2 k' k)) + argB1 m c (ix1 k)) 0 * argW2 m c (ix2 k j) := rfl

/-- The upper half of what point `t` leaves in the output block: rows `400t … 400t + 199` of `P2`. -/
theorem O7_at_top (c : Dev nD) (t : Fin cfg0.N) (r : Fin 200) (j : Fin 128) :
    O7 (S1 m c) (iblk0 m c 0 t) (iblk0 m c 1 t) (iblk0 m c 4 t) (iblk0 m c 5 t) (ix2 (⟨r.val, by omega⟩ : Fin 400) j)
      = P2 m c (ix2 (⟨400 * t.val + r.val, by have := t.isLt; have hN : cfg0.N = 25 := N_0; omega⟩ : Fin 10000) j) := by
  unfold O7
  rw [stack2_top, PayloadAt.k0_pay4_at, P2_apply]
  refine Finset.sum_congr rfl fun k _ => ?_
  rw [iblk0_4_at, iblk0_5_at]
  congr 3
  refine Finset.sum_congr rfl fun q _ => ?_
  rw [iblk0_0_at, S1_at]

/-- The lower half: rows `400t + 200 … 400t + 399` of `P2`. -/
theorem O7_at_bot (c : Dev nD) (t : Fin cfg0.N) (r : Fin 200) (j : Fin 128) :
    O7 (S1 m c) (iblk0 m c 0 t) (iblk0 m c 1 t) (iblk0 m c 4 t) (iblk0 m c 5 t) (ix2 (⟨r.val + 200, by omega⟩ : Fin 400) j)
      = P2 m c (ix2 (⟨400 * t.val + 200 + r.val, by have := t.isLt; have hN : cfg0.N = 25 := N_0; omega⟩ : Fin 10000) j) := by
  unfold O7
  rw [stack2_bot, PayloadAt.k0_pay1_pay6_at, P2_apply]
  refine Finset.sum_congr rfl fun k _ => ?_
  rw [iblk0_4_at, iblk0_5_at]
  congr 3
  refine Finset.sum_congr rfl fun q _ => ?_
  rw [iblk0_1_at, S1_at]

/-- What point `t` writes back to the next layer's operand is its block of `P2`. -/
theorem flushed6_eq (c : Dev nD) (t : Fin cfg0.N) :
    (dat0 m c).flushed 6 t = ((cfg0.win 6).blk t).view.read (Elt Ideal) (P2 m c) := by
  show (cfg0.win 6).cut (grid0.coords t) ((dat0 m c).after 6 t) = _
  rw [after0_6]
  obtain ⟨-, -, -, -, -, -, -, -, -, -, -, -, e60, e61, -⟩ := idx_facts t
  have hN : cfg0.N = 25 := N_0
  have htN := t.isLt
  funext y
  have hy0 : (y 0).val < 400 := (y 0).isLt
  have hy1 : (y 1).val < 128 := (y 1).isLt
  show O7 (S1 m c) (iblk0 m c 0 t) (iblk0 m c 1 t) (iblk0 m c 4 t) (iblk0 m c 5 t) ((cfg0.win 6).xinj (grid0.coords t) y)
    = P2 m c (((cfg0.win 6).blk t).view.emb y)
  by_cases h : (y 0).val < 200
  · have ey : (cfg0.win 6).xinj (grid0.coords t) y
        = ix2 (⟨(⟨(y 0).val, h⟩ : Fin 200).val, by omega⟩ : Fin 400) (⟨(y 1).val, hy1⟩ : Fin 128) :=
      funext fun a => Fin.ext (by match a with | ⟨0, _⟩ => rfl | ⟨1, _⟩ => rfl)
    have ee : ((cfg0.win 6).blk t).view.emb y
        = ix2 (⟨400 * t.val + (⟨(y 0).val, h⟩ : Fin 200).val, by show 400 * t.val + (y 0).val < 10000; omega⟩ : Fin 10000) (⟨(y 1).val, hy1⟩ : Fin 128) :=
      funext fun a => Fin.ext (by
        match a with
        | ⟨0, _⟩ => show win0_6.index t (0 : Fin 2) * 400 + 1 * (y 0).val = 400 * t.val + (y 0).val; omega
        | ⟨1, _⟩ => show win0_6.index t (1 : Fin 2) * 128 + 1 * (y 1).val = (y 1).val; omega)
    rw [ey, ee]
    exact O7_at_top m c t ⟨(y 0).val, h⟩ ⟨(y 1).val, hy1⟩
  · have h2 : (y 0).val - 200 < 200 := by omega
    have ey : (cfg0.win 6).xinj (grid0.coords t) y
        = ix2 (⟨(⟨(y 0).val - 200, h2⟩ : Fin 200).val + 200, by show (y 0).val - 200 + 200 < 400; omega⟩ : Fin 400) (⟨(y 1).val, hy1⟩ : Fin 128) :=
      funext fun a => Fin.ext (by
        match a with
        | ⟨0, _⟩ => show (y 0).val = (y 0).val - 200 + 200; omega
        | ⟨1, _⟩ => rfl)
    have ee : ((cfg0.win 6).blk t).view.emb y
        = ix2 (⟨400 * t.val + 200 + (⟨(y 0).val - 200, h2⟩ : Fin 200).val, by show 400 * t.val + 200 + ((y 0).val - 200) < 10000; omega⟩ : Fin 10000) (⟨(y 1).val, hy1⟩ : Fin 128) :=
      funext fun a => Fin.ext (by
        match a with
        | ⟨0, _⟩ => show win0_6.index t (0 : Fin 2) * 400 + 1 * (y 0).val = 400 * t.val + 200 + ((y 0).val - 200); omega
        | ⟨1, _⟩ => show win0_6.index t (1 : Fin 2) * 128 + 1 * (y 1).val = (y 1).val; omega)
    rw [ey, ee]
    exact O7_at_bot m c t ⟨(y 0).val - 200, h2⟩ ⟨(y 1).val, hy1⟩

/-- An index of the operand is in point `t`'s block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v5_0).slice (win0_6.rect t)).set ↔ _
  rw [View.set_slice_whole, Rect.mem_set_unit]
  exact Iff.rfl

/-- Every row of the operand is in the block of the point that visits its row block. -/
theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  have ht : (i 0).val / 400 < cfg0.N := by rw [hN]; omega
  obtain ⟨-, -, -, -, -, -, -, -, -, -, -, -, e60, e61, -⟩ := idx_facts ⟨(i 0).val / 400, ht⟩
  refine ⟨⟨(i 0).val / 400, ht⟩, flush0_6 _, ?_⟩
  rw [mem_blk6]
  intro a
  match a with
  | ⟨0, _⟩ =>
    show win0_6.index ⟨(i 0).val / 400, ht⟩ (0 : Fin 2) * 400 ≤ (i 0).val
      ∧ (i 0).val < win0_6.index ⟨(i 0).val / 400, ht⟩ (0 : Fin 2) * 400 + 400
    rw [e60]
    show (i 0).val / 400 * 400 ≤ (i 0).val ∧ (i 0).val < (i 0).val / 400 * 400 + 400
    omega
  | ⟨1, _⟩ =>
    show win0_6.index ⟨(i 0).val / 400, ht⟩ (1 : Fin 2) * 128 ≤ (i 1).val
      ∧ (i 1).val < win0_6.index ⟨(i 0).val / 400, ht⟩ (1 : Fin 2) * 128 + 128
    rw [e61]
    omega

/-- The next layer's operand after the run. -/
theorem final6 (c : Dev nD) : (dat0 m c).arrAt 6 cfg0.N = P2 m c :=
  (dat0 m c).arrAt_eq_of_cover 6 (P2 m c) (fun t _ => flushed6_eq m c t) cover6

/-- The next layer's operand after the run, read at `(r, j)`. -/
theorem arr6_at (c : Dev nD) (r : Fin 10000) (j : Fin 128) :
    (dat0 m c).arrAt 6 cfg0.N (ix2 r j) = ∑ k : Fin 128, max ((∑ q : Fin 10000, argA m c (ix2 r q)
      * ∑ k' : Fin 128, argX m c (ix2 q k') * argW1 m c (ix2 k' k)) + argB1 m c (ix1 k)) 0 * argW2 m c (ix2 k j) := by
  rw [final6]
  rfl

end Cert.Final0
-- ==== Proof.RefSpec.lean ====
/- The reference as one function of its eight arguments, index by index: three graph-convolution
   layers `A · (h · W) + b`, with the rectifier `max · 0` after the first two, and the statement that the
   reference program's result is that function of its arguments at the ideal values. -/
import proofs.«175765_g50964081934784_cont_8to1c4_784_17_alg».proof.Proof.Gen.ReferenceIdeal.Read
import Idealize.ShloMosaic.PureOps.Ideal.Laws
import Idealize.ShloMosaic.Lib.ValueIdx

noncomputable section

open scoped BigOperators

namespace Cert.RefSpec

open Idealize.ShloMosaic Idealize.ShloMosaic.ValueIdx

/-! ## The specification -/

/-- One graph-convolution layer at `(r, j)`: row `r` of the adjacency matrix against column `j` of the
    projected features `h · W`, plus the bias at `j`. -/
def layer (A : (⟨2, ![10000, 10000]⟩ : Shape).Idx → EReal) (h : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => (∑ q : Fin 10000, A (ix2 (i 0) q) * ∑ k : Fin 128, h (ix2 q k) * W (ix2 k (i 1))) + b (ix1 (i 1))

theorem layer_apply (A : (⟨2, ![10000, 10000]⟩ : Shape).Idx → EReal) (h : (⟨2, ![10000, 128]⟩ : Shape).Idx → EReal)
    (W : (⟨2, ![128, 128]⟩ : Shape).Idx → EReal) (b : (⟨1, ![128]⟩ : Shape).Idx → EReal) (r : Fin 10000) (j : Fin 128) :
    layer A h W b (ix2 r j)
      = (∑ q : Fin 10000, A (ix2 r q) * ∑ k : Fin 128, h (ix2 q k) * W (ix2 k j)) + b (ix1 j) := rfl

/-- The rectifier, entry by entry. -/
def relu (h : (⟨2, ![10000, 128]⟩ : Shape).Idx → EReal) : (⟨2, ![10000, 128]⟩ : Shape).Idx → EReal :=
  fun i => max (h i) 0

theorem relu_apply (h : (⟨2, ![10000, 128]⟩ : Shape).Idx → EReal) (i : (⟨2, ![10000, 128]⟩ : Shape).Idx) :
    relu h i = max (h i) 0 := rfl

/-- The three layers: rectified after the first and the second, not after the last. -/
def G (x : (⟨2, ![10000, 128]⟩ : Shape).Idx → EReal) (A : (⟨2, ![10000, 10000]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal) :
    (⟨2, ![10000, 128]⟩ : Shape).Idx → EReal :=
  layer A (relu (layer A (relu (layer A x W1 b1)) W2 b2)) W3 b3

/-! ## The reference program's stages are the specification's -/

open Cert.ReferenceIdeal Cert.ReferenceIdeal.Gen Cert.ReferenceIdeal.Read

/-- The reference's first layer before the rectifier (two products, the bias broadcast, the sum), for any
    input features, is `layer`. -/
theorem stage_layer (h : (⟨S10000x128, .f32⟩ : BufTy).Contents (Elt Ideal)) (A : (⟨S10000x10000, .f32⟩ : BufTy).Contents (Elt Ideal))
    (W : (⟨S128x128, .f32⟩ : BufTy).Contents (Elt Ideal)) (b : (⟨S128, .f32⟩ : BufTy).Contents (Elt Ideal)) :
    val_main_v4 (F := Ideal) h A W b = layer A h W b := by
  funext i
  obtain ⟨r, j, rfl⟩ : ∃ (r : Fin 10000) (j : Fin 128), i = ix2 r j := ⟨i 0, i 1, eq_ix2 i⟩
  have e1 : ∀ q : Fin 10000, lidx_main_v1 (ix2 r j) q = ix2 r q := fun q => funext fun a => Fin.ext (by match a with | ⟨0, _⟩ => rfl | ⟨1, _⟩ => rfl)
  have e2 : ∀ q : Fin 10000, ridx_main_v1 (ix2 r j) q = ix2 q j := fun q => funext fun a => Fin.ext (by match a with | ⟨0, _⟩ => rfl | ⟨1, _⟩ => rfl)
  have e3 : ∀ (q : Fin 10000) (k : Fin 128), lidx_main_v0 (ix2 q j) k = ix2 q k := fun q k => funext fun a => Fin.ext (by match a with | ⟨0, _⟩ => rfl | ⟨1, _⟩ => rfl)
  have e4 : ∀ (q : Fin 10000) (k : Fin 128), ridx_main_v0 (ix2 q j) k = ix2 k j := fun q k => funext fun a => Fin.ext (by match a with | ⟨0, _⟩ => rfl | ⟨1, _⟩ => rfl)
  have e5 : idx_main_v2 (idx_main_v3 (ix2 r j)) = ix1 j := funext fun a => Fin.ext (by match a with | ⟨0, _⟩ => rfl)
  rw [val_main_v4_apply, val_main_v1_apply, val_main_v3_apply, val_main_v2_apply, Ideal.addf_def]
  simp only [e1, e2, val_main_v0_apply, e3, e4, e5]
  rfl

/-- The reference's rectifier (a maximum with a broadcast zero constant) is `relu`. -/
theorem stage_relu (y : (⟨S10000x128, .f32⟩ : BufTy).Contents (Elt Ideal)) :
    maximumf (F := Ideal) (s := S10000x128) (φ := .f32) y (val_main_call0_v0 (F := Ideal)) = relu y := by
  funext i
  rw [maximumf_apply, val_main_call0_v0_apply, val_main_call0_cst_apply, Ideal.ofBits_def, Ideal.ofBits_zero_f32]
  rfl

/-- The reference program's result is `G` of its eight arguments. -/
theorem reference_eq_G (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v16 (F := Ideal) x0 x1 x2 x3 x4 x5 x6 x7 = G x0 x1 x2 x3 x4 x5 x6 x7 := by
  have h5 : val_main_v5 (F := Ideal) x0 x1 x2 x3 = relu (layer x1 x0 x2 x3) := by
    show maximumf (F := Ideal) (s := S10000x128) (φ := .f32) (val_main_v4 (F := Ideal) x0 x1 x2 x3) (val_main_call0_v0 (F := Ideal)) = _
    rw [stage_layer, stage_relu]
  have h11 : val_main_v11 (F := Ideal) x0 x1 x2 x3 x4 x5 = relu (layer x1 (relu (layer x1 x0 x2 x3)) x4 x5) := by
    show maximumf (F := Ideal) (s := S10000x128) (φ := .f32) (val_main_v4 (F := Ideal) (val_main_v5 (F := Ideal) x0 x1 x2 x3) x1 x4 x5) (val_main_call0_v0 (F := Ideal)) = _
    rw [h5, stage_layer, stage_relu]
  show val_main_v4 (F := Ideal) (val_main_v11 (F := Ideal) x0 x1 x2 x3 x4 x5) x1 x6 x7 = _
  rw [h11, stage_layer]
  rfl

end Cert.RefSpec
-- ==== Proof.Final1.lean ====
/-
  What the result array holds after the second kernel's write-backs.

  The output window visits block 25 of the [10400,128] result array throughout the first phase and block t − 25 at
  point t of the second phase, and every second-phase point writes its block back. What such a point leaves in the
  window's buffer is the block computed from p3 and the point's adjacency rows. Distinct second-phase points write
  distinct blocks, so after the write-backs below n an element of the block of a second-phase point t < n holds what
  point t left: a later second-phase point's block does not contain it, and the write-back that ends the first phase
  (block 25) comes before every second-phase point. Row r < 10000 of the array is row r mod 400 of the block of point
  25 + r / 400.
-/
import proofs.«175765_g50964081934784_cont_8to1c4_784_17_alg».proof.Proof.Data1
import Idealize.ShloMosaic.Lib.Pipeline.Value
import Idealize.ShloMosaic.Lib.Pipeline.Cells

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

variable (m : (ℓ : Loc nD τ sig) → Buf (Elt F) ℓ)

/-! ## The output window over the 50 points -/

/-- Every point of the second phase writes the output window's block back. -/
theorem flush1_6 : ∀ t : Fin cfg1.N, 25 ≤ t.val → (cfg1.win 6).flush t = true :=
  (by decide +kernel : ∀ t : Fin grid1.N, 25 ≤ t.val → win1_6.flush t = true)

/-- At point `t` of the second phase the output window is on block `t − 25` of the rows, block 0 of the columns. -/
theorem index1_6 : ∀ t : Fin cfg1.N, 25 ≤ t.val →
    win1_6.index t (0 : Fin 2) = t.val - 25 ∧ win1_6.index t (1 : Fin 2) = 0 :=
  (by decide +kernel : ∀ t : Fin grid1.N, 25 ≤ t.val →
    win1_6.index t (0 : Fin 2) = t.val - 25 ∧ win1_6.index t (1 : Fin 2) = 0)

/-- An index of the array is in point `t`'s block iff each coordinate is in the block's range on its axis. -/
theorem mem_blk1_6 (t : Fin cfg1.N) (i : S10400x128.Idx) :
    i ∈ ((cfg1.win 6).blk t).view.set ↔ ∀ a : Fin 2, win1_6.index t a * S400x128.size a ≤ (i a).val
      ∧ (i a).val < win1_6.index t a * S400x128.size a + S400x128.size a := by
  show i ∈ ((View.whole main_v7).slice (win1_6.rect t)).set ↔ _
  rw [View.set_slice_whole, Rect.mem_set_unit]
  exact Iff.rfl

/-- An element of the block of a second-phase point is in no later second-phase point's block. -/
theorem not_mem_later (t u : Fin cfg1.N) (ht : 25 ≤ t.val) (htu : t.val < u.val)
    (y : ((cfg1.win 6).xblock (cfg1.grid.coords t)).Idx) :
    ((cfg1.win 6).blk t).view.emb y ∉ ((cfg1.win 6).blk u).view.setOn Finset.univ := by
  rw [View.setOn_univ, mem_blk1_6]
  intro hall
  obtain ⟨et, -⟩ := index1_6 t ht
  obtain ⟨eu, -⟩ := index1_6 u (by omega)
  have h0 : win1_6.index u (0 : Fin 2) * 400 ≤ win1_6.index t (0 : Fin 2) * 400 + 1 * (y 0).val := (hall 0).1
  have hy : (y 0).val < 400 := (y 0).isLt
  omega

/-! ## The array after the write-backs -/

/-- AFTER THE WRITE-BACKS BELOW `n`, an element of the block of a second-phase point `t < n` holds what the second
    phase computes at `t`. -/
theorem arrAt1_6_block (c : Dev nD) :
    ∀ (n : ℕ), n ≤ cfg1.N → ∀ (G : Buf (Elt F) ((cfg1.win 6).arr.view.loc (c : Thread nD τ))), (rd1 m c).ArrAt 6 n G →
      ∀ (t : Fin cfg1.N), 25 ≤ t.val → t.val < n → ∀ y : ((cfg1.win 6).xblock (cfg1.grid.coords t)).Idx,
        G (((cfg1.win 6).blk t).view.emb y) = O8 (P3 m c) (iblk1 m c 0 t) (iblk1 m c 1 t) (iblk1 m c 5 t) y
  | 0, _, _, _, _, _, ht, _ => absurd ht (Nat.not_lt_zero _)
  | n + 1, hnN, G, hG, t, h25, ht, y => by
    have hn : n < cfg1.N := hnN
    have hn25 : 25 ≤ n := by omega
    rw [show n + 1 = (⟨n, hn⟩ : Fin cfg1.N).val + 1 from rfl, (rd1 m c).ArrAt_succ 6 ⟨n, hn⟩,
      if_pos (flush1_6 ⟨n, hn⟩ hn25)] at hG
    obtain ⟨G₀, X, hG₀, ⟨Y, -, haft⟩, rfl⟩ := hG
    have hX := (after1_6 m c ⟨n, hn⟩ Y X).mp haft
    rw [if_pos (show 25 ≤ (⟨n, hn⟩ : Fin cfg1.N).val from hn25)] at hX
    by_cases htn : t.val = n
    · have e : t = ⟨n, hn⟩ := Fin.ext htn
      subst e
      rw [View.write_emb_of_mem _ _ (Finset.mem_univ y)]
      show X y = _
      rw [hX]
    · rw [View.write_of_not_mem _ _ _ (not_mem_later t ⟨n, hn⟩ h25 (by show t.val < n; omega) y)]
      exact arrAt1_6_block c n (Nat.le_of_lt hn) G₀ hG₀ t h25 (by omega) y

/-- The second-phase point whose block holds row `r` of the result. -/
def tr (r : Fin 10000) : Fin cfg1.N := ⟨25 + r.val / 400, by have : cfg1.N = 50 := N_1; have := r.isLt; omega⟩

/-- THE RESULT, ROW BY ROW: after every write-back, row `r < 10000`, column `j` of the result array is row `r mod 400`,
    column `j` of the block the second phase computes at the point of row block `r / 400`. -/
theorem arrAt1_6_at (c : Dev nD) (F7 : Buf (Elt F) ((cfg1.win 6).arr.view.loc (c : Thread nD τ)))
    (h : (rd1 m c).ArrAt 6 cfg1.N F7) (r : Fin 10000) (j : Fin 128) :
    F7 (ix2 (⟨r.val, by have := r.isLt; omega⟩ : Fin 10400) j)
      = O8 (P3 m c) (iblk1 m c 0 (tr r)) (iblk1 m c 1 (tr r)) (iblk1 m c 5 (tr r))
          (ix2 (⟨r.val % 400, Nat.mod_lt _ (by norm_num)⟩ : Fin 400) j) := by
  have h25 : 25 ≤ (tr r).val := Nat.le_add_right _ _
  have key := arrAt1_6_block m c cfg1.N (Nat.le_refl _) F7 h (tr r) h25 (tr r).isLt
    (ix2 (⟨r.val % 400, Nat.mod_lt _ (by norm_num)⟩ : Fin 400) j)
  rw [← key]
  congr 1
  obtain ⟨e0, e1⟩ := index1_6 (tr r) h25
  funext a; apply Fin.ext
  match a with
  | ⟨0, _⟩ =>
    show r.val = win1_6.index (tr r) (0 : Fin 2) * 400 + 1 * (r.val % 400)
    rw [e0]; show r.val = (25 + r.val / 400 - 25) * 400 + 1 * (r.val % 400); omega
  | ⟨1, _⟩ =>
    show j.val = win1_6.index (tr r) (1 : Fin 2) * 128 + 1 * j.val
    rw [e1]; omega

end Cert.KernelIdeal.Hand

end
-- ==== Proof.Bridge.lean ====
/- The second kernel at the ideal values and the composition: each of the second kernel's input blocks at an
   index in terms of the arguments, the carried third-layer operand p3 = relu(A·p2 + b2)·W3 at an index, and the
   kernel's result as the three-layer function of the eight arguments. -/
import proofs.«175765_g50964081934784_cont_8to1c4_784_17_alg».proof.Proof.Final0
import proofs.«175765_g50964081934784_cont_8to1c4_784_17_alg».proof.Proof.Obl1
import proofs.«175765_g50964081934784_cont_8to1c4_784_17_alg».proof.Proof.RefSpec
import proofs.«175765_g50964081934784_cont_8to1c4_784_17_alg».proof.Proof.PayloadAt
import proofs.«175765_g50964081934784_cont_8to1c4_784_17_alg».proof.Proof.Final1
import proofs.«175765_g50964081934784_cont_8to1c4_784_17_alg».proof.Proof.Seg1

noncomputable section

open scoped BigOperators

namespace Cert.Bridge

open Idealize.ShloMosaic Idealize.ShloMosaic.TcCoe Idealize.SL.Sem Idealize.ShloMosaic.ValueIdx
open Idealize.ShloMosaic.Pipeline (Dat RDat Window)
open Cert.KernelIdeal Cert.KernelIdeal.Gen Cert.KernelIdeal.Hand Cert.Final0

variable (m : (ℓ : Loc nD τ sig) → Buf (Elt Ideal) ℓ)

/-! ## The remaining arguments, as arrays of extended reals -/

/-- The second layer's bias. -/
abbrev argB2 (c : Dev nD) : S128.Idx → EReal := m ((c : Thread nD τ).loc main_arg5)
/-- The third layer's weights. -/
abbrev argW3 (c : Dev nD) : S128x128.Idx → EReal := m ((c : Thread nD τ).loc main_arg6)
/-- The third layer's bias. -/
abbrev argB3 (c : Dev nD) : S128.Idx → EReal := m ((c : Thread nD τ).loc main_arg7)

/-! ## The second kernel's index maps at every grid point -/

/-- At point `t` (phase `t / 25`, row block `t mod 25`): the two adjacency windows are at block row `t mod 25` of
    the two narrowed copies, the four whole-array windows at block `(0, 0)`. -/
theorem idx_facts1 : ∀ t : Fin cfg1.N,
    win1_0.index t (0 : Fin 2) = t.val % 25 ∧ win1_0.index t (1 : Fin 2) = 0
    ∧ win1_1.index t (0 : Fin 2) = t.val % 25 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## The arrays as the second kernel finds them -/

/-- The first narrowed copy of the adjacency matrix, as the first kernel left it. -/
theorem Vb_v5_1 (c : Dev nD) : Vb m c main_v5_1 = A7 m c := by
  refine (V3_of m (outs0 m) c main_v5_1 (by decide)).trans ?_
  simp only [Gen.V2, Function.update_of_ne (StableHlo.devRef_ne_of_ne (by decide) : (Proc.devRef .tc main_v5_1 : DevRef τ sig) ≠ Proc.devRef .tc main_v5_2),
    Function.update_self]
  exact (outs0_v5_1 m 2 c).trans (final7 m c)

/-- The second narrowed copy. -/
theorem Vb_v5_2 (c : Dev nD) : Vb m c main_v5_2 = A8 m c := by
  refine (V3_of m (outs0 m) c main_v5_2 (by decide)).trans ?_
  simp only [Gen.V2, Function.update_self]
  exact (outs0_v5_2 m 2 c).trans (final8 m c)

/-- The second layer's operand, as the first kernel left it. -/
theorem Vb_v5_0 (c : Dev nD) : Vb m c main_v5_0 = P2 m c := by
  refine (V3_of m (outs0 m) c main_v5_0 (by decide)).trans ?_
  simp only [Gen.V2, Function.update_of_ne (StableHlo.devRef_ne_of_ne (by decide) : (Proc.devRef .tc main_v5_0 : DevRef τ sig) ≠ Proc.devRef .tc main_v5_2),
    Function.update_of_ne (StableHlo.devRef_ne_of_ne (by decide) : (Proc.devRef .tc main_v5_0 : DevRef τ sig) ≠ Proc.devRef .tc main_v5_1), Function.update_self]
  exact (outs0_v5_0 m 2 c).trans (final6 m c)

/-- The third layer's weights, narrowed: at the ideal values the weights themselves. -/
theorem Vb_v6 (c : Dev nD) :
    (Vb m c main_v6 : S128x128.Idx → Elt Ideal .bf16) = argW3 m c := by
  show StableHlo.after hostOps1 (Gen.V2 m (outs0 m) c) (Proc.devRef .tc main_v6) = _
  after_results
  rw [V2_of m (outs0 m) c main_arg6 (by decide), V1_of m c main_arg6 (by decide)]
  rfl

/-- The second layer's bias as a one-row matrix. -/
theorem Vb_v1 (c : Dev nD) (u : Fin 1) (k : Fin 128) :
    (Vb m c main_v1 : S1x128.Idx → Elt Ideal .f32) (ix2 u k) = argB2 m c (ix1 k) := by
  have h : (Vb m c main_v1 : S1x128.Idx → Elt Ideal .f32)
      = shapeCast S1x128 (m ((c : Thread nD τ).loc main_arg5) : S128.Idx → Elt Ideal .f32) shapeCasts_S128_S1x128 := by
    refine ((V3_of m (outs0 m) c main_v1 (by decide)).trans (V2_of m (outs0 m) c main_v1 (by decide))).trans ?_
    show StableHlo.after hostOps0 (V0 m c) (Proc.devRef .tc main_v1) = _
    after_results
    rfl
  rw [h]
  exact shapeCast_a_1a_apply _ _ u k

/-- The third layer's bias as a one-row matrix. -/
theorem Vb_v2 (c : Dev nD) (u : Fin 1) (k : Fin 128) :
    (Vb m c main_v2 : S1x128.Idx → Elt Ideal .f32) (ix2 u k) = argB3 m c (ix1 k) := by
  have h : (Vb m c main_v2 : S1x128.Idx → Elt Ideal .f32)
      = shapeCast S1x128 (m ((c : Thread nD τ).loc main_arg7) : S128.Idx → Elt Ideal .f32) shapeCasts_S128_S1x128 := by
    refine ((V3_of m (outs0 m) c main_v2 (by decide)).trans (V2_of m (outs0 m) c main_v2 (by decide))).trans ?_
    show StableHlo.after hostOps0 (V0 m c) (Proc.devRef .tc main_v2) = _
    after_results
    rfl
  rw [h]
  exact shapeCast_a_1a_apply _ _ u k

/-! ## The second kernel's input blocks at an index -/

/-- Rows `400b … 400b + 199` of the adjacency matrix, `b = t mod 25` (through the first narrowed copy). -/
theorem iblk1_0_at (c : Dev nD) (t : Fin cfg1.N) (r : Fin 200) (k : Fin 10000) :
    iblk1 m c 0 t (ix2 r k) = argA m c
      (ix2 (⟨400 * (t.val % 25) + r.val, by omega⟩ : Fin 10000) k) := by
  obtain ⟨e00, e01, -⟩ := idx_facts1 t
  show Vb m c main_v5_1 (((cfg1.win 0).blk t).view.emb (ix2 r k)) = _
  rw [Vb_v5_1]
  unfold A7
  exact congrArg (m ((c : Thread nD τ).loc main_arg1)) (funext fun a => Fin.ext (by
    match a with
    | ⟨0, _⟩ =>
      show 400 * ((win1_0.index t (0 : Fin 2) * 200 + 1 * r.val) / 200) + (win1_0.index t (0 : Fin 2) * 200 + 1 * r.val) % 200
        = 400 * (t.val % 25) + r.val
      omega
    | ⟨1, _⟩ => show win1_0.index t (1 : Fin 2) * 10000 + 1 * k.val = k.val; omega))

/-- Rows `400b + 200 … 400b + 399` of the adjacency matrix, `b = t mod 25` (through the second narrowed copy). -/
theorem iblk1_1_at (c : Dev nD) (t : Fin cfg1.N) (r : Fin 200) (k : Fin 10000) :
    iblk1 m c 1 t (ix2 r k) = argA m c
      (ix2 (⟨400 * (t.val % 25) + 200 + r.val, by omega⟩ : Fin 10000) k) := by
  obtain ⟨-, -, e10, e11, -⟩ := idx_facts1 t
  show Vb m c main_v5_2 (((cfg1.win 1).blk t).view.emb (ix2 r k)) = _
  rw [Vb_v5_2]
  unfold A8
  exact congrArg (m ((c : Thread nD τ).loc main_arg1)) (funext fun a => Fin.ext (by
    match a with
    | ⟨0, _⟩ =>
      show 400 * ((win1_1.index t (0 : Fin 2) * 200 + 1 * r.val) / 200) + 200 + (win1_1.index t (0 : Fin 2) * 200 + 1 * r.val) % 200
        = 400 * (t.val % 25) + 200 + r.val
      omega
    | ⟨1, _⟩ => show win1_1.index t (1 : Fin 2) * 10000 + 1 * k.val = k.val; omega))

/-- The second layer's operand, whole. -/
theorem iblk1_2_at (c : Dev nD) (t : Fin cfg1.N) (q : Fin 10000) (k : Fin 128) :
    iblk1 m c 2 t (ix2 q k) = P2 m c (ix2 q k) := by
  obtain ⟨-, -, -, -, e20, e21, -⟩ := idx_facts1 t
  show Vb m c main_v5_0 (((cfg1.win 2).blk t).view.emb (ix2 q k)) = _
  rw [Vb_v5_0]
  exact congrArg (P2 m c) (funext fun a => Fin.ext (by
    match a with
    | ⟨0, _⟩ => show win1_2.index t (0 : Fin 2) * 10000 + 1 * q.val = q.val; omega
    | ⟨1, _⟩ => show win1_2.index t (1 : Fin 2) * 128 + 1 * k.val = k.val; omega))

/-- The second layer's bias, as a row. -/
theorem iblk1_3_at (c : Dev nD) (t : Fin cfg1.N) (k : Fin 128) :
    iblk1 m c 3 t (ix2 (0 : Fin 1) k) = argB2 m c (ix1 k) := by
  obtain ⟨-, -, -, -, -, -, e30, e31, -⟩ := idx_facts1 t
  show (Vb m c main_v1 : S1x128.Idx → Elt Ideal .f32) (((cfg1.win 3).blk t).view.emb (ix2 (0 : Fin 1) k)) = _
  refine Eq.trans ?_ (Vb_v1 m c (0 : Fin 1) k)
  exact congrArg (Vb m c main_v1 : S1x128.Idx → Elt Ideal .f32) (funext fun a => Fin.ext (by
    match a with
    | ⟨0, _⟩ => show win1_3.index t (0 : Fin 2) * 1 + 1 * 0 = 0; omega
    | ⟨1, _⟩ => show win1_3.index t (1 : Fin 2) * 128 + 1 * k.val = k.val; omega))

/-- The third layer's weights, whole. -/
theorem iblk1_4_at (c : Dev nD) (t : Fin cfg1.N) (k : Fin 128) (j : Fin 128) :
    iblk1 m c 4 t (ix2 k j) = argW3 m c (ix2 k j) := by
  obtain ⟨-, -, -, -, -, -, -, -, e40, e41, -⟩ := idx_facts1 t
  show (Vb m c main_v6 : S128x128.Idx → Elt Ideal .bf16) (((cfg1.win 4).blk t).view.emb (ix2 k j)) = _
  rw [Vb_v6]
  exact congrArg (m ((c : Thread nD τ).loc main_arg6)) (funext fun a => Fin.ext (by
    match a with
    | ⟨0, _⟩ => show win1_4.index t (0 : Fin 2) * 128 + 1 * k.val = k.val; omega
    | ⟨1, _⟩ => show win1_4.index t (1 : Fin 2) * 128 + 1 * j.val = j.val; omega))

/-- The third layer's bias, as a row. -/
theorem iblk1_5_at (c : Dev nD) (t : Fin cfg1.N) (j : Fin 128) :
    iblk1 m c 5 t (ix2 (0 : Fin 1) j) = argB3 m c (ix1 j) := by
  obtain ⟨-, -, -, -, -, -, -, -, -, -, e50, e51⟩ := idx_facts1 t
  show (Vb m c main_v2 : S1x128.Idx → Elt Ideal .f32) (((cfg1.win 5).blk t).view.emb (ix2 (0 : Fin 1) j)) = _
  refine Eq.trans ?_ (Vb_v2 m c (0 : Fin 1) j)
  exact congrArg (Vb m c main_v2 : S1x128.Idx → Elt Ideal .f32) (funext fun a => Fin.ext (by
    match a with
    | ⟨0, _⟩ => show win1_5.index t (0 : Fin 2) * 1 + 1 * 0 = 0; omega
    | ⟨1, _⟩ => show win1_5.index t (1 : Fin 2) * 128 + 1 * j.val = j.val; omega))

/-! ## The third layer's operand at an index -/

/-- `p3 = relu(A · p2 + b2) · W3` at `(r, j)`. -/
theorem P3_at (c : Dev nD) (r : Fin 10000) (j : Fin 128) :
    P3 m c (ix2 r j) = ∑ k : Fin 128, max ((∑ q : Fin 10000, argA m c (ix2 r q) * P2 m c (ix2 q k)) + argB2 m c (ix1 k)) 0 * argW3 m c (ix2 k j) := by
  have hb : r.val / 400 < 25 := by omega
  rw [P3_block m c (tb (r.val / 400) hb) hb r j rfl]
  by_cases h : r.val % 400 < 200
  · have hrow : (⟨400 * ((tb (r.val / 400) hb).val % 25) + (⟨r.val % 400, h⟩ : Fin 200).val, by omega⟩ : Fin 10000) = r :=
      Fin.ext (by show 400 * (r.val / 400 % 25) + r.val % 400 = r.val; omega)
    refine (stack2_top _ _ (⟨r.val % 400, h⟩ : Fin 200) j).trans ?_
    rw [PayloadAt.k1_pay4_at]
    refine Finset.sum_congr rfl fun k _ => ?_
    rw [iblk1_3_at, iblk1_4_at]
    refine congrArg (fun s => max (s + argB2 m c (ix1 k)) 0 * argW3 m c (ix2 k j)) (Finset.sum_congr rfl fun q _ => ?_)
    rw [iblk1_0_at, iblk1_2_at, hrow]
  · have h2 : r.val % 400 - 200 < 200 := by omega
    have hrow : (⟨400 * ((tb (r.val / 400) hb).val % 25) + 200 + (⟨r.val % 400 - 200, h2⟩ : Fin 200).val, by omega⟩ : Fin 10000) = r :=
      Fin.ext (by show 400 * (r.val / 400 % 25) + 200 + (r.val % 400 - 200) = r.val; omega)
    have e : (ix2 (⟨r.val % 400, Nat.mod_lt _ (by norm_num)⟩ : Fin 400) j : S400x128.Idx)
        = ix2 (⟨(⟨r.val % 400 - 200, h2⟩ : Fin 200).val + 200, by show r.val % 400 - 200 + 200 < 400; omega⟩ : Fin 400) j :=
      congrArg (fun a : Fin 400 => (ix2 a j : S400x128.Idx)) (Fin.ext (show r.val % 400 = r.val % 400 - 200 + 200 by omega))
    rw [e]
    refine (stack2_bot _ _ (⟨r.val % 400 - 200, h2⟩ : Fin 200) j).trans ?_
    rw [PayloadAt.k1_pay1_pay5_at]
    refine Finset.sum_congr rfl fun k _ => ?_
    rw [iblk1_3_at, iblk1_4_at]
    refine congrArg (fun s => max (s + argB2 m c (ix1 k)) 0 * argW3 m c (ix2 k j)) (Finset.sum_congr rfl fun q _ => ?_)
    rw [iblk1_1_at, iblk1_2_at, hrow]

/-! ## The second phase's output block at an index -/

/-- Row `r mod 400` of the block the second phase computes at the point of row block `r / 400` is row `r` of
    `A · p3 + b3`. -/
theorem O8_at (c : Dev nD) (r : Fin 10000) (j : Fin 128) :
    O8 (P3 m c) (iblk1 m c 0 (tr r)) (iblk1 m c 1 (tr r)) (iblk1 m c 5 (tr r))
        (ix2 (⟨r.val % 400, Nat.mod_lt _ (by norm_num)⟩ : Fin 400) j)
      = (∑ q : Fin 10000, argA m c (ix2 r q) * P3 m c (ix2 q j)) + argB3 m c (ix1 j) := by
  unfold O8
  by_cases h : r.val % 400 < 200
  · have hrow : (⟨400 * ((tr r).val % 25) + (⟨r.val % 400, h⟩ : Fin 200).val, by omega⟩ : Fin 10000) = r :=
      Fin.ext (by show 400 * ((25 + r.val / 400) % 25) + r.val % 400 = r.val; omega)
    refine (stack2_top _ _ (⟨r.val % 400, h⟩ : Fin 200) j).trans ?_
    rw [PayloadAt.k1_pay2_at, iblk1_5_at]
    refine congrArg (fun s => s + argB3 m c (ix1 j)) (Finset.sum_congr rfl fun q _ => ?_)
    rw [iblk1_0_at, hrow]
  · have h2 : r.val % 400 - 200 < 200 := by omega
    have hrow : (⟨400 * ((tr r).val % 25) + 200 + (⟨r.val % 400 - 200, h2⟩ : Fin 200).val, by omega⟩ : Fin 10000) = r :=
      Fin.ext (by show 400 * ((25 + r.val / 400) % 25) + 200 + (r.val % 400 - 200) = r.val; omega)
    have e : (ix2 (⟨r.val % 400, Nat.mod_lt _ (by norm_num)⟩ : Fin 400) j : S400x128.Idx)
        = ix2 (⟨(⟨r.val % 400 - 200, h2⟩ : Fin 200).val + 200, by show r.val % 400 - 200 + 200 < 400; omega⟩ : Fin 400) j :=
      congrArg (fun a : Fin 400 => (ix2 a j : S400x128.Idx)) (Fin.ext (show r.val % 400 = r.val % 400 - 200 + 200 by omega))
    rw [e]
    refine (stack2_bot _ _ (⟨r.val % 400 - 200, h2⟩ : Fin 200) j).trans ?_
    rw [PayloadAt.k1_pay3_at, iblk1_5_at]
    refine congrArg (fun s => s + argB3 m c (ix1 j)) (Finset.sum_congr rfl fun q _ => ?_)
    rw [iblk1_1_at, hrow]

/-! ## The kernel's result is the three-layer function of its arguments -/

/-- Whatever the result array may hold after the second kernel's write-backs, its first 10000 rows are
    `A · (relu(A · (relu(A · (x · W1) + b1) · W2) + b2) · W3) + b3`: the reference's function, nested the same way. -/
theorem result_eq_G (c : Dev nD) (F7 : Buf (Elt Ideal) ((cfg1.win 6).arr.view.loc (c : Thread nD τ)))
    (h : (rd1 m c).ArrAt 6 cfg1.N F7) :
    (extractStridedSlice S10000x128 ![0, 0] (F7 : S10400x128.Idx → Elt Ideal .f32) slices_S10400x128_S10000x128_0_0
        : S10000x128.Idx → Elt Ideal .f32)
      = Cert.RefSpec.G (argX m c) (argA m c) (argW1 m c) (argB1 m c) (argW2 m c) (argB2 m c) (argW3 m c) (argB3 m c) := by
  funext i
  obtain ⟨r, j, rfl⟩ : ∃ (r : Fin 10000) (j : Fin 128), i = ix2 r j := ⟨i 0, i 1, eq_ix2 i⟩
  rw [slice2_axis0_apply 0 _ _ r j (⟨r.val, by omega⟩ : Fin 10400) (Nat.zero_add _).symm]
  rw [arrAt1_6_at m c F7 h r j, O8_at]
  unfold Cert.RefSpec.G
  rw [Cert.RefSpec.layer_apply]
  refine congrArg (fun s => s + argB3 m c (ix1 j)) (Finset.sum_congr rfl fun q _ => ?_)
  rw [P3_at]
  refine congrArg (fun s => argA m c (ix2 r q) * s) (Finset.sum_congr rfl fun k _ => ?_)
  rw [Cert.RefSpec.relu_apply, Cert.RefSpec.layer_apply]
  refine congrArg (fun s => max (s + argB2 m c (ix1 k)) 0 * argW3 m c (ix2 k j)) (Finset.sum_congr rfl fun q' _ => ?_)
  rw [P2_apply]
  refine congrArg (fun s => argA m c (ix2 q q') * s) (Finset.sum_congr rfl fun k' _ => ?_)
  rw [Cert.RefSpec.relu_apply, Cert.RefSpec.layer_apply]

/-- The kernel's result: after the last host operation (the first 10000 rows of the second kernel's result array),
    the result buffer holds the reference's function of the eight arguments. -/
theorem result_eq (o : Cert.KernelIdeal.Hand.Outs7 m) (c : Dev nD) :
    (StableHlo.after hostOps2 (Cert.KernelIdeal.Hand.V4 m o c) main_v8 : S10000x128.Idx → EReal)
      = Cert.RefSpec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  have h : (rd1 m c).ArrAt 6 cfg1.N (o.1 c) := o.2 c
  show StableHlo.after hostOps2 (Cert.KernelIdeal.Hand.V4 m o c) (Proc.devRef .tc main_v8) = _
  after_results
  rw [Cert.KernelIdeal.Hand.V4_v7]
  exact result_eq_G m c (o.1 c) h

end Cert.Bridge
-- ==== Proof.lean ====
/-
  The certificate of the 3-layer graph convolution: out = A·(relu(A·(relu(A·(x·W1) + b1)·W2) + b2)·W3) + b3.

  The kernel computes it in two pipelined kernels over 25 row blocks of 400 rows. The first computes p1 = x·W1 once
  (carried in a scratch buffer), then per row block the next layer's operand p2 = relu(A·p1 + b1)·W2, and writes the
  adjacency matrix out again in the narrower format, as two arrays of 200-row halves. The second runs two phases: per
  row block p3 = relu(A·p2 + b2)·W3 into a scratch buffer, then per row block the result A·p3 + b3. The reference computes
  the same nesting with whole-matrix products. Over the extended reals a change of float format is the identity, each
  kernel matrix product is the reference's sum over the same index, row block by row block, and the nesting of the
  three layers is the same on both sides; so the two results are one function of the arguments, entry by entry.

  The three frames: both kernel programs run through the same chain of program items (host operations, first kernel,
  host operation, second kernel, host operation), each item entered from the buffers the one before it left; the
  reference's frame is its run with the result dropped. The kernel's result is read off the same run: the result buffer
  is the slice of what the second kernel's write-backs leave, whose first 10000 rows are determined.
-/
import proofs.«175765_g50964081934784_cont_8to1c4_784_17_alg».proof.Defs
import proofs.«175765_g50964081934784_cont_8to1c4_784_17_alg».proof.Proof.Gen.Kernel
import proofs.«175765_g50964081934784_cont_8to1c4_784_17_alg».proof.Proof.Gen.KernelIdeal
import proofs.«175765_g50964081934784_cont_8to1c4_784_17_alg».proof.Proof.Gen.ReferenceIdeal
import proofs.«175765_g50964081934784_cont_8to1c4_784_17_alg».proof.Proof.Gen.Pre_finite_inputs
import proofs.«175765_g50964081934784_cont_8to1c4_784_17_alg».proof.Proof.Gen.ReferenceIdeal.Run
import proofs.«175765_g50964081934784_cont_8to1c4_784_17_alg».proof.Proof.Gen.ReferenceIdeal.Read
import proofs.«175765_g50964081934784_cont_8to1c4_784_17_alg».proof.Proof.Run
import proofs.«175765_g50964081934784_cont_8to1c4_784_17_alg».proof.Proof.Obl0
import proofs.«175765_g50964081934784_cont_8to1c4_784_17_alg».proof.Proof.Obl1
import proofs.«175765_g50964081934784_cont_8to1c4_784_17_alg».proof.Proof.K.Run
import proofs.«175765_g50964081934784_cont_8to1c4_784_17_alg».proof.Proof.K.Obl0
import proofs.«175765_g50964081934784_cont_8to1c4_784_17_alg».proof.Proof.K.Obl1
import proofs.«175765_g50964081934784_cont_8to1c4_784_17_alg».proof.Proof.Bridge
import proofs.«175765_g50964081934784_cont_8to1c4_784_17_alg».proof.Proof.RefSpec
import Idealize.ShloMosaic.Adequacy
import Idealize.ShloMosaic.Init

noncomputable section

namespace Cert.Proof

open Idealize.ShloMosaic Idealize.SL.Sem

/-- The word-level kernel program runs, faults nowhere, and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2)
    (Cert.Kernel.Hand.run_main (F := Bits) m ρ (Cert.Kernel.Hand.body_obligation0 m) (Cert.Kernel.Hand.body_obligation1 m))

/-- The idealized kernel program runs, faults nowhere, and leaves its arguments as launched. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2)
    (Cert.KernelIdeal.Hand.run_main (F := Ideal) m ρ (Cert.KernelIdeal.Hand.body_obligation0 m) (Cert.KernelIdeal.Hand.body_obligation1 m))

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Value.run (F := Ideal) m ρ)

/-- Both idealized programs end with the result buffer at the one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RefSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run (Cert.KernelIdeal.defs (F := Ideal)) _ _).mono (fun r h c => ⟨?_, (h c).2⟩)
      (Cert.KernelIdeal.Hand.run_main (F := Ideal) m ρ (Cert.KernelIdeal.Hand.body_obligation0 m) (Cert.KernelIdeal.Hand.body_obligation1 m))
    obtain ⟨o, ho⟩ := (h c).1
    exact ho.trans (Cert.Bridge.result_eq m o c)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v16_eq, Cert.RefSpec.reference_eq_G,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
